-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v132)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v132) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v274) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part4 {F : FTy → Type} [FloatOps F] (main_arg16 : FVec F S128 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  main_v73

def fn_part3 {F : FTy → Type} [FloatOps F] (main_arg13 : FVec F S32x32 .f32) (main_arg14 : FVec F S32 .f32) (main_arg15 : FVec F S32x128 .f32) (main_arg16 : FVec F S128 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x128 .f32 := Host.absf main_arg15
  let main_cst_24 : FVec F S_ .f32 := constant S_ .f32 0x7F800000#32
  let main_v65 : FVec F S32x128 .f32 := broadcastInDim S32x128 ![] bcast_S_S32x128 main_cst_24
  let main_v66 : IVec S32x128 1 := cmpf .olt main_v64 main_v65
  let main_c_25 : IVec S_ 1 := constantI S_ 1 1#1
  let main_v67 : IVec S_ 1 := (fun x v => Host.reduce IntOp.andi x v reducesTo_S32x128_S_d0_1 h_S_) main_v66 main_c_25
  fn_part4 (F := F) main_arg16 main_v63 main_v67

def fn_part2 {F : FTy → Type} [FloatOps F] (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x128 .f32) (main_arg16 : FVec F S128 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_v48 main_v49 main_v50

def fn_part1 {F : FTy → Type} [FloatOps F] (main_arg6 : FVec F S32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x128 .f32) (main_arg16 : FVec F S128 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x32 .f32) (main_arg1 : IVec S2x3200000 32) (main_arg2 : IVec S100000 32) (main_arg3 : FVec F S32x32 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S32x32 .f32) (main_arg12 : FVec F S32 .f32) (main_arg13 : FVec F S32x32 .f32) (main_arg14 : FVec F S32 .f32) (main_arg15 : FVec F S32x128 .f32) (main_arg16 : FVec F S128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x32 .f32 := Host.absf main_arg3
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x32 : Shape := ⟨2, ![100000, 32]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S32x128 : Shape := ⟨2, ![32, 128]⟩
abbrev S128 : Shape := ⟨1, ![128]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S5000x32 : Shape := ⟨2, ![5000, 32]⟩
abbrev S3300000x32 : Shape := ⟨2, ![3300000, 32]⟩
abbrev S1x32 : Shape := ⟨2, ![1, 32]⟩
abbrev S8192x32 : Shape := ⟨2, ![8192, 32]⟩
abbrev S100000x1 : Shape := ⟨2, ![100000, 1]⟩
abbrev S8192 : Shape := ⟨1, ![8192]⟩
abbrev S8192x1 : Shape := ⟨2, ![8192, 1]⟩
abbrev S1x128 : Shape := ⟨2, ![1, 128]⟩
abbrev S8192x128 : Shape := ⟨2, ![8192, 128]⟩

abbrev nBuf : Space → Nat
  | .hbm => 181
  | .vmem => 59
  | .smem => 0
  | _ => 0

abbrev hbmTy0_0 (i : Nat) : BufTy := match i % 128 with
  | 0 => ⟨S100000x32, .f32⟩
  | 1 => ⟨S2x3200000, .i32⟩
  | 2 => ⟨S100000, .i32⟩
  | 3 => ⟨S32x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x128, .f32⟩
  | 16 => ⟨S128, .f32⟩
  | 17 => ⟨S1x3200000, .i32⟩
  | 18 => ⟨S3200000, .i32⟩
  | 19 => ⟨S1x3200000, .i32⟩
  | 20 => ⟨S3200000, .i32⟩
  | 21 => ⟨S100000, .i32⟩
  | 22 => ⟨S3300000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S_, .i32⟩
  | 48 => ⟨S3300000, .i32⟩
  | 49 => ⟨S3300000, .i1⟩
  | 50 => ⟨S_, .i32⟩
  | 51 => ⟨S3300000, .i32⟩
  | 52 => ⟨S3300000, .i32⟩
  | 53 => ⟨S3300000, .i32⟩
  | 54 => ⟨S3300000x1, .i32⟩
  | 55 => ⟨S3300000, .f32⟩
  | 56 => ⟨S3300000, .f32⟩
  | 57 => ⟨S100000x32, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x32, .f32⟩
  | 67 => ⟨S3300000x1, .f32⟩
  | 68 => ⟨S3300000x32, .f32⟩
  | 69 => ⟨S3300000x32, .f32⟩
  | 70 => ⟨S_, .f32⟩
  | 71 => ⟨S100000x32, .f32⟩
  | 72 => ⟨S3300000x1, .i32⟩
  | 73 => ⟨S100000x32, .f32⟩
  | 74 => ⟨S1x32, .f32⟩
  | 75 => ⟨S100000x32, .f32⟩
  | 76 => ⟨S_, .i32⟩
  | 77 => ⟨S3300000, .i32⟩
  | 78 => ⟨S3300000, .i1⟩
  | 79 => ⟨S_, .i32⟩
  | 80 => ⟨S3300000, .i32⟩
  | 81 => ⟨S3300000, .i32⟩
  | 82 => ⟨S3300000, .i32⟩
  | 83 => ⟨S3300000x1, .i32⟩
  | 84 => ⟨S3300000x32, .f32⟩
  | 85 => ⟨S3300000x1, .f32⟩
  | 86 => ⟨S3300000x32, .f32⟩
  | 87 => ⟨S3300000x32, .f32⟩
  | 88 => ⟨S_, .f32⟩
  | 89 => ⟨S100000x32, .f32⟩
  | 90 => ⟨S3300000x1, .i32⟩
  | 91 => ⟨S100000x32, .f32⟩
  | 92 => ⟨S1x32, .f32⟩
  | 93 => ⟨S100000x32, .f32⟩
  | 94 => ⟨S100000x32, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000x32, .f32⟩
  | 104 => ⟨S3300000x1, .f32⟩
  | 105 => ⟨S3300000x32, .f32⟩
  | 106 => ⟨S3300000x32, .f32⟩
  | 107 => ⟨S_, .f32⟩
  | 108 => ⟨S100000x32, .f32⟩
  | 109 => ⟨S3300000x1, .i32⟩
  | 110 => ⟨S100000x32, .f32⟩
  | 111 => ⟨S1x32, .f32⟩
  | 112 => ⟨S100000x32, .f32⟩
  | 113 => ⟨S_, .i32⟩
  | 114 => ⟨S3300000, .i32⟩
  | 115 => ⟨S3300000, .i1⟩
  | 116 => ⟨S_, .i32⟩
  | 117 => ⟨S3300000, .i32⟩
  | 118 => ⟨S3300000, .i32⟩
  | 119 => ⟨S3300000, .i32⟩
  | 120 => ⟨S3300000x1, .i32⟩
  | 121 => ⟨S3300000x32, .f32⟩
  | 122 => ⟨S3300000x1, .f32⟩
  | 123 => ⟨S3300000x32, .f32⟩
  | 124 => ⟨S3300000x32, .f32⟩
  | 125 => ⟨S_, .f32⟩
  | 126 => ⟨S100000x32, .f32⟩
  | 127 => ⟨S3300000x1, .i32⟩
  | _ => ⟨S100000x32, .f32⟩

abbrev hbmTy0_1 (i : Nat) : BufTy := match i % 128 with
  | 0 => ⟨S100000x32, .f32⟩
  | 1 => ⟨S1x32, .f32⟩
  | 2 => ⟨S100000x32, .f32⟩
  | 3 => ⟨S100000x32, .f32⟩
  | 4 => ⟨S_, .i32⟩
  | 5 => ⟨S3300000, .i32⟩
  | 6 => ⟨S3300000, .i1⟩
  | 7 => ⟨S_, .i32⟩
  | 8 => ⟨S3300000, .i32⟩
  | 9 => ⟨S3300000, .i32⟩
  | 10 => ⟨S3300000, .i32⟩
  | 11 => ⟨S3300000x1, .i32⟩
  | 12 => ⟨S3300000x32, .f32⟩
  | 13 => ⟨S3300000x1, .f32⟩
  | 14 => ⟨S3300000x32, .f32⟩
  | 15 => ⟨S3300000x32, .f32⟩
  | 16 => ⟨S_, .f32⟩
  | 17 => ⟨S100000x32, .f32⟩
  | 18 => ⟨S3300000x1, .i32⟩
  | 19 => ⟨S100000x32, .f32⟩
  | 20 => ⟨S1x32, .f32⟩
  | 21 => ⟨S100000x32, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000x32, .f32⟩
  | 31 => ⟨S3300000x1, .f32⟩
  | 32 => ⟨S3300000x32, .f32⟩
  | 33 => ⟨S3300000x32, .f32⟩
  | 34 => ⟨S_, .f32⟩
  | 35 => ⟨S100000x32, .f32⟩
  | 36 => ⟨S3300000x1, .i32⟩
  | 37 => ⟨S100000x32, .f32⟩
  | 38 => ⟨S1x32, .f32⟩
  | 39 => ⟨S100000x32, .f32⟩
  | 40 => ⟨S_, .f32⟩
  | 41 => ⟨S8192x32, .f32⟩
  | 42 => ⟨S100000x1, .i32⟩
  | 43 => ⟨S8192x32, .f32⟩
  | 44 => ⟨S_, .f32⟩
  | 45 => ⟨S100000, .f32⟩
  | 46 => ⟨S_, .f32⟩
  | 47 => ⟨S8192, .f32⟩
  | 48 => ⟨S100000x1, .i32⟩
  | 49 => ⟨S8192, .f32⟩
  | 50 => ⟨S8192x1, .f32⟩
  | 51 => ⟨S1x128, .f32⟩
  | 52 => ⟨S8192x128, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S1x32, .f32⟩
  | .local _ .vmem, ⟨8, _⟩ => ⟨S32x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S1x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S32x32, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S1x32, .f32⟩
  | .local _ .vmem, ⟨26, _⟩ => ⟨S32x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S1x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x32, .f32⟩
  | .local _ .vmem, ⟨37, _⟩ => ⟨S5000x32, .f32⟩
  | .local _ .vmem, ⟨38, _⟩ => ⟨S32x32, .f32⟩
  | .local _ .vmem, ⟨39, _⟩ => ⟨S5000x32, .f32⟩
  | .local _ .vmem, ⟨40, _⟩ => ⟨S5000x32, .f32⟩
  | .local _ .vmem, ⟨41, _⟩ => ⟨S5000x32, .f32⟩
  | .local _ .vmem, ⟨42, _⟩ => ⟨S5000x32, .f32⟩
  | .local _ .vmem, ⟨43, _⟩ => ⟨S1x32, .f32⟩
  | .local _ .vmem, ⟨44, _⟩ => ⟨S32x32, .f32⟩
  | .local _ .vmem, ⟨45, _⟩ => ⟨S5000x32, .f32⟩
  | .local _ .vmem, ⟨46, _⟩ => ⟨S5000x32, .f32⟩
  | .local _ .vmem, ⟨47, _⟩ => ⟨S5000x32, .f32⟩
  | .local _ .vmem, ⟨48, _⟩ => ⟨S5000x32, .f32⟩
  | .local _ .vmem, ⟨49, _⟩ => ⟨S1x32, .f32⟩
  | .local _ .vmem, ⟨50, _⟩ => ⟨S5000x32, .f32⟩
  | .local _ .vmem, ⟨51, _⟩ => ⟨S5000x32, .f32⟩
  | .local _ .vmem, ⟨52, _⟩ => ⟨S5000x32, .f32⟩
  | .local _ .vmem, ⟨53, _⟩ => ⟨S5000x32, .f32⟩
  | .local _ .vmem, ⟨54, _⟩ => ⟨S8192x32, .f32⟩
  | .local _ .vmem, ⟨55, _⟩ => ⟨S8192x1, .f32⟩
  | .local _ .vmem, ⟨56, _⟩ => ⟨S32x128, .f32⟩
  | .local _ .vmem, ⟨57, _⟩ => ⟨S1x128, .f32⟩
  | .local _ .vmem, ⟨58, _⟩ => ⟨S8192x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_3 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_4 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_c_9 : Ref sig .tc := ⟨.hbm, 76, rfl⟩
abbrev main_v46 : Ref sig .tc := ⟨.hbm, 77, rfl⟩
abbrev main_v47 : Ref sig .tc := ⟨.hbm, 78, rfl⟩
abbrev main_c_10 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_c_12 : Ref sig .tc := ⟨.hbm, 95, rfl⟩
abbrev main_v62 : Ref sig .tc := ⟨.hbm, 96, rfl⟩
abbrev main_v63 : Ref sig .tc := ⟨.hbm, 97, rfl⟩
abbrev main_c_13 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_14 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_15 : Ref sig .tc := ⟨.hbm, 113, rfl⟩
abbrev main_v77 : Ref sig .tc := ⟨.hbm, 114, rfl⟩
abbrev main_v78 : Ref sig .tc := ⟨.hbm, 115, rfl⟩
abbrev main_c_16 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_c_18 : Ref sig .tc := ⟨.hbm, 132, rfl⟩
abbrev main_v93 : Ref sig .tc := ⟨.hbm, 133, rfl⟩
abbrev main_v94 : Ref sig .tc := ⟨.hbm, 134, rfl⟩
abbrev main_c_19 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_cst_20 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_21 : Ref sig .tc := ⟨.hbm, 150, rfl⟩
abbrev main_v108 : Ref sig .tc := ⟨.hbm, 151, rfl⟩
abbrev main_v109 : Ref sig .tc := ⟨.hbm, 152, rfl⟩
abbrev main_c_22 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_23 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_cst_24 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_cst_25 : Ref sig .tc := ⟨.hbm, 172, rfl⟩
abbrev main_v126 : Ref sig .tc := ⟨.hbm, 173, rfl⟩
abbrev main_cst_26 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc5_stg0_0 : Ref sig .tc := ⟨.vmem, 29, rfl⟩
abbrev cc5_stg0_1 : Ref sig .tc := ⟨.vmem, 30, rfl⟩
abbrev cc5_stg1_0 : Ref sig .tc := ⟨.vmem, 31, rfl⟩
abbrev cc5_stg2_0 : Ref sig .tc := ⟨.vmem, 32, rfl⟩
abbrev cc5_stg2_1 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg2_0 : Ref sig .tc := ⟨.vmem, 39, rfl⟩
abbrev cc6_stg2_1 : Ref sig .tc := ⟨.vmem, 40, rfl⟩
abbrev cc7_stg0_0 : Ref sig .tc := ⟨.vmem, 41, rfl⟩
abbrev cc7_stg0_1 : Ref sig .tc := ⟨.vmem, 42, rfl⟩
abbrev cc7_stg1_0 : Ref sig .tc := ⟨.vmem, 43, rfl⟩
abbrev cc7_stg2_0 : Ref sig .tc := ⟨.vmem, 44, rfl⟩
abbrev cc7_stg3_0 : Ref sig .tc := ⟨.vmem, 45, rfl⟩
abbrev cc7_stg3_1 : Ref sig .tc := ⟨.vmem, 46, rfl⟩
abbrev cc8_stg0_0 : Ref sig .tc := ⟨.vmem, 47, rfl⟩
abbrev cc8_stg0_1 : Ref sig .tc := ⟨.vmem, 48, rfl⟩
abbrev cc8_stg1_0 : Ref sig .tc := ⟨.vmem, 49, rfl⟩
abbrev cc8_stg2_0 : Ref sig .tc := ⟨.vmem, 50, rfl⟩
abbrev cc8_stg2_1 : Ref sig .tc := ⟨.vmem, 51, rfl⟩
abbrev cc8_stg3_0 : Ref sig .tc := ⟨.vmem, 52, rfl⟩
abbrev cc8_stg3_1 : Ref sig .tc := ⟨.vmem, 53, rfl⟩
abbrev cc9_stg0_0 : Ref sig .tc := ⟨.vmem, 54, rfl⟩
abbrev cc9_stg1_0 : Ref sig .tc := ⟨.vmem, 55, rfl⟩
abbrev cc9_stg2_0 : Ref sig .tc := ⟨.vmem, 56, rfl⟩
abbrev cc9_stg3_0 : Ref sig .tc := ⟨.vmem, 57, rfl⟩
abbrev cc9_stg4_0 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28
abbrev cc5_sem0_0 : DmaSem sig := 29
abbrev cc5_sem0_1 : DmaSem sig := 30
abbrev cc5_sem1_0 : DmaSem sig := 31
abbrev cc5_sem2_0 : DmaSem sig := 32
abbrev cc5_sem2_1 : DmaSem sig := 33
abbrev cc5_sem3_0 : DmaSem sig := 34
abbrev cc5_sem3_1 : DmaSem sig := 35
abbrev cc6_sem0_0 : DmaSem sig := 36
abbrev cc6_sem0_1 : DmaSem sig := 37
abbrev cc6_sem1_0 : DmaSem sig := 38
abbrev cc6_sem2_0 : DmaSem sig := 39
abbrev cc6_sem2_1 : DmaSem sig := 40
abbrev cc7_sem0_0 : DmaSem sig := 41
abbrev cc7_sem0_1 : DmaSem sig := 42
abbrev cc7_sem1_0 : DmaSem sig := 43
abbrev cc7_sem2_0 : DmaSem sig := 44
abbrev cc7_sem3_0 : DmaSem sig := 45
abbrev cc7_sem3_1 : DmaSem sig := 46
abbrev cc8_sem0_0 : DmaSem sig := 47
abbrev cc8_sem0_1 : DmaSem sig := 48
abbrev cc8_sem1_0 : DmaSem sig := 49
abbrev cc8_sem2_0 : DmaSem sig := 50
abbrev cc8_sem2_1 : DmaSem sig := 51
abbrev cc8_sem3_0 : DmaSem sig := 52
abbrev cc8_sem3_1 : DmaSem sig := 53
abbrev cc9_sem0_0 : DmaSem sig := 54
abbrev cc9_sem1_0 : DmaSem sig := 55
abbrev cc9_sem2_0 : DmaSem sig := 56
abbrev cc9_sem3_0 : DmaSem sig := 57
abbrev cc9_sem4_0 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S32x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S32x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x32 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S32x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S8192x32 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S8192x1 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S32x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S8192x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x32_S32x32_0_0 : ∀ a, (![0, 0] : Fin 2 → Nat) a + S32x32.size a ≤ S32x32.size a
  h_S32x32 : 0 < S32x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  bcast_S_S8192x32 : S_.BroadcastsInDim S8192x32 (![] : Fin 0 → Fin S8192x32.rank)
  bcast_S100000_S100000x1_0 : S100000.BroadcastsInDim S100000x1 (![0] : Fin 1 → Fin S100000x1.rank)
  bcast_S_S8192 : S_.BroadcastsInDim S8192 (![] : Fin 0 → Fin S8192.rank)
  shapeCasts_S8192_S8192x1 : S8192.ShapeCasts S8192x1
  shapeCasts_S128_S1x128 : S128.ShapeCasts S1x128
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  broadcasts_S8192x1_S8192x32 : S8192x1.Broadcasts S8192x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x32_S32x32_S5000x32_1_0_0_1_n_n_wf : DotDims.WF S5000x32 S32x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S8192x32_S100000x1_S100000x32_1_0_0_1_wf : ScatterDims.WF S8192x32 S100000x1 S100000x32 [1] [0] [0] 1
  scatter_S8192_S100000x1_S100000_n_0_0_1_wf : ScatterDims.WF S8192 S100000x1 S100000 [] [0] [0] 1
  dot_S8192x32_S32x128_S8192x128_1_0_0_1_n_n_wf : DotDims.WF S8192x32 S32x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x32.size a ≤ S100000x32.size a
  hwx1_3 : ∀ i : grid1.Coords, EltTy.bits .f32 = 32 ∨ (Rect.block (s := S100000x32) S5000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x32.size a ≤ S100000x32.size a
  hwx2_2 : ∀ i : grid2.Coords, EltTy.bits .f32 = 32 ∨ (Rect.block (s := S100000x32) S5000x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S32x32.size a ≤ S32x32.size a
  hwx3_1 : ∀ i : grid3.Coords, EltTy.bits .f32 = 32 ∨ (Rect.block (s := S32x32) S32x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x32.size a ≤ S1x32.size a
  hwx4_1 : ∀ i : grid4.Coords, EltTy.bits .f32 = 32 ∨ (Rect.block (s := S1x32) S1x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S32x32.size a ≤ S32x32.size a
  hwx4_2 : ∀ i : grid4.Coords, EltTy.bits .f32 = 32 ∨ (Rect.block (s := S32x32) S32x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x32.size a ≤ S100000x32.size a
  hwx4_3 : ∀ i : grid4.Coords, EltTy.bits .f32 = 32 ∨ (Rect.block (s := S100000x32) S5000x32.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x32.size a ≤ S100000x32.size a
  hwx5_0 : ∀ i : grid5.Coords, EltTy.bits .f32 = 32 ∨ (Rect.block (s := S100000x32) S5000x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x32.size a ≤ S1x32.size a
  hwx5_1 : ∀ i : grid5.Coords, EltTy.bits .f32 = 32 ∨ (Rect.block (s := S1x32) S1x32.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x32.size a ≤ S100000x32.size a
  hwx5_2 : ∀ i : grid5.Coords, EltTy.bits .f32 = 32 ∨ (Rect.block (s := S100000x32) S5000x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x32.size a ≤ S100000x32.size a
  hwx5_3 : ∀ i : grid5.Coords, EltTy.bits .f32 = 32 ∨ (Rect.block (s := S100000x32) S5000x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x32.size a ≤ S100000x32.size a
  hwx6_0 : ∀ i : grid6.Coords, EltTy.bits .f32 = 32 ∨ (Rect.block (s := S100000x32) S5000x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x32.size a ≤ S100000x32.size a
  hwx6_2 : ∀ i : grid6.Coords, EltTy.bits .f32 = 32 ∨ (Rect.block (s := S100000x32) S5000x32.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x32.size a ≤ S1x32.size a
  hwx7_1 : ∀ i : grid7.Coords, EltTy.bits .f32 = 32 ∨ (Rect.block (s := S1x32) S1x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S32x32.size a ≤ S32x32.size a
  hwx7_2 : ∀ i : grid7.Coords, EltTy.bits .f32 = 32 ∨ (Rect.block (s := S32x32) S32x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x32.size a ≤ S100000x32.size a
  hwx7_3 : ∀ i : grid7.Coords, EltTy.bits .f32 = 32 ∨ (Rect.block (s := S100000x32) S5000x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x32.size a ≤ S100000x32.size a
  hwx8_0 : ∀ i : grid8.Coords, EltTy.bits .f32 = 32 ∨ (Rect.block (s := S100000x32) S5000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x32.size a ≤ S100000x32.size a
  hwx8_2 : ∀ i : grid8.Coords, EltTy.bits .f32 = 32 ∨ (Rect.block (s := S100000x32) S5000x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x32.size a ≤ S100000x32.size a
  hwx8_3 : ∀ i : grid8.Coords, EltTy.bits .f32 = 32 ∨ (Rect.block (s := S100000x32) S5000x32.size (cc8_transform_3 i) (hinb8_3 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S8192x32.size a ≤ S8192x32.size a
  hwx9_0 : ∀ i : grid9.Coords, EltTy.bits .f32 = 32 ∨ (Rect.block (s := S8192x32) S8192x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S8192x1.size a ≤ S8192x1.size a
  hwx9_1 : ∀ i : grid9.Coords, EltTy.bits .f32 = 32 ∨ (Rect.block (s := S8192x1) S8192x1.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S32x128.size a ≤ S32x128.size a
  hwx9_2 : ∀ i : grid9.Coords, EltTy.bits .f32 = 32 ∨ (Rect.block (s := S32x128) S32x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x128.size a ≤ S1x128.size a
  hwx9_3 : ∀ i : grid9.Coords, EltTy.bits .f32 = 32 ∨ (Rect.block (s := S1x128) S1x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S8192x128.size a ≤ S8192x128.size a
  hwx9_4 : ∀ i : grid9.Coords, EltTy.bits .f32 = 32 ∨ (Rect.block (s := S8192x128) S8192x128.size (cc9_transform_4 i) (hinb9_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S8192x32_S100000x1_S100000x32_1_0_0_1 : ScatterDims S8192x32 S100000x1 S100000x32 where
  updateWindowDims := [1]
  insertedWindowDims := [0]
  scatterDimsToOperandDims := [0]
  indexVectorDim := 1
  wf := scatter_S8192x32_S100000x1_S100000x32_1_0_0_1_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S5000x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S32x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v75) S1x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg9) S32x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S5000x32.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v89) S5000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v90) S1x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v60) S5000x32.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v91) S5000x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v91) S5000x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v92) S5000x32.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v105) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v106) S1x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg13) S32x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v107) S5000x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v120) S5000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v121) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S5000x32.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v122) S5000x32.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v125) S8192x32.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_v130) S8192x1.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg15) S32x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S8192x128.size cc9_transform_4 reads9_4 true true 1 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

class Facts : Prop extends Facts₀ where

variable [Facts]
-- ==== ReferenceIdeal.lean ====
abbrev S100000x32 : Shape := ⟨2, ![100000, 32]⟩
abbrev S2x3200000 : Shape := ⟨2, ![2, 3200000]⟩
abbrev S100000 : Shape := ⟨1, ![100000]⟩
abbrev S32x32 : Shape := ⟨2, ![32, 32]⟩
abbrev S32 : Shape := ⟨1, ![32]⟩
abbrev S32x128 : Shape := ⟨2, ![32, 128]⟩
abbrev S128 : Shape := ⟨1, ![128]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x32 : Shape := ⟨2, ![3300000, 32]⟩
abbrev S1x32 : Shape := ⟨2, ![1, 32]⟩
abbrev S8192x32 : Shape := ⟨2, ![8192, 32]⟩
abbrev S100000x1 : Shape := ⟨2, ![100000, 1]⟩
abbrev S8192 : Shape := ⟨1, ![8192]⟩
abbrev S8192x1 : Shape := ⟨2, ![8192, 1]⟩
abbrev S8192x128 : Shape := ⟨2, ![8192, 128]⟩
abbrev S1x128 : Shape := ⟨2, ![1, 128]⟩

abbrev nBuf : Space → Nat
  | .hbm => 392
  | .vmem => 0
  | .smem => 0
  | _ => 0

abbrev hbmTy0_0 (i : Nat) : BufTy := match i % 128 with
  | 0 => ⟨S100000x32, .f32⟩
  | 1 => ⟨S2x3200000, .i32⟩
  | 2 => ⟨S100000, .i32⟩
  | 3 => ⟨S32x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x128, .f32⟩
  | 16 => ⟨S128, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S100000x32, .f32⟩
  | 25 => ⟨S_, .f32⟩
  | 26 => ⟨S3300000, .f32⟩
  | 27 => ⟨S_, .f32⟩
  | 28 => ⟨S100000, .f32⟩
  | 29 => ⟨S3300000x1, .i32⟩
  | 30 => ⟨S100000, .f32⟩
  | 31 => ⟨S_, .f32⟩
  | 32 => ⟨S100000, .f32⟩
  | 33 => ⟨S100000, .i1⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S3300000, .i32⟩
  | 41 => ⟨S3300000, .i1⟩
  | 42 => ⟨S_, .i32⟩
  | 43 => ⟨S3300000, .i32⟩
  | 44 => ⟨S3300000, .i32⟩
  | 45 => ⟨S3300000, .i32⟩
  | 46 => ⟨S3300000x1, .i32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S_, .i32⟩
  | 59 => ⟨S3300000, .i32⟩
  | 60 => ⟨S3300000, .i1⟩
  | 61 => ⟨S_, .i32⟩
  | 62 => ⟨S3300000, .i32⟩
  | 63 => ⟨S3300000, .i32⟩
  | 64 => ⟨S3300000, .i32⟩
  | 65 => ⟨S3300000x1, .i32⟩
  | 66 => ⟨S3300000x32, .f32⟩
  | 67 => ⟨S3300000x1, .f32⟩
  | 68 => ⟨S3300000x32, .f32⟩
  | 69 => ⟨S3300000x32, .f32⟩
  | 70 => ⟨S_, .f32⟩
  | 71 => ⟨S100000x32, .f32⟩
  | 72 => ⟨S3300000x1, .i32⟩
  | 73 => ⟨S100000x32, .f32⟩
  | 74 => ⟨S1x32, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x32, .f32⟩
  | 81 => ⟨S_, .f32⟩
  | 82 => ⟨S3300000, .f32⟩
  | 83 => ⟨S_, .f32⟩
  | 84 => ⟨S100000, .f32⟩
  | 85 => ⟨S3300000x1, .i32⟩
  | 86 => ⟨S100000, .f32⟩
  | 87 => ⟨S_, .f32⟩
  | 88 => ⟨S100000, .f32⟩
  | 89 => ⟨S100000, .i1⟩
  | 90 => ⟨S100000, .f32⟩
  | 91 => ⟨S_, .f32⟩
  | 92 => ⟨S_, .f32⟩
  | 93 => ⟨S100000, .f32⟩
  | 94 => ⟨S100000, .f32⟩
  | 95 => ⟨S_, .i32⟩
  | 96 => ⟨S3300000, .i32⟩
  | 97 => ⟨S3300000, .i1⟩
  | 98 => ⟨S_, .i32⟩
  | 99 => ⟨S3300000, .i32⟩
  | 100 => ⟨S3300000, .i32⟩
  | 101 => ⟨S3300000, .i32⟩
  | 102 => ⟨S3300000x1, .i32⟩
  | 103 => ⟨S3300000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000x32, .f32⟩
  | 123 => ⟨S3300000x1, .f32⟩
  | 124 => ⟨S3300000x32, .f32⟩
  | 125 => ⟨S3300000x32, .f32⟩
  | 126 => ⟨S_, .f32⟩
  | 127 => ⟨S100000x32, .f32⟩
  | _ => ⟨S100000x32, .f32⟩

abbrev hbmTy0_1 (i : Nat) : BufTy := match i % 128 with
  | 0 => ⟨S3300000x1, .i32⟩
  | 1 => ⟨S100000x32, .f32⟩
  | 2 => ⟨S1x32, .f32⟩
  | 3 => ⟨S100000x32, .f32⟩
  | 4 => ⟨S100000x32, .f32⟩
  | 5 => ⟨S100000x32, .f32⟩
  | 6 => ⟨S_, .f32⟩
  | 7 => ⟨S100000x32, .f32⟩
  | 8 => ⟨S100000x32, .f32⟩
  | 9 => ⟨S_, .f32⟩
  | 10 => ⟨S100000x32, .f32⟩
  | 11 => ⟨S100000x32, .f32⟩
  | 12 => ⟨S100000x32, .f32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S3300000, .i32⟩
  | 29 => ⟨S3300000, .i1⟩
  | 30 => ⟨S_, .i32⟩
  | 31 => ⟨S3300000, .i32⟩
  | 32 => ⟨S3300000, .i32⟩
  | 33 => ⟨S3300000, .i32⟩
  | 34 => ⟨S3300000x1, .i32⟩
  | 35 => ⟨S3300000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S3300000, .f32⟩
  | 46 => ⟨S_, .i32⟩
  | 47 => ⟨S3300000, .i32⟩
  | 48 => ⟨S3300000, .i1⟩
  | 49 => ⟨S_, .i32⟩
  | 50 => ⟨S3300000, .i32⟩
  | 51 => ⟨S3300000, .i32⟩
  | 52 => ⟨S3300000, .i32⟩
  | 53 => ⟨S3300000x1, .i32⟩
  | 54 => ⟨S3300000x32, .f32⟩
  | 55 => ⟨S3300000x1, .f32⟩
  | 56 => ⟨S3300000x32, .f32⟩
  | 57 => ⟨S3300000x32, .f32⟩
  | 58 => ⟨S_, .f32⟩
  | 59 => ⟨S100000x32, .f32⟩
  | 60 => ⟨S3300000x1, .i32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000x32, .f32⟩
  | 69 => ⟨S_, .f32⟩
  | 70 => ⟨S3300000, .f32⟩
  | 71 => ⟨S_, .f32⟩
  | 72 => ⟨S100000, .f32⟩
  | 73 => ⟨S3300000x1, .i32⟩
  | 74 => ⟨S100000, .f32⟩
  | 75 => ⟨S_, .f32⟩
  | 76 => ⟨S100000, .f32⟩
  | 77 => ⟨S100000, .i1⟩
  | 78 => ⟨S100000, .f32⟩
  | 79 => ⟨S_, .f32⟩
  | 80 => ⟨S_, .f32⟩
  | 81 => ⟨S100000, .f32⟩
  | 82 => ⟨S100000, .f32⟩
  | 83 => ⟨S_, .i32⟩
  | 84 => ⟨S3300000, .i32⟩
  | 85 => ⟨S3300000, .i1⟩
  | 86 => ⟨S_, .i32⟩
  | 87 => ⟨S3300000, .i32⟩
  | 88 => ⟨S3300000, .i32⟩
  | 89 => ⟨S3300000, .i32⟩
  | 90 => ⟨S3300000x1, .i32⟩
  | 91 => ⟨S3300000, .f32⟩
  | 92 => ⟨S_, .i32⟩
  | 93 => ⟨S3300000, .i32⟩
  | 94 => ⟨S3300000, .i1⟩
  | 95 => ⟨S_, .i32⟩
  | 96 => ⟨S3300000, .i32⟩
  | 97 => ⟨S3300000, .i32⟩
  | 98 => ⟨S3300000, .i32⟩
  | 99 => ⟨S3300000x1, .i32⟩
  | 100 => ⟨S3300000, .f32⟩
  | 101 => ⟨S3300000, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x32, .f32⟩
  | 111 => ⟨S3300000x1, .f32⟩
  | 112 => ⟨S3300000x32, .f32⟩
  | 113 => ⟨S3300000x32, .f32⟩
  | 114 => ⟨S_, .f32⟩
  | 115 => ⟨S100000x32, .f32⟩
  | 116 => ⟨S3300000x1, .i32⟩
  | 117 => ⟨S100000x32, .f32⟩
  | 118 => ⟨S1x32, .f32⟩
  | 119 => ⟨S100000x32, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S_, .f32⟩
  | 126 => ⟨S100000x32, .f32⟩
  | 127 => ⟨S100000x32, .f32⟩
  | _ => ⟨S100000x32, .f32⟩

abbrev hbmTy0_2 (i : Nat) : BufTy := match i % 128 with
  | 0 => ⟨S100000x32, .f32⟩
  | 1 => ⟨S_, .f32⟩
  | 2 => ⟨S3300000, .f32⟩
  | 3 => ⟨S_, .f32⟩
  | 4 => ⟨S100000, .f32⟩
  | 5 => ⟨S3300000x1, .i32⟩
  | 6 => ⟨S100000, .f32⟩
  | 7 => ⟨S_, .f32⟩
  | 8 => ⟨S100000, .f32⟩
  | 9 => ⟨S100000, .i1⟩
  | 10 => ⟨S100000, .f32⟩
  | 11 => ⟨S_, .f32⟩
  | 12 => ⟨S_, .f32⟩
  | 13 => ⟨S100000, .f32⟩
  | 14 => ⟨S100000, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S3300000, .f32⟩
  | 24 => ⟨S_, .i32⟩
  | 25 => ⟨S3300000, .i32⟩
  | 26 => ⟨S3300000, .i1⟩
  | 27 => ⟨S_, .i32⟩
  | 28 => ⟨S3300000, .i32⟩
  | 29 => ⟨S3300000, .i32⟩
  | 30 => ⟨S3300000, .i32⟩
  | 31 => ⟨S3300000x1, .i32⟩
  | 32 => ⟨S3300000, .f32⟩
  | 33 => ⟨S3300000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000x32, .f32⟩
  | 43 => ⟨S3300000x1, .f32⟩
  | 44 => ⟨S3300000x32, .f32⟩
  | 45 => ⟨S3300000x32, .f32⟩
  | 46 => ⟨S_, .f32⟩
  | 47 => ⟨S100000x32, .f32⟩
  | 48 => ⟨S3300000x1, .i32⟩
  | 49 => ⟨S100000x32, .f32⟩
  | 50 => ⟨S1x32, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S_, .f32⟩
  | 58 => ⟨S3300000, .f32⟩
  | 59 => ⟨S_, .f32⟩
  | 60 => ⟨S100000, .f32⟩
  | 61 => ⟨S3300000x1, .i32⟩
  | 62 => ⟨S100000, .f32⟩
  | 63 => ⟨S_, .f32⟩
  | 64 => ⟨S100000, .f32⟩
  | 65 => ⟨S100000, .i1⟩
  | 66 => ⟨S100000, .f32⟩
  | 67 => ⟨S_, .f32⟩
  | 68 => ⟨S_, .f32⟩
  | 69 => ⟨S100000, .f32⟩
  | 70 => ⟨S100000, .f32⟩
  | 71 => ⟨S_, .i32⟩
  | 72 => ⟨S3300000, .i32⟩
  | 73 => ⟨S3300000, .i1⟩
  | 74 => ⟨S_, .i32⟩
  | 75 => ⟨S3300000, .i32⟩
  | 76 => ⟨S3300000, .i32⟩
  | 77 => ⟨S3300000, .i32⟩
  | 78 => ⟨S3300000x1, .i32⟩
  | 79 => ⟨S3300000, .f32⟩
  | 80 => ⟨S_, .i32⟩
  | 81 => ⟨S3300000, .i32⟩
  | 82 => ⟨S3300000, .i1⟩
  | 83 => ⟨S_, .i32⟩
  | 84 => ⟨S3300000, .i32⟩
  | 85 => ⟨S3300000, .i32⟩
  | 86 => ⟨S3300000, .i32⟩
  | 87 => ⟨S3300000x1, .i32⟩
  | 88 => ⟨S3300000, .f32⟩
  | 89 => ⟨S3300000, .f32⟩
  | 90 => ⟨S_, .i32⟩
  | 91 => ⟨S3300000, .i32⟩
  | 92 => ⟨S3300000, .i1⟩
  | 93 => ⟨S_, .i32⟩
  | 94 => ⟨S3300000, .i32⟩
  | 95 => ⟨S3300000, .i32⟩
  | 96 => ⟨S3300000, .i32⟩
  | 97 => ⟨S3300000x1, .i32⟩
  | 98 => ⟨S3300000x32, .f32⟩
  | 99 => ⟨S3300000x1, .f32⟩
  | 100 => ⟨S3300000x32, .f32⟩
  | 101 => ⟨S3300000x32, .f32⟩
  | 102 => ⟨S_, .f32⟩
  | 103 => ⟨S100000x32, .f32⟩
  | 104 => ⟨S3300000x1, .i32⟩
  | 105 => ⟨S100000x32, .f32⟩
  | 106 => ⟨S1x32, .f32⟩
  | 107 => ⟨S100000x32, .f32⟩
  | 108 => ⟨S100000x32, .f32⟩
  | 109 => ⟨S100000x32, .f32⟩
  | 110 => ⟨S_, .f32⟩
  | 111 => ⟨S100000x32, .f32⟩
  | 112 => ⟨S100000x32, .f32⟩
  | 113 => ⟨S_, .f32⟩
  | 114 => ⟨S100000x32, .f32⟩
  | 115 => ⟨S100000x32, .f32⟩
  | 116 => ⟨S_, .f32⟩
  | 117 => ⟨S8192x32, .f32⟩
  | 118 => ⟨S100000x1, .i32⟩
  | 119 => ⟨S8192x32, .f32⟩
  | 120 => ⟨S_, .f32⟩
  | 121 => ⟨S100000, .f32⟩
  | 122 => ⟨S_, .f32⟩
  | 123 => ⟨S8192, .f32⟩
  | 124 => ⟨S100000x1, .i32⟩
  | 125 => ⟨S8192, .f32⟩
  | 126 => ⟨S_, .f32⟩
  | 127 => ⟨S8192, .f32⟩
  | _ => ⟨S100000x32, .f32⟩

abbrev hbmTy0_3 (i : Nat) : BufTy := match i % 128 with
  | 0 => ⟨S8192, .f32⟩
  | 1 => ⟨S8192x1, .f32⟩
  | 2 => ⟨S8192x32, .f32⟩
  | 3 => ⟨S8192x32, .f32⟩
  | 4 => ⟨S8192x128, .f32⟩
  | 5 => ⟨S1x128, .f32⟩
  | 6 => ⟨S8192x128, .f32⟩
  | 7 => ⟨S8192x128, .f32⟩
  | _ => ⟨S100000x32, .f32⟩

abbrev hbmTy (i : Nat) : BufTy := match i / 128 with
  | 0 => hbmTy0_0 i
  | 1 => hbmTy0_1 i
  | 2 => hbmTy0_2 i
  | 3 => hbmTy0_3 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_1 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v15 : Ref sig .tc := ⟨.hbm, 38, rfl⟩
abbrev main_c : Ref sig .tc := ⟨.hbm, 39, rfl⟩
abbrev main_v16 : Ref sig .tc := ⟨.hbm, 40, rfl⟩
abbrev main_v17 : Ref sig .tc := ⟨.hbm, 41, rfl⟩
abbrev main_c_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_c_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_cst_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_call1_cst : Ref sig .tc := ⟨.hbm, 77, rfl⟩
abbrev main_call1_v0 : Ref sig .tc := ⟨.hbm, 78, rfl⟩
abbrev main_v47 : Ref sig .tc := ⟨.hbm, 79, rfl⟩
abbrev main_v48 : Ref sig .tc := ⟨.hbm, 80, rfl⟩
abbrev main_cst_9 : Ref sig .tc := ⟨.hbm, 81, rfl⟩
abbrev main_v49 : Ref sig .tc := ⟨.hbm, 82, rfl⟩
abbrev main_cst_10 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_12 : Ref sig .tc := ⟨.hbm, 91, rfl⟩
abbrev main_call2_v0 : Ref sig .tc := ⟨.hbm, 92, rfl⟩
abbrev main_call2_v1 : Ref sig .tc := ⟨.hbm, 93, rfl⟩
abbrev main_v56 : Ref sig .tc := ⟨.hbm, 94, rfl⟩
abbrev main_c_13 : Ref sig .tc := ⟨.hbm, 95, rfl⟩
abbrev main_v57 : Ref sig .tc := ⟨.hbm, 96, rfl⟩
abbrev main_v58 : Ref sig .tc := ⟨.hbm, 97, rfl⟩
abbrev main_c_14 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_c_15 : Ref sig .tc := ⟨.hbm, 104, rfl⟩
abbrev main_v64 : Ref sig .tc := ⟨.hbm, 105, rfl⟩
abbrev main_v65 : Ref sig .tc := ⟨.hbm, 106, rfl⟩
abbrev main_c_16 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_c_17 : Ref sig .tc := ⟨.hbm, 114, rfl⟩
abbrev main_v72 : Ref sig .tc := ⟨.hbm, 115, rfl⟩
abbrev main_v73 : Ref sig .tc := ⟨.hbm, 116, rfl⟩
abbrev main_c_18 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_cst_19 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_call3_cst : Ref sig .tc := ⟨.hbm, 134, rfl⟩
abbrev main_call3_v0 : Ref sig .tc := ⟨.hbm, 135, rfl⟩
abbrev main_v89 : Ref sig .tc := ⟨.hbm, 136, rfl⟩
abbrev main_call4_cst : Ref sig .tc := ⟨.hbm, 137, rfl⟩
abbrev main_call4_v0 : Ref sig .tc := ⟨.hbm, 138, rfl⟩
abbrev main_v90 : Ref sig .tc := ⟨.hbm, 139, rfl⟩
abbrev main_v91 : Ref sig .tc := ⟨.hbm, 140, rfl⟩
abbrev main_cst_20 : Ref sig .tc := ⟨.hbm, 141, rfl⟩
abbrev main_v92 : Ref sig .tc := ⟨.hbm, 142, rfl⟩
abbrev main_cst_21 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_22 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_23 : Ref sig .tc := ⟨.hbm, 151, rfl⟩
abbrev main_call5_v0 : Ref sig .tc := ⟨.hbm, 152, rfl⟩
abbrev main_call5_v1 : Ref sig .tc := ⟨.hbm, 153, rfl⟩
abbrev main_v99 : Ref sig .tc := ⟨.hbm, 154, rfl⟩
abbrev main_c_24 : Ref sig .tc := ⟨.hbm, 155, rfl⟩
abbrev main_v100 : Ref sig .tc := ⟨.hbm, 156, rfl⟩
abbrev main_v101 : Ref sig .tc := ⟨.hbm, 157, rfl⟩
abbrev main_c_25 : Ref sig .tc := ⟨.hbm, 158, rfl⟩
abbrev main_v102 : Ref sig .tc := ⟨.hbm, 159, rfl⟩
abbrev main_v103 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_c_26 : Ref sig .tc := ⟨.hbm, 164, rfl⟩
abbrev main_v107 : Ref sig .tc := ⟨.hbm, 165, rfl⟩
abbrev main_v108 : Ref sig .tc := ⟨.hbm, 166, rfl⟩
abbrev main_c_27 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_c_28 : Ref sig .tc := ⟨.hbm, 174, rfl⟩
abbrev main_v115 : Ref sig .tc := ⟨.hbm, 175, rfl⟩
abbrev main_v116 : Ref sig .tc := ⟨.hbm, 176, rfl⟩
abbrev main_c_29 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_cst_30 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_call6_cst : Ref sig .tc := ⟨.hbm, 193, rfl⟩
abbrev main_call6_v0 : Ref sig .tc := ⟨.hbm, 194, rfl⟩
abbrev main_v131 : Ref sig .tc := ⟨.hbm, 195, rfl⟩
abbrev main_v132 : Ref sig .tc := ⟨.hbm, 196, rfl⟩
abbrev main_cst_31 : Ref sig .tc := ⟨.hbm, 197, rfl⟩
abbrev main_v133 : Ref sig .tc := ⟨.hbm, 198, rfl⟩
abbrev main_cst_32 : Ref sig .tc := ⟨.hbm, 199, rfl⟩
abbrev main_v134 : Ref sig .tc := ⟨.hbm, 200, rfl⟩
abbrev main_v135 : Ref sig .tc := ⟨.hbm, 201, rfl⟩
abbrev main_v136 : Ref sig .tc := ⟨.hbm, 202, rfl⟩
abbrev main_cst_33 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_cst_34 : Ref sig .tc := ⟨.hbm, 207, rfl⟩
abbrev main_call7_v0 : Ref sig .tc := ⟨.hbm, 208, rfl⟩
abbrev main_call7_v1 : Ref sig .tc := ⟨.hbm, 209, rfl⟩
abbrev main_v140 : Ref sig .tc := ⟨.hbm, 210, rfl⟩
abbrev main_c_35 : Ref sig .tc := ⟨.hbm, 211, rfl⟩
abbrev main_v141 : Ref sig .tc := ⟨.hbm, 212, rfl⟩
abbrev main_v142 : Ref sig .tc := ⟨.hbm, 213, rfl⟩
abbrev main_c_36 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_v147 : Ref sig .tc := ⟨.hbm, 219, rfl⟩
abbrev main_c_37 : Ref sig .tc := ⟨.hbm, 220, rfl⟩
abbrev main_v148 : Ref sig .tc := ⟨.hbm, 221, rfl⟩
abbrev main_v149 : Ref sig .tc := ⟨.hbm, 222, rfl⟩
abbrev main_c_38 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_c_39 : Ref sig .tc := ⟨.hbm, 230, rfl⟩
abbrev main_v156 : Ref sig .tc := ⟨.hbm, 231, rfl⟩
abbrev main_v157 : Ref sig .tc := ⟨.hbm, 232, rfl⟩
abbrev main_c_40 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_cst_41 : Ref sig .tc := ⟨.hbm, 242, rfl⟩
abbrev main_v166 : Ref sig .tc := ⟨.hbm, 243, rfl⟩
abbrev main_v167 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_call8_cst : Ref sig .tc := ⟨.hbm, 250, rfl⟩
abbrev main_call8_v0 : Ref sig .tc := ⟨.hbm, 251, rfl⟩
abbrev main_v173 : Ref sig .tc := ⟨.hbm, 252, rfl⟩
abbrev main_call9_cst : Ref sig .tc := ⟨.hbm, 253, rfl⟩
abbrev main_call9_v0 : Ref sig .tc := ⟨.hbm, 254, rfl⟩
abbrev main_v174 : Ref sig .tc := ⟨.hbm, 255, rfl⟩
abbrev main_v175 : Ref sig .tc := ⟨.hbm, 256, rfl⟩
abbrev main_cst_42 : Ref sig .tc := ⟨.hbm, 257, rfl⟩
abbrev main_v176 : Ref sig .tc := ⟨.hbm, 258, rfl⟩
abbrev main_cst_43 : Ref sig .tc := ⟨.hbm, 259, rfl⟩
abbrev main_v177 : Ref sig .tc := ⟨.hbm, 260, rfl⟩
abbrev main_v178 : Ref sig .tc := ⟨.hbm, 261, rfl⟩
abbrev main_v179 : Ref sig .tc := ⟨.hbm, 262, rfl⟩
abbrev main_cst_44 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_45 : Ref sig .tc := ⟨.hbm, 267, rfl⟩
abbrev main_call10_v0 : Ref sig .tc := ⟨.hbm, 268, rfl⟩
abbrev main_call10_v1 : Ref sig .tc := ⟨.hbm, 269, rfl⟩
abbrev main_v183 : Ref sig .tc := ⟨.hbm, 270, rfl⟩
abbrev main_c_46 : Ref sig .tc := ⟨.hbm, 271, rfl⟩
abbrev main_v184 : Ref sig .tc := ⟨.hbm, 272, rfl⟩
abbrev main_v185 : Ref sig .tc := ⟨.hbm, 273, rfl⟩
abbrev main_c_47 : Ref sig .tc := ⟨.hbm, 274, rfl⟩
abbrev main_v186 : Ref sig .tc := ⟨.hbm, 275, rfl⟩
abbrev main_v187 : Ref sig .tc := ⟨.hbm, 276, rfl⟩
abbrev main_v188 : Ref sig .tc := ⟨.hbm, 277, rfl⟩
abbrev main_v189 : Ref sig .tc := ⟨.hbm, 278, rfl⟩
abbrev main_v190 : Ref sig .tc := ⟨.hbm, 279, rfl⟩
abbrev main_c_48 : Ref sig .tc := ⟨.hbm, 280, rfl⟩
abbrev main_v191 : Ref sig .tc := ⟨.hbm, 281, rfl⟩
abbrev main_v192 : Ref sig .tc := ⟨.hbm, 282, rfl⟩
abbrev main_c_49 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_c_50 : Ref sig .tc := ⟨.hbm, 290, rfl⟩
abbrev main_v199 : Ref sig .tc := ⟨.hbm, 291, rfl⟩
abbrev main_v200 : Ref sig .tc := ⟨.hbm, 292, rfl⟩
abbrev main_c_51 : Ref sig .tc := ⟨.hbm, 293, rfl⟩
abbrev main_v201 : Ref sig .tc := ⟨.hbm, 294, rfl⟩
abbrev main_v202 : Ref sig .tc := ⟨.hbm, 295, rfl⟩
abbrev main_v203 : Ref sig .tc := ⟨.hbm, 296, rfl⟩
abbrev main_v204 : Ref sig .tc := ⟨.hbm, 297, rfl⟩
abbrev main_v205 : Ref sig .tc := ⟨.hbm, 298, rfl⟩
abbrev main_v206 : Ref sig .tc := ⟨.hbm, 299, rfl⟩
abbrev main_v207 : Ref sig .tc := ⟨.hbm, 300, rfl⟩
abbrev main_v208 : Ref sig .tc := ⟨.hbm, 301, rfl⟩
abbrev main_cst_52 : Ref sig .tc := ⟨.hbm, 302, rfl⟩
abbrev main_v209 : Ref sig .tc := ⟨.hbm, 303, rfl⟩
abbrev main_v210 : Ref sig .tc := ⟨.hbm, 304, rfl⟩
abbrev main_v211 : Ref sig .tc := ⟨.hbm, 305, rfl⟩
abbrev main_v212 : Ref sig .tc := ⟨.hbm, 306, rfl⟩
abbrev main_v213 : Ref sig .tc := ⟨.hbm, 307, rfl⟩
abbrev main_v214 : Ref sig .tc := ⟨.hbm, 308, rfl⟩
abbrev main_call11_cst : Ref sig .tc := ⟨.hbm, 309, rfl⟩
abbrev main_call11_v0 : Ref sig .tc := ⟨.hbm, 310, rfl⟩
abbrev main_v215 : Ref sig .tc := ⟨.hbm, 311, rfl⟩
abbrev main_v216 : Ref sig .tc := ⟨.hbm, 312, rfl⟩
abbrev main_cst_53 : Ref sig .tc := ⟨.hbm, 313, rfl⟩
abbrev main_v217 : Ref sig .tc := ⟨.hbm, 314, rfl⟩
abbrev main_cst_54 : Ref sig .tc := ⟨.hbm, 315, rfl⟩
abbrev main_v218 : Ref sig .tc := ⟨.hbm, 316, rfl⟩
abbrev main_v219 : Ref sig .tc := ⟨.hbm, 317, rfl⟩
abbrev main_v220 : Ref sig .tc := ⟨.hbm, 318, rfl⟩
abbrev main_cst_55 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_cst_56 : Ref sig .tc := ⟨.hbm, 323, rfl⟩
abbrev main_call12_v0 : Ref sig .tc := ⟨.hbm, 324, rfl⟩
abbrev main_call12_v1 : Ref sig .tc := ⟨.hbm, 325, rfl⟩
abbrev main_v224 : Ref sig .tc := ⟨.hbm, 326, rfl⟩
abbrev main_c_57 : Ref sig .tc := ⟨.hbm, 327, rfl⟩
abbrev main_v225 : Ref sig .tc := ⟨.hbm, 328, rfl⟩
abbrev main_v226 : Ref sig .tc := ⟨.hbm, 329, rfl⟩
abbrev main_c_58 : Ref sig .tc := ⟨.hbm, 330, rfl⟩
abbrev main_v227 : Ref sig .tc := ⟨.hbm, 331, rfl⟩
abbrev main_v228 : Ref sig .tc := ⟨.hbm, 332, rfl⟩
abbrev main_v229 : Ref sig .tc := ⟨.hbm, 333, rfl⟩
abbrev main_v230 : Ref sig .tc := ⟨.hbm, 334, rfl⟩
abbrev main_v231 : Ref sig .tc := ⟨.hbm, 335, rfl⟩
abbrev main_c_59 : Ref sig .tc := ⟨.hbm, 336, rfl⟩
abbrev main_v232 : Ref sig .tc := ⟨.hbm, 337, rfl⟩
abbrev main_v233 : Ref sig .tc := ⟨.hbm, 338, rfl⟩
abbrev main_c_60 : Ref sig .tc := ⟨.hbm, 339, rfl⟩
abbrev main_v234 : Ref sig .tc := ⟨.hbm, 340, rfl⟩
abbrev main_v235 : Ref sig .tc := ⟨.hbm, 341, rfl⟩
abbrev main_v236 : Ref sig .tc := ⟨.hbm, 342, rfl⟩
abbrev main_v237 : Ref sig .tc := ⟨.hbm, 343, rfl⟩
abbrev main_v238 : Ref sig .tc := ⟨.hbm, 344, rfl⟩
abbrev main_v239 : Ref sig .tc := ⟨.hbm, 345, rfl⟩
abbrev main_c_61 : Ref sig .tc := ⟨.hbm, 346, rfl⟩
abbrev main_v240 : Ref sig .tc := ⟨.hbm, 347, rfl⟩
abbrev main_v241 : Ref sig .tc := ⟨.hbm, 348, rfl⟩
abbrev main_c_62 : Ref sig .tc := ⟨.hbm, 349, rfl⟩
abbrev main_v242 : Ref sig .tc := ⟨.hbm, 350, rfl⟩
abbrev main_v243 : Ref sig .tc := ⟨.hbm, 351, rfl⟩
abbrev main_v244 : Ref sig .tc := ⟨.hbm, 352, rfl⟩
abbrev main_v245 : Ref sig .tc := ⟨.hbm, 353, rfl⟩
abbrev main_v246 : Ref sig .tc := ⟨.hbm, 354, rfl⟩
abbrev main_v247 : Ref sig .tc := ⟨.hbm, 355, rfl⟩
abbrev main_v248 : Ref sig .tc := ⟨.hbm, 356, rfl⟩
abbrev main_v249 : Ref sig .tc := ⟨.hbm, 357, rfl⟩
abbrev main_cst_63 : Ref sig .tc := ⟨.hbm, 358, rfl⟩
abbrev main_v250 : Ref sig .tc := ⟨.hbm, 359, rfl⟩
abbrev main_v251 : Ref sig .tc := ⟨.hbm, 360, rfl⟩
abbrev main_v252 : Ref sig .tc := ⟨.hbm, 361, rfl⟩
abbrev main_v253 : Ref sig .tc := ⟨.hbm, 362, rfl⟩
abbrev main_v254 : Ref sig .tc := ⟨.hbm, 363, rfl⟩
abbrev main_v255 : Ref sig .tc := ⟨.hbm, 364, rfl⟩
abbrev main_v256 : Ref sig .tc := ⟨.hbm, 365, rfl⟩
abbrev main_call13_cst : Ref sig .tc := ⟨.hbm, 366, rfl⟩
abbrev main_call13_v0 : Ref sig .tc := ⟨.hbm, 367, rfl⟩
abbrev main_v257 : Ref sig .tc := ⟨.hbm, 368, rfl⟩
abbrev main_call14_cst : Ref sig .tc := ⟨.hbm, 369, rfl⟩
abbrev main_call14_v0 : Ref sig .tc := ⟨.hbm, 370, rfl⟩
abbrev main_v258 : Ref sig .tc := ⟨.hbm, 371, rfl⟩
abbrev main_cst_64 : Ref sig .tc := ⟨.hbm, 372, rfl⟩
abbrev main_v259 : Ref sig .tc := ⟨.hbm, 373, rfl⟩
abbrev main_v260 : Ref sig .tc := ⟨.hbm, 374, rfl⟩
abbrev main_v261 : Ref sig .tc := ⟨.hbm, 375, rfl⟩
abbrev main_cst_65 : Ref sig .tc := ⟨.hbm, 376, rfl⟩
abbrev main_v262 : Ref sig .tc := ⟨.hbm, 377, rfl⟩
abbrev main_cst_66 : Ref sig .tc := ⟨.hbm, 378, rfl⟩
abbrev main_v263 : Ref sig .tc := ⟨.hbm, 379, rfl⟩
abbrev main_v264 : Ref sig .tc := ⟨.hbm, 380, rfl⟩
abbrev main_v265 : Ref sig .tc := ⟨.hbm, 381, rfl⟩
abbrev main_cst_67 : Ref sig .tc := ⟨.hbm, 382, rfl⟩
abbrev main_v266 : Ref sig .tc := ⟨.hbm, 383, rfl⟩
abbrev main_v267 : Ref sig .tc := ⟨.hbm, 384, rfl⟩
abbrev main_v268 : Ref sig .tc := ⟨.hbm, 385, rfl⟩
abbrev main_v269 : Ref sig .tc := ⟨.hbm, 386, rfl⟩
abbrev main_v270 : Ref sig .tc := ⟨.hbm, 387, rfl⟩
abbrev main_v271 : Ref sig .tc := ⟨.hbm, 388, rfl⟩
abbrev main_v272 : Ref sig .tc := ⟨.hbm, 389, rfl⟩
abbrev main_v273 : Ref sig .tc := ⟨.hbm, 390, rfl⟩
abbrev main_v274 : Ref sig .tc := ⟨.hbm, 391, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S8192x32 : S_.BroadcastsInDim S8192x32 (![] : Fin 0 → Fin S8192x32.rank)
  bcast_S100000_S100000x1_0 : S100000.BroadcastsInDim S100000x1 (![0] : Fin 1 → Fin S100000x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32_0_1 : S8192x1.BroadcastsInDim S8192x32 (![0, 1] : Fin 2 → Fin S8192x32.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  dot_S100000x32_S32x32_S100000x32_1_0_0_1_n_n_wf : DotDims.WF S100000x32 S32x32 S100000x32 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  scatter_S8192x32_S100000x1_S100000x32_1_0_0_1_wf : ScatterDims.WF S8192x32 S100000x1 S100000x32 [1] [0] [0] 1
  scatter_S8192_S100000x1_S100000_n_0_0_1_wf : ScatterDims.WF S8192 S100000x1 S100000 [] [0] [0] 1
  dot_S8192x32_S32x128_S8192x128_1_0_0_1_n_n_wf : DotDims.WF S8192x32 S32x128 S8192x128 [1] [0] [0] [1] [] []

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def scatter_S8192x32_S100000x1_S100000x32_1_0_0_1 : ScatterDims S8192x32 S100000x1 S100000x32 where
  updateWindowDims := [1]
  insertedWindowDims := [0]
  scatterDimsToOperandDims := [0]
  indexVectorDim := 1
  wf := scatter_S8192x32_S100000x1_S100000x32_1_0_0_1_wf
def scatter_S8192_S100000x1_S100000_n_0_0_1 : ScatterDims S8192 S100000x1 S100000 where
  updateWindowDims := []
  insertedWindowDims := [0]
  scatterDimsToOperandDims := [0]
  indexVectorDim := 1
  wf := scatter_S8192_S100000x1_S100000_n_0_0_1_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf

class Facts : Prop extends Facts₀ where

variable [Facts]
-- ==== Proof.KRun.lean ====
/-
  The run of the kernel program with its RESULT named. Every weakly fair execution of @main terminates without
  a fault, the argument arrays end as launched, and the result buffer ends at the contents the fold through
  @main's twenty segments leaves there (`Gen.W20`: host stretches applied to the buffer contents, each region's
  arrays at what its write-backs leave). The final thread state holds every unscoped buffer at that fold's
  contents, so the result is read off it exactly as the arguments are.
-/
import proofs.«157759_j39539468927577_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program's run: the result buffer ends at `W20 m ρ c main_v132`, the arguments as launched. -/
theorem run_value : θ_run defs (onTc (τ := τ) (main (F := F))) ⟨m, fun _ => 0, ρ⟩ (fun r => ∀ c : Dev nD,
      r.2.mem ((c.tc : Thread nD τ).loc main_v132) = W20 m ρ c (Proc.devRef .tc main_v132)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v132 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c)⟩)

end Cert.KernelIdeal.KRun

end
-- ==== Proof.Stages.lean ====
/-
  The per-node stages of the network, each as ONE function of whole arrays, written with the host
  operations of the reference program. A graph-convolution block is
      h₁ = x · W₁,   a₁ = aggregate h₁,   h₂ = relu (a₁ + b₁) · W₂,   a₂ = aggregate h₂,   out = relu (a₂ + b₂ + x)
  and the head is  (sums / max (counts, 1)) · W_lin + b_lin.  The aggregation (a gather along the edges, a
  scaling by the symmetric degree normalisation and a scatter-add at the target nodes) is the same host
  operations in both programs and is never opened; what the two programs compute differently is only HOW the
  per-node stages below are evaluated (row blocks of 5000 nodes on one side, whole arrays on the other).
  The reference applies relu twice at the end of a block; `biasResRelu` is stated in that doubled form.
-/
import proofs.«157759_j39539468927577_1_alg».proof.ReferenceIdeal
import Idealize.ShloMosaic.PureOps.Ideal

noncomputable section

namespace Cert.Stages

open Idealize.ShloMosaic Cert.ReferenceIdeal

variable {F : FTy → Type} [FloatOps F] [Cert.ReferenceIdeal.Facts]
open Cert.ReferenceIdeal.Facts₀ Cert.ReferenceIdeal.Facts

/-- The product `x · w` of the node features [100000, 32] with a weight matrix [32, 32]. -/
def mm (x : (⟨S100000x32, .f32⟩ : BufTy).Contents (Elt F)) (w : (⟨S32x32, .f32⟩ : BufTy).Contents (Elt F)) :
    (⟨S100000x32, .f32⟩ : BufTy).Contents (Elt F) :=
  Host.dotGeneral dot_S100000x32_S32x32_S100000x32_1_0_0_1_n_n none x w

/-- The all-zero node array. -/
def zeros : (⟨S100000x32, .f32⟩ : BufTy).Contents (Elt F) :=
  broadcastInDim S100000x32 ![] bcast_S_S100000x32 (constant S_ .f32 0x00000000#32)

/-- A bias row [1, 32] repeated for every node. -/
def rows (b : (⟨S1x32, .f32⟩ : BufTy).Contents (Elt F)) : (⟨S100000x32, .f32⟩ : BufTy).Contents (Elt F) :=
  broadcastInDim S100000x32 ![0, 1] bcast_S1x32_S100000x32_0_1 b

/-- `relu (a + b)`, the bias row `b` added to every node's features. -/
def biasRelu (a : (⟨S100000x32, .f32⟩ : BufTy).Contents (Elt F)) (b : (⟨S1x32, .f32⟩ : BufTy).Contents (Elt F)) :
    (⟨S100000x32, .f32⟩ : BufTy).Contents (Elt F) :=
  maximumf (addf a (rows b)) zeros

/-- `relu (relu (a + b + res))`: a block's output, in the reference's doubled form. -/
def biasResRelu (a : (⟨S100000x32, .f32⟩ : BufTy).Contents (Elt F)) (b : (⟨S1x32, .f32⟩ : BufTy).Contents (Elt F))
    (res : (⟨S100000x32, .f32⟩ : BufTy).Contents (Elt F)) : (⟨S100000x32, .f32⟩ : BufTy).Contents (Elt F) :=
  maximumf (maximumf (addf (addf a (rows b)) res) zeros) zeros

/-- The column [8192, 1] of ones. -/
def onesCol : (⟨S8192x1, .f32⟩ : BufTy).Contents (Elt F) :=
  broadcastInDim S8192x1 ![0] bcast_S8192_S8192x1_0
    (broadcastInDim S8192 ![] bcast_S_S8192 (constant S_ .f32 0x3F800000#32))

/-- The head: the per-graph mean `sums / max (counts, 1)` times `w`, plus the bias row, the counts given as a
    column [8192, 1] and the bias as a row [1, 128]. -/
def poolLinear (sums : (⟨S8192x32, .f32⟩ : BufTy).Contents (Elt F)) (cnts : (⟨S8192x1, .f32⟩ : BufTy).Contents (Elt F))
    (w : (⟨S32x128, .f32⟩ : BufTy).Contents (Elt F)) (b : (⟨S1x128, .f32⟩ : BufTy).Contents (Elt F)) :
    (⟨S8192x128, .f32⟩ : BufTy).Contents (Elt F) :=
  addf (Host.dotGeneral dot_S8192x32_S32x128_S8192x128_1_0_0_1_n_n none
          (Host.divf sums (broadcastInDim S8192x32 ![0, 1] bcast_S8192x1_S8192x32_0_1 (maximumf cnts onesCol))) w)
       (broadcastInDim S8192x128 ![0, 1] bcast_S1x128_S8192x128_0_1 b)

/-! ## The graph side: the same host operations in both programs -/

/-- The edges' source nodes (row 0 of the edge list) followed by the self loops 0 … N-1. -/
def src (ei : (⟨S2x3200000, .i32⟩ : BufTy).Contents (Elt F)) : (⟨S3300000, .i32⟩ : BufTy).Contents (Elt F) :=
  concatenate S3300000 0
    [⟨S3200000, shapeCast _ (extractStridedSlice S1x3200000 ![0, 0] ei slices_S2x3200000_S1x3200000_0_0) shapeCasts_S1x3200000_S3200000⟩,
     ⟨S100000, iotaInDim S100000 32 0⟩] concatenates_S3200000_S100000_S3300000_d0

/-- The edges' target nodes (row 1 of the edge list) followed by the self loops 0 … N-1. -/
def dst (ei : (⟨S2x3200000, .i32⟩ : BufTy).Contents (Elt F)) : (⟨S3300000, .i32⟩ : BufTy).Contents (Elt F) :=
  concatenate S3300000 0
    [⟨S3200000, shapeCast _ (extractStridedSlice S1x3200000 ![1, 0] ei slices_S2x3200000_S1x3200000_1_0) shapeCasts_S1x3200000_S3200000⟩,
     ⟨S100000, iotaInDim S100000 32 0⟩] concatenates_S3200000_S100000_S3300000_d0

/-- A list of node indices as a gather's index column, a negative index wrapped around by N. -/
def wrapCol (ix : (⟨S3300000, .i32⟩ : BufTy).Contents (Elt F)) : (⟨S3300000x1, .i32⟩ : BufTy).Contents (Elt F) :=
  broadcastInDim S3300000x1 ![0] bcast_S3300000_S3300000x1_0
    (select (cmpi .slt ix (broadcastInDim S3300000 ![] bcast_S_S3300000 (constantI S_ 32 0#32)))
      (addi ix (broadcastInDim S3300000 ![] bcast_S_S3300000 (constantI S_ 32 100000#32))) ix)

/-- The in-degree of every node, self loop included: a scatter-add of ones at the target nodes. -/
def deg (d : (⟨S3300000, .i32⟩ : BufTy).Contents (Elt F)) : (⟨S100000, .f32⟩ : BufTy).Contents (Elt F) :=
  Host.scatterAdd scatter_S100000_S3300000x1_S3300000_n_0_0_1
    (broadcastInDim S100000 ![] bcast_S_S100000 (constant S_ .f32 0x00000000#32))
    (broadcastInDim S3300000x1 ![0] bcast_S3300000_S3300000x1_0 d)
    (broadcastInDim S3300000 ![] bcast_S_S3300000 (constant S_ .f32 0x3F800000#32))

/-- `deg^(-1/2)` where the degree is positive, 0 elsewhere. -/
def dinv (d : (⟨S3300000, .i32⟩ : BufTy).Contents (Elt F)) : (⟨S100000, .f32⟩ : BufTy).Contents (Elt F) :=
  select (cmpf .ogt (deg d) (broadcastInDim S100000 ![] bcast_S_S100000 (constant S_ .f32 0x00000000#32)))
    (Host.rsqrt (deg d))
    (broadcastInDim S100000 ![] bcast_S_S100000 (id (constant S_ .f32 0x00000000#32)))

/-- The symmetric normalisation of every message: `dinv[source] · dinv[target]`. -/
def nrm (s d : (⟨S3300000, .i32⟩ : BufTy).Contents (Elt F)) : (⟨S3300000, .f32⟩ : BufTy).Contents (Elt F) :=
  mulf (Host.gather gather_S100000_S3300000x1_S3300000_n_0_n_n_0_1_1 (dinv d) (wrapCol s))
    (Host.gather gather_S100000_S3300000x1_S3300000_n_0_n_n_0_1_1 (dinv d) (wrapCol d))

/-- The aggregation: every message `h[source] · n` summed at its target node. -/
def agg (h : (⟨S100000x32, .f32⟩ : BufTy).Contents (Elt F)) (s d : (⟨S3300000, .i32⟩ : BufTy).Contents (Elt F))
    (n : (⟨S3300000, .f32⟩ : BufTy).Contents (Elt F)) : (⟨S100000x32, .f32⟩ : BufTy).Contents (Elt F) :=
  Host.scatterAdd scatter_S100000x32_S3300000x1_S3300000x32_1_0_0_1 zeros
    (broadcastInDim S3300000x1 ![0] bcast_S3300000_S3300000x1_0 d)
    (mulf (Host.gather gather_S100000x32_S3300000x1_S3300000x32_1_0_n_n_0_1_132 h (wrapCol s))
      (broadcastInDim S3300000x32 ![0, 1] bcast_S3300000x1_S3300000x32_0_1
        (broadcastInDim S3300000x1 ![0] bcast_S3300000_S3300000x1_0 n)))

/-- A bias [32] as the row [1, 32]. -/
def bRow (b : (⟨S32, .f32⟩ : BufTy).Contents (Elt F)) : (⟨S1x32, .f32⟩ : BufTy).Contents (Elt F) :=
  broadcastInDim S1x32 ![1] bcast_S32_S1x32_1 b

/-- One residual block of two graph convolutions. -/
def block (x : (⟨S100000x32, .f32⟩ : BufTy).Contents (Elt F)) (s d : (⟨S3300000, .i32⟩ : BufTy).Contents (Elt F))
    (n : (⟨S3300000, .f32⟩ : BufTy).Contents (Elt F))
    (w1 : (⟨S32x32, .f32⟩ : BufTy).Contents (Elt F)) (b1 : (⟨S32, .f32⟩ : BufTy).Contents (Elt F))
    (w2 : (⟨S32x32, .f32⟩ : BufTy).Contents (Elt F)) (b2 : (⟨S32, .f32⟩ : BufTy).Contents (Elt F)) :
    (⟨S100000x32, .f32⟩ : BufTy).Contents (Elt F) :=
  biasResRelu (agg (mm (biasRelu (agg (mm x w1) s d n) (bRow b1)) w2) s d n) (bRow b2) x

/-- The per-graph sums of the node features: a scatter-add at the graph ids. -/
def sums (h : (⟨S100000x32, .f32⟩ : BufTy).Contents (Elt F)) (batch : (⟨S100000, .i32⟩ : BufTy).Contents (Elt F)) :
    (⟨S8192x32, .f32⟩ : BufTy).Contents (Elt F) :=
  Host.scatterAdd scatter_S8192x32_S100000x1_S100000x32_1_0_0_1
    (broadcastInDim S8192x32 ![] bcast_S_S8192x32 (constant S_ .f32 0x00000000#32))
    (broadcastInDim S100000x1 ![0] bcast_S100000_S100000x1_0 batch) h

/-- The number of nodes of every graph: a scatter-add of ones at the graph ids. -/
def cnts (batch : (⟨S100000, .i32⟩ : BufTy).Contents (Elt F)) : (⟨S8192, .f32⟩ : BufTy).Contents (Elt F) :=
  Host.scatterAdd scatter_S8192_S100000x1_S100000_n_0_0_1
    (broadcastInDim S8192 ![] bcast_S_S8192 (constant S_ .f32 0x00000000#32))
    (broadcastInDim S100000x1 ![0] bcast_S100000_S100000x1_0 batch)
    (broadcastInDim S100000 ![] bcast_S_S100000 (constant S_ .f32 0x3F800000#32))

/-- The whole network: three residual blocks on the shared graph, then the mean pool and the linear head, the
    counts as the column [8192, 1] and the head's bias as the row [1, 128] that the head takes. -/
def net (x : (⟨S100000x32, .f32⟩ : BufTy).Contents (Elt F)) (ei : (⟨S2x3200000, .i32⟩ : BufTy).Contents (Elt F))
    (batch : (⟨S100000, .i32⟩ : BufTy).Contents (Elt F))
    (w01 : (⟨S32x32, .f32⟩ : BufTy).Contents (Elt F)) (b01 : (⟨S32, .f32⟩ : BufTy).Contents (Elt F))
    (w02 : (⟨S32x32, .f32⟩ : BufTy).Contents (Elt F)) (b02 : (⟨S32, .f32⟩ : BufTy).Contents (Elt F))
    (w11 : (⟨S32x32, .f32⟩ : BufTy).Contents (Elt F)) (b11 : (⟨S32, .f32⟩ : BufTy).Contents (Elt F))
    (w12 : (⟨S32x32, .f32⟩ : BufTy).Contents (Elt F)) (b12 : (⟨S32, .f32⟩ : BufTy).Contents (Elt F))
    (w21 : (⟨S32x32, .f32⟩ : BufTy).Contents (Elt F)) (b21 : (⟨S32, .f32⟩ : BufTy).Contents (Elt F))
    (w22 : (⟨S32x32, .f32⟩ : BufTy).Contents (Elt F)) (b22 : (⟨S32, .f32⟩ : BufTy).Contents (Elt F))
    (wl : (⟨S32x128, .f32⟩ : BufTy).Contents (Elt F)) (cntsCol : (⟨S8192x1, .f32⟩ : BufTy).Contents (Elt F))
    (blRow : (⟨S1x128, .f32⟩ : BufTy).Contents (Elt F)) : (⟨S8192x128, .f32⟩ : BufTy).Contents (Elt F) :=
  poolLinear
    (sums (block (block (block x (src ei) (dst ei) (nrm (src ei) (dst ei)) w01 b01 w02 b02)
        (src ei) (dst ei) (nrm (src ei) (dst ei)) w11 b11 w12 b12)
      (src ei) (dst ei) (nrm (src ei) (dst ei)) w21 b21 w22 b22) batch)
    cntsCol wl blRow

end Cert.Stages

end
-- ==== Proof.Layout.lean ====
/-
  Three facts about unit axes. A vector [a] recast as the row [1, a] is the same array as the vector broadcast
  along a new leading unit axis; and for a column: the maximum of two vectors, broadcast along a new trailing
  unit axis, is the maximum of the first vector recast as a column [a, 1] and the second broadcast to a column.
  Each side reads, at an index, the vector at the one coordinate that is not on the unit axis.
-/
import Idealize.ShloMosaic.Lib.ValueLayout
import Idealize.ShloMosaic.Lib.ValueIdx
import Idealize.ShloMosaic.PureOps.Ideal

noncomputable section

namespace Cert.Layout

open Idealize.ShloMosaic Idealize.ShloMosaic.ValueIdx

variable {α : Type}

/-- A vector broadcast along a new leading unit axis reads, at `(u, i)`, the vector at `i`. -/
theorem bcast_row_apply {a : ℕ} (x : (⟨1, ![a]⟩ : Shape).Idx → α)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply ![1] h x (ix2 u i) (ix1 i) (fun d => by
    match d with
    | ⟨0, _⟩ =>
      show i.val = if a = 1 then 0 else i.val
      split
      · omega
      · rfl)

/-- The row [1, a] of a vector: the cast and the broadcast are one array. -/
theorem row_cast_eq_bcast {a : ℕ} (x : (⟨1, ![a]⟩ : Shape).Idx → α)
    (h : (⟨1, ![a]⟩ : Shape).ShapeCasts ⟨2, ![1, a]⟩) (h' : (⟨1, ![a]⟩ : Shape).BroadcastsInDim ⟨2, ![1, a]⟩ ![1]) :
    shapeCast ⟨2, ![1, a]⟩ x h = broadcastInDim ⟨2, ![1, a]⟩ ![1] h' x := by
  funext j
  obtain ⟨u, i, rfl⟩ : ∃ (u : Fin 1) (i : Fin a), j = ix2 u i := ⟨j 0, j 1, eq_ix2 j⟩
  rw [shapeCast_a_1a_apply, bcast_row_apply]

/-- A vector recast as the column [a, 1] reads, at `(i, u)`, the vector at `i`. -/
theorem col_cast_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A vector broadcast along a new trailing unit axis reads, at `(i, u)`, the vector at `i`. -/
theorem bcast_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply ![0] h x (ix2 i u) (ix1 i) (fun d => by
    match d with
    | ⟨0, _⟩ =>
      show i.val = if a = 1 then 0 else i.val
      split
      · omega
      · rfl)

/-- The maximum of two vectors as a column [a, 1]: taken before the vectors become columns or after. -/
theorem col_max {a : ℕ} (x y : FVec Ideal ⟨1, ![a]⟩ .f32)
    (h : (⟨1, ![a]⟩ : Shape).ShapeCasts ⟨2, ![a, 1]⟩) (h' : (⟨1, ![a]⟩ : Shape).BroadcastsInDim ⟨2, ![a, 1]⟩ ![0]) :
    broadcastInDim ⟨2, ![a, 1]⟩ ![0] h' (maximumf x y)
      = maximumf (F := Ideal) (shapeCast ⟨2, ![a, 1]⟩ x h) (broadcastInDim ⟨2, ![a, 1]⟩ ![0] h' y) := by
  funext j
  obtain ⟨i, u, rfl⟩ : ∃ (i : Fin a) (u : Fin 1), j = ix2 i u := ⟨j 0, j 1, eq_ix2 j⟩
  rw [maximumf_apply, bcast_col_apply, col_cast_apply, bcast_col_apply, maximumf_apply]

end Cert.Layout

end
-- ==== Proof.CarryTac.lean ====
/-
  One step of reading a buffer back through the kernel program: a host stretch leaves every buffer it does not
  write as it found it, and whether an operation of a literal list writes a given buffer is decided reference by
  reference.
-/
import proofs.«157759_j39539468927577_1_alg».proof.Proof.Gen.KernelIdeal.Frame

namespace Cert.KernelIdeal.Carry

open Idealize.ShloMosaic

/-- A buffer that no operation of a host stretch writes holds after the stretch what it held before: every
    operation's written buffer is another reference. -/
macro "host_keep" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

end Cert.KernelIdeal.Carry
-- ==== Proof.CarryArgsA.lean ====
/-
  The argument arrays at the region entries where the kernel program reads them. No host operation and no region
  writes an argument (a region reads it through an input window, whose array ends as it was entered), so the buffer
  contents at any segment boundary, read at an argument, walk back to the launch memory. (First half.)
-/
import proofs.«157759_j39539468927577_1_alg».proof.Proof.Gen.KernelIdeal.Frame
import proofs.«157759_j39539468927577_1_alg».proof.Proof.CarryTac

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- No host operation and no region before boundary 3 writes `main_arg0`: there it holds its launch contents. -/
theorem arg0_at3 : W3 m ρ c (Proc.devRef .tc main_arg0) = m ((c : Thread nD τ).loc main_arg0) :=
  calc W3 m ρ c (Proc.devRef .tc main_arg0)
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

/-- No host operation and no region before boundary 3 writes `main_arg3`: there it holds its launch contents. -/
theorem arg3_at3 : W3 m ρ c (Proc.devRef .tc main_arg3) = m ((c : Thread nD τ).loc main_arg3) :=
  calc W3 m ρ c (Proc.devRef .tc main_arg3)
    _ = W2 m ρ c (Proc.devRef .tc main_arg3) := by host_keep hostOps0_2
    _ = W1 m ρ c (Proc.devRef .tc main_arg3) := by host_keep hostOps0_1
    _ = W0 m ρ c (Proc.devRef .tc main_arg3) := by host_keep hostOps0
    _ = m ((c : Thread nD τ).loc main_arg3) := rfl

/-- No host operation and no region before boundary 4 writes `main_arg4`: there it holds its launch contents. -/
theorem arg4_at4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by host_keep hostOps0_2
    _ = W1 m ρ c (Proc.devRef .tc main_arg4) := by host_keep hostOps0_1
    _ = W0 m ρ c (Proc.devRef .tc main_arg4) := by host_keep hostOps0
    _ = m ((c : Thread nD τ).loc main_arg4) := rfl

/-- No host operation and no region before boundary 5 writes `main_arg5`: there it holds its launch contents. -/
theorem arg5_at5 : W5 m ρ c (Proc.devRef .tc main_arg5) = m ((c : Thread nD τ).loc main_arg5) :=
  calc W5 m ρ c (Proc.devRef .tc main_arg5)
    _ = W4 m ρ c (Proc.devRef .tc main_arg5) := by host_keep hostOps1
    _ = W3 m ρ c (Proc.devRef .tc main_arg5) := W4_of_ne m ρ c main_arg5 (by decide)
    _ = W2 m ρ c (Proc.devRef .tc main_arg5) := by host_keep hostOps0_2
    _ = W1 m ρ c (Proc.devRef .tc main_arg5) := by host_keep hostOps0_1
    _ = W0 m ρ c (Proc.devRef .tc main_arg5) := by host_keep hostOps0
    _ = m ((c : Thread nD τ).loc main_arg5) := rfl

/-- No host operation and no region before boundary 6 writes `main_arg6`: there it holds its launch contents. -/
theorem arg6_at6 : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := by host_keep hostOps1
    _ = W3 m ρ c (Proc.devRef .tc main_arg6) := W4_of_ne m ρ c main_arg6 (by decide)
    _ = W2 m ρ c (Proc.devRef .tc main_arg6) := by host_keep hostOps0_2
    _ = W1 m ρ c (Proc.devRef .tc main_arg6) := by host_keep hostOps0_1
    _ = W0 m ρ c (Proc.devRef .tc main_arg6) := by host_keep hostOps0
    _ = m ((c : Thread nD τ).loc main_arg6) := rfl

/-- No host operation and no region before boundary 7 writes `main_arg0`: there it holds its launch contents. -/
theorem arg0_at7 : W7 m ρ c (Proc.devRef .tc main_arg0) = m ((c : Thread nD τ).loc main_arg0) :=
  calc W7 m ρ c (Proc.devRef .tc main_arg0)
    _ = W6 m ρ c (Proc.devRef .tc main_arg0) := by host_keep hostOps2
    _ = W5 m ρ c (Proc.devRef .tc main_arg0) := W6_of_ne m ρ c main_arg0 (by decide)
    _ = W4 m ρ c (Proc.devRef .tc main_arg0) := by host_keep hostOps1
    _ = W3 m ρ c (Proc.devRef .tc main_arg0) := (W4_arr m ρ c 0).trans (((dat0 (V3 m ρ) c).arrAt_in 0 rfl _).trans (A_eq0 (V3 m ρ) c 0))
    _ = W2 m ρ c (Proc.devRef .tc main_arg0) := by host_keep hostOps0_2
    _ = W1 m ρ c (Proc.devRef .tc main_arg0) := by host_keep hostOps0_1
    _ = W0 m ρ c (Proc.devRef .tc main_arg0) := by host_keep hostOps0
    _ = m ((c : Thread nD τ).loc main_arg0) := rfl

/-- No host operation and no region before boundary 8 writes `main_arg7`: there it holds its launch contents. -/
theorem arg7_at8 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keep hostOps2
    _ = W5 m ρ c (Proc.devRef .tc main_arg7) := W6_of_ne m ρ c main_arg7 (by decide)
    _ = W4 m ρ c (Proc.devRef .tc main_arg7) := by host_keep hostOps1
    _ = W3 m ρ c (Proc.devRef .tc main_arg7) := W4_of_ne m ρ c main_arg7 (by decide)
    _ = W2 m ρ c (Proc.devRef .tc main_arg7) := by host_keep hostOps0_2
    _ = W1 m ρ c (Proc.devRef .tc main_arg7) := by host_keep hostOps0_1
    _ = W0 m ρ c (Proc.devRef .tc main_arg7) := by host_keep hostOps0
    _ = m ((c : Thread nD τ).loc main_arg7) := rfl

/-- No host operation and no region before boundary 9 writes `main_arg8`: there it holds its launch contents. -/
theorem arg8_at9 : W9 m ρ c (Proc.devRef .tc main_arg8) = m ((c : Thread nD τ).loc main_arg8) :=
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := by host_keep hostOps2
    _ = W5 m ρ c (Proc.devRef .tc main_arg8) := W6_of_ne m ρ c main_arg8 (by decide)
    _ = W4 m ρ c (Proc.devRef .tc main_arg8) := by host_keep hostOps1
    _ = W3 m ρ c (Proc.devRef .tc main_arg8) := W4_of_ne m ρ c main_arg8 (by decide)
    _ = W2 m ρ c (Proc.devRef .tc main_arg8) := by host_keep hostOps0_2
    _ = W1 m ρ c (Proc.devRef .tc main_arg8) := by host_keep hostOps0_1
    _ = W0 m ρ c (Proc.devRef .tc main_arg8) := by host_keep hostOps0
    _ = m ((c : Thread nD τ).loc main_arg8) := rfl

/-- No host operation and no region before boundary 10 writes `main_arg9`: there it holds its launch contents. -/
theorem arg9_at10 : W10 m ρ c (Proc.devRef .tc main_arg9) = m ((c : Thread nD τ).loc main_arg9) :=
  calc W10 m ρ c (Proc.devRef .tc main_arg9)
    _ = W9 m ρ c (Proc.devRef .tc main_arg9) := by host_keep hostOps4
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := by host_keep hostOps2
    _ = W5 m ρ c (Proc.devRef .tc main_arg9) := W6_of_ne m ρ c main_arg9 (by decide)
    _ = W4 m ρ c (Proc.devRef .tc main_arg9) := by host_keep hostOps1
    _ = W3 m ρ c (Proc.devRef .tc main_arg9) := W4_of_ne m ρ c main_arg9 (by decide)
    _ = W2 m ρ c (Proc.devRef .tc main_arg9) := by host_keep hostOps0_2
    _ = W1 m ρ c (Proc.devRef .tc main_arg9) := by host_keep hostOps0_1
    _ = W0 m ρ c (Proc.devRef .tc main_arg9) := by host_keep hostOps0
    _ = m ((c : Thread nD τ).loc main_arg9) := rfl

end Cert.KernelIdeal.Carry

end
-- ==== Proof.CarryArgsB.lean ====
/-
  The argument arrays at the region entries where the kernel program reads them (second half; see CarryArgsA).
-/
import proofs.«157759_j39539468927577_1_alg».proof.Proof.Gen.KernelIdeal.Frame
import proofs.«157759_j39539468927577_1_alg».proof.Proof.CarryTac

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- No host operation and no region before boundary 11 writes `main_arg10`: there it holds its launch contents. -/
theorem arg10_at11 : W11 m ρ c (Proc.devRef .tc main_arg10) = m ((c : Thread nD τ).loc main_arg10) :=
  calc W11 m ρ c (Proc.devRef .tc main_arg10)
    _ = W10 m ρ c (Proc.devRef .tc main_arg10) := W11_of_ne m ρ c main_arg10 (by decide)
    _ = W9 m ρ c (Proc.devRef .tc main_arg10) := by host_keep hostOps4
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := by host_keep hostOps2
    _ = W5 m ρ c (Proc.devRef .tc main_arg10) := W6_of_ne m ρ c main_arg10 (by decide)
    _ = W4 m ρ c (Proc.devRef .tc main_arg10) := by host_keep hostOps1
    _ = W3 m ρ c (Proc.devRef .tc main_arg10) := W4_of_ne m ρ c main_arg10 (by decide)
    _ = W2 m ρ c (Proc.devRef .tc main_arg10) := by host_keep hostOps0_2
    _ = W1 m ρ c (Proc.devRef .tc main_arg10) := by host_keep hostOps0_1
    _ = W0 m ρ c (Proc.devRef .tc main_arg10) := by host_keep hostOps0
    _ = m ((c : Thread nD τ).loc main_arg10) := rfl

/-- No host operation and no region before boundary 13 writes `main_arg11`: there it holds its launch contents. -/
theorem arg11_at13 : W13 m ρ c (Proc.devRef .tc main_arg11) = m ((c : Thread nD τ).loc main_arg11) :=
  calc W13 m ρ c (Proc.devRef .tc main_arg11)
    _ = W12 m ρ c (Proc.devRef .tc main_arg11) := W13_of_ne m ρ c main_arg11 (by decide)
    _ = W11 m ρ c (Proc.devRef .tc main_arg11) := by host_keep hostOps5
    _ = W10 m ρ c (Proc.devRef .tc main_arg11) := W11_of_ne m ρ c main_arg11 (by decide)
    _ = W9 m ρ c (Proc.devRef .tc main_arg11) := by host_keep hostOps4
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := by host_keep hostOps2
    _ = W5 m ρ c (Proc.devRef .tc main_arg11) := W6_of_ne m ρ c main_arg11 (by decide)
    _ = W4 m ρ c (Proc.devRef .tc main_arg11) := by host_keep hostOps1
    _ = W3 m ρ c (Proc.devRef .tc main_arg11) := W4_of_ne m ρ c main_arg11 (by decide)
    _ = W2 m ρ c (Proc.devRef .tc main_arg11) := by host_keep hostOps0_2
    _ = W1 m ρ c (Proc.devRef .tc main_arg11) := by host_keep hostOps0_1
    _ = W0 m ρ c (Proc.devRef .tc main_arg11) := by host_keep hostOps0
    _ = m ((c : Thread nD τ).loc main_arg11) := rfl

/-- No host operation and no region before boundary 14 writes `main_arg12`: there it holds its launch contents. -/
theorem arg12_at14 : W14 m ρ c (Proc.devRef .tc main_arg12) = m ((c : Thread nD τ).loc main_arg12) :=
  calc W14 m ρ c (Proc.devRef .tc main_arg12)
    _ = W13 m ρ c (Proc.devRef .tc main_arg12) := W14_of_ne m ρ c main_arg12 (by decide)
    _ = W12 m ρ c (Proc.devRef .tc main_arg12) := W13_of_ne m ρ c main_arg12 (by decide)
    _ = W11 m ρ c (Proc.devRef .tc main_arg12) := by host_keep hostOps5
    _ = W10 m ρ c (Proc.devRef .tc main_arg12) := W11_of_ne m ρ c main_arg12 (by decide)
    _ = W9 m ρ c (Proc.devRef .tc main_arg12) := by host_keep hostOps4
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := by host_keep hostOps2
    _ = W5 m ρ c (Proc.devRef .tc main_arg12) := W6_of_ne m ρ c main_arg12 (by decide)
    _ = W4 m ρ c (Proc.devRef .tc main_arg12) := by host_keep hostOps1
    _ = W3 m ρ c (Proc.devRef .tc main_arg12) := W4_of_ne m ρ c main_arg12 (by decide)
    _ = W2 m ρ c (Proc.devRef .tc main_arg12) := by host_keep hostOps0_2
    _ = W1 m ρ c (Proc.devRef .tc main_arg12) := by host_keep hostOps0_1
    _ = W0 m ρ c (Proc.devRef .tc main_arg12) := by host_keep hostOps0
    _ = m ((c : Thread nD τ).loc main_arg12) := rfl

/-- No host operation and no region before boundary 15 writes `main_arg13`: there it holds its launch contents. -/
theorem arg13_at15 : W15 m ρ c (Proc.devRef .tc main_arg13) = m ((c : Thread nD τ).loc main_arg13) :=
  calc W15 m ρ c (Proc.devRef .tc main_arg13)
    _ = W14 m ρ c (Proc.devRef .tc main_arg13) := by host_keep hostOps7
    _ = W13 m ρ c (Proc.devRef .tc main_arg13) := W14_of_ne m ρ c main_arg13 (by decide)
    _ = W12 m ρ c (Proc.devRef .tc main_arg13) := W13_of_ne m ρ c main_arg13 (by decide)
    _ = W11 m ρ c (Proc.devRef .tc main_arg13) := by host_keep hostOps5
    _ = W10 m ρ c (Proc.devRef .tc main_arg13) := W11_of_ne m ρ c main_arg13 (by decide)
    _ = W9 m ρ c (Proc.devRef .tc main_arg13) := by host_keep hostOps4
    _ = W8 m ρ c (Proc.devRef .tc main_arg13) := W9_of_ne m ρ c main_arg13 (by decide)
    _ = W7 m ρ c (Proc.devRef .tc main_arg13) := W8_of_ne m ρ c main_arg13 (by decide)
    _ = W6 m ρ c (Proc.devRef .tc main_arg13) := by host_keep hostOps2
    _ = W5 m ρ c (Proc.devRef .tc main_arg13) := W6_of_ne m ρ c main_arg13 (by decide)
    _ = W4 m ρ c (Proc.devRef .tc main_arg13) := by host_keep hostOps1
    _ = W3 m ρ c (Proc.devRef .tc main_arg13) := W4_of_ne m ρ c main_arg13 (by decide)
    _ = W2 m ρ c (Proc.devRef .tc main_arg13) := by host_keep hostOps0_2
    _ = W1 m ρ c (Proc.devRef .tc main_arg13) := by host_keep hostOps0_1
    _ = W0 m ρ c (Proc.devRef .tc main_arg13) := by host_keep hostOps0
    _ = m ((c : Thread nD τ).loc main_arg13) := rfl

/-- No host operation and no region before boundary 16 writes `main_arg14`: there it holds its launch contents. -/
theorem arg14_at16 : W16 m ρ c (Proc.devRef .tc main_arg14) = m ((c : Thread nD τ).loc main_arg14) :=
  calc W16 m ρ c (Proc.devRef .tc main_arg14)
    _ = W15 m ρ c (Proc.devRef .tc main_arg14) := W16_of_ne m ρ c main_arg14 (by decide)
    _ = W14 m ρ c (Proc.devRef .tc main_arg14) := by host_keep hostOps7
    _ = W13 m ρ c (Proc.devRef .tc main_arg14) := W14_of_ne m ρ c main_arg14 (by decide)
    _ = W12 m ρ c (Proc.devRef .tc main_arg14) := W13_of_ne m ρ c main_arg14 (by decide)
    _ = W11 m ρ c (Proc.devRef .tc main_arg14) := by host_keep hostOps5
    _ = W10 m ρ c (Proc.devRef .tc main_arg14) := W11_of_ne m ρ c main_arg14 (by decide)
    _ = W9 m ρ c (Proc.devRef .tc main_arg14) := by host_keep hostOps4
    _ = W8 m ρ c (Proc.devRef .tc main_arg14) := W9_of_ne m ρ c main_arg14 (by decide)
    _ = W7 m ρ c (Proc.devRef .tc main_arg14) := W8_of_ne m ρ c main_arg14 (by decide)
    _ = W6 m ρ c (Proc.devRef .tc main_arg14) := by host_keep hostOps2
    _ = W5 m ρ c (Proc.devRef .tc main_arg14) := W6_of_ne m ρ c main_arg14 (by decide)
    _ = W4 m ρ c (Proc.devRef .tc main_arg14) := by host_keep hostOps1
    _ = W3 m ρ c (Proc.devRef .tc main_arg14) := W4_of_ne m ρ c main_arg14 (by decide)
    _ = W2 m ρ c (Proc.devRef .tc main_arg14) := by host_keep hostOps0_2
    _ = W1 m ρ c (Proc.devRef .tc main_arg14) := by host_keep hostOps0_1
    _ = W0 m ρ c (Proc.devRef .tc main_arg14) := by host_keep hostOps0
    _ = m ((c : Thread nD τ).loc main_arg14) := rfl

/-- No host operation and no region before boundary 18 writes `main_arg2`: there it holds its launch contents. -/
theorem arg2_at18 : W18 m ρ c (Proc.devRef .tc main_arg2) = m ((c : Thread nD τ).loc main_arg2) :=
  calc W18 m ρ c (Proc.devRef .tc main_arg2)
    _ = W17 m ρ c (Proc.devRef .tc main_arg2) := W18_of_ne m ρ c main_arg2 (by decide)
    _ = W16 m ρ c (Proc.devRef .tc main_arg2) := by host_keep hostOps8
    _ = W15 m ρ c (Proc.devRef .tc main_arg2) := W16_of_ne m ρ c main_arg2 (by decide)
    _ = W14 m ρ c (Proc.devRef .tc main_arg2) := by host_keep hostOps7
    _ = W13 m ρ c (Proc.devRef .tc main_arg2) := W14_of_ne m ρ c main_arg2 (by decide)
    _ = W12 m ρ c (Proc.devRef .tc main_arg2) := W13_of_ne m ρ c main_arg2 (by decide)
    _ = W11 m ρ c (Proc.devRef .tc main_arg2) := by host_keep hostOps5
    _ = W10 m ρ c (Proc.devRef .tc main_arg2) := W11_of_ne m ρ c main_arg2 (by decide)
    _ = W9 m ρ c (Proc.devRef .tc main_arg2) := by host_keep hostOps4
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := by host_keep hostOps2
    _ = W5 m ρ c (Proc.devRef .tc main_arg2) := W6_of_ne m ρ c main_arg2 (by decide)
    _ = W4 m ρ c (Proc.devRef .tc main_arg2) := by host_keep hostOps1
    _ = W3 m ρ c (Proc.devRef .tc main_arg2) := W4_of_ne m ρ c main_arg2 (by decide)
    _ = W2 m ρ c (Proc.devRef .tc main_arg2) := by host_keep hostOps0_2
    _ = W1 m ρ c (Proc.devRef .tc main_arg2) := by host_keep hostOps0_1
    _ = W0 m ρ c (Proc.devRef .tc main_arg2) := by host_keep hostOps0
    _ = m ((c : Thread nD τ).loc main_arg2) := rfl

/-- No host operation and no region before boundary 18 writes `main_arg16`: there it holds its launch contents. -/
theorem arg16_at18 : W18 m ρ c (Proc.devRef .tc main_arg16) = m ((c : Thread nD τ).loc main_arg16) :=
  calc W18 m ρ c (Proc.devRef .tc main_arg16)
    _ = W17 m ρ c (Proc.devRef .tc main_arg16) := W18_of_ne m ρ c main_arg16 (by decide)
    _ = W16 m ρ c (Proc.devRef .tc main_arg16) := by host_keep hostOps8
    _ = W15 m ρ c (Proc.devRef .tc main_arg16) := W16_of_ne m ρ c main_arg16 (by decide)
    _ = W14 m ρ c (Proc.devRef .tc main_arg16) := by host_keep hostOps7
    _ = W13 m ρ c (Proc.devRef .tc main_arg16) := W14_of_ne m ρ c main_arg16 (by decide)
    _ = W12 m ρ c (Proc.devRef .tc main_arg16) := W13_of_ne m ρ c main_arg16 (by decide)
    _ = W11 m ρ c (Proc.devRef .tc main_arg16) := by host_keep hostOps5
    _ = W10 m ρ c (Proc.devRef .tc main_arg16) := W11_of_ne m ρ c main_arg16 (by decide)
    _ = W9 m ρ c (Proc.devRef .tc main_arg16) := by host_keep hostOps4
    _ = W8 m ρ c (Proc.devRef .tc main_arg16) := W9_of_ne m ρ c main_arg16 (by decide)
    _ = W7 m ρ c (Proc.devRef .tc main_arg16) := W8_of_ne m ρ c main_arg16 (by decide)
    _ = W6 m ρ c (Proc.devRef .tc main_arg16) := by host_keep hostOps2
    _ = W5 m ρ c (Proc.devRef .tc main_arg16) := W6_of_ne m ρ c main_arg16 (by decide)
    _ = W4 m ρ c (Proc.devRef .tc main_arg16) := by host_keep hostOps1
    _ = W3 m ρ c (Proc.devRef .tc main_arg16) := W4_of_ne m ρ c main_arg16 (by decide)
    _ = W2 m ρ c (Proc.devRef .tc main_arg16) := by host_keep hostOps0_2
    _ = W1 m ρ c (Proc.devRef .tc main_arg16) := by host_keep hostOps0_1
    _ = W0 m ρ c (Proc.devRef .tc main_arg16) := by host_keep hostOps0
    _ = m ((c : Thread nD τ).loc main_arg16) := rfl

/-- No host operation and no region before boundary 19 writes `main_arg15`: there it holds its launch contents. -/
theorem arg15_at19 : W19 m ρ c (Proc.devRef .tc main_arg15) = m ((c : Thread nD τ).loc main_arg15) :=
  calc W19 m ρ c (Proc.devRef .tc main_arg15)
    _ = W18 m ρ c (Proc.devRef .tc main_arg15) := by host_keep hostOps9
    _ = W17 m ρ c (Proc.devRef .tc main_arg15) := W18_of_ne m ρ c main_arg15 (by decide)
    _ = W16 m ρ c (Proc.devRef .tc main_arg15) := by host_keep hostOps8
    _ = W15 m ρ c (Proc.devRef .tc main_arg15) := W16_of_ne m ρ c main_arg15 (by decide)
    _ = W14 m ρ c (Proc.devRef .tc main_arg15) := by host_keep hostOps7
    _ = W13 m ρ c (Proc.devRef .tc main_arg15) := W14_of_ne m ρ c main_arg15 (by decide)
    _ = W12 m ρ c (Proc.devRef .tc main_arg15) := W13_of_ne m ρ c main_arg15 (by decide)
    _ = W11 m ρ c (Proc.devRef .tc main_arg15) := by host_keep hostOps5
    _ = W10 m ρ c (Proc.devRef .tc main_arg15) := W11_of_ne m ρ c main_arg15 (by decide)
    _ = W9 m ρ c (Proc.devRef .tc main_arg15) := by host_keep hostOps4
    _ = W8 m ρ c (Proc.devRef .tc main_arg15) := W9_of_ne m ρ c main_arg15 (by decide)
    _ = W7 m ρ c (Proc.devRef .tc main_arg15) := W8_of_ne m ρ c main_arg15 (by decide)
    _ = W6 m ρ c (Proc.devRef .tc main_arg15) := by host_keep hostOps2
    _ = W5 m ρ c (Proc.devRef .tc main_arg15) := W6_of_ne m ρ c main_arg15 (by decide)
    _ = W4 m ρ c (Proc.devRef .tc main_arg15) := by host_keep hostOps1
    _ = W3 m ρ c (Proc.devRef .tc main_arg15) := W4_of_ne m ρ c main_arg15 (by decide)
    _ = W2 m ρ c (Proc.devRef .tc main_arg15) := by host_keep hostOps0_2
    _ = W1 m ρ c (Proc.devRef .tc main_arg15) := by host_keep hostOps0_1
    _ = W0 m ρ c (Proc.devRef .tc main_arg15) := by host_keep hostOps0
    _ = m ((c : Thread nD τ).loc main_arg15) := rfl

end Cert.KernelIdeal.Carry

end
-- ==== Proof.CarryGraph.lean ====
/-
  The buffers of the graph side (the messages' source and target nodes and their normalisation, all computed before the
  first region) and the two residual inputs, at the later boundaries where the kernel program reads them: nothing in
  between writes them.
-/
import proofs.«157759_j39539468927577_1_alg».proof.Proof.Gen.KernelIdeal.Frame
import proofs.«157759_j39539468927577_1_alg».proof.Proof.CarryTac

set_option maxRecDepth 16384

noncomputable section

namespace Cert.KernelIdeal.Carry

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg) (c : Dev nD)

/-- `main_v5` (written before region 0) is written by nothing between boundaries 3 and 4. -/
theorem src_at4 : W4 m ρ c (Proc.devRef .tc main_v5) = W3 m ρ c (Proc.devRef .tc main_v5) :=
  calc W4 m ρ c (Proc.devRef .tc main_v5)
    _ = W3 m ρ c (Proc.devRef .tc main_v5) := W4_of_ne m ρ c main_v5 (by decide)

/-- `main_v5` (written before region 0) is written by nothing between boundaries 3 and 6. -/
theorem src_at6 : W6 m ρ c (Proc.devRef .tc main_v5) = W3 m ρ c (Proc.devRef .tc main_v5) :=
  calc W6 m ρ c (Proc.devRef .tc main_v5)
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

/-- `main_v5` (written before region 0) is written by nothing between boundaries 3 and 9. -/
theorem src_at9 : W9 m ρ c (Proc.devRef .tc main_v5) = W3 m ρ c (Proc.devRef .tc main_v5) :=
  calc W9 m ρ c (Proc.devRef .tc main_v5)
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

/-- `main_v5` (written before region 0) is written by nothing between boundaries 3 and 11. -/
theorem src_at11 : W11 m ρ c (Proc.devRef .tc main_v5) = W3 m ρ c (Proc.devRef .tc main_v5) :=
  calc W11 m ρ c (Proc.devRef .tc main_v5)
    _ = W10 m ρ c (Proc.devRef .tc main_v5) := W11_of_ne m ρ c main_v5 (by decide)
    _ = W9 m ρ c (Proc.devRef .tc main_v5) := by host_keep hostOps4
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

/-- `main_v5` (written before region 0) is written by nothing between boundaries 3 and 14. -/
theorem src_at14 : W14 m ρ c (Proc.devRef .tc main_v5) = W3 m ρ c (Proc.devRef .tc main_v5) :=
  calc W14 m ρ c (Proc.devRef .tc main_v5)
    _ = W13 m ρ c (Proc.devRef .tc main_v5) := W14_of_ne m ρ c main_v5 (by decide)
    _ = W12 m ρ c (Proc.devRef .tc main_v5) := W13_of_ne m ρ c main_v5 (by decide)
    _ = W11 m ρ c (Proc.devRef .tc main_v5) := by host_keep hostOps5
    _ = W10 m ρ c (Proc.devRef .tc main_v5) := W11_of_ne m ρ c main_v5 (by decide)
    _ = W9 m ρ c (Proc.devRef .tc main_v5) := by host_keep hostOps4
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

/-- `main_v5` (written before region 0) is written by nothing between boundaries 3 and 16. -/
theorem src_at16 : W16 m ρ c (Proc.devRef .tc main_v5) = W3 m ρ c (Proc.devRef .tc main_v5) :=
  calc W16 m ρ c (Proc.devRef .tc main_v5)
    _ = W15 m ρ c (Proc.devRef .tc main_v5) := W16_of_ne m ρ c main_v5 (by decide)
    _ = W14 m ρ c (Proc.devRef .tc main_v5) := by host_keep hostOps7
    _ = W13 m ρ c (Proc.devRef .tc main_v5) := W14_of_ne m ρ c main_v5 (by decide)
    _ = W12 m ρ c (Proc.devRef .tc main_v5) := W13_of_ne m ρ c main_v5 (by decide)
    _ = W11 m ρ c (Proc.devRef .tc main_v5) := by host_keep hostOps5
    _ = W10 m ρ c (Proc.devRef .tc main_v5) := W11_of_ne m ρ c main_v5 (by decide)
    _ = W9 m ρ c (Proc.devRef .tc main_v5) := by host_keep hostOps4
    _ = W8 m ρ c (Proc.devRef .tc main_v5) := W9_of_ne m ρ c main_v5 (by decide)
    _ = W7 m ρ c (Proc.devRef .tc main_v5) := W8_of_ne m ρ c main_v5 (by decide)
    _ = W6 m ρ c (Proc.devRef .tc main_v5) := by host_keep hostOps2
    _ = W5 m ρ c (Proc.devRef .tc main_v5) := W6_of_ne m ρ c main_v5 (by decide)
    _ = W4 m ρ c (Proc.devRef .tc main_v5) := by host_keep hostOps1
    _ = W3 m ρ c (Proc.devRef .tc main_v5) := W4_of_ne m ρ c main_v5 (by decide)

/-- `main_v6` (written before region 0) is written by nothing between boundaries 3 and 4. -/
theorem dst_at4 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

/-- `main_v6` (written before region 0) is written by nothing between boundaries 3 and 6. -/
theorem dst_at6 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

/-- `main_v6` (written before region 0) is written by nothing between boundaries 3 and 9. -/
theorem dst_at9 : W9 m ρ c (Proc.devRef .tc main_v6) = W3 m ρ c (Proc.devRef .tc main_v6) :=
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

/-- `main_v6` (written before region 0) is written by nothing between boundaries 3 and 11. -/
theorem dst_at11 : W11 m ρ c (Proc.devRef .tc main_v6) = W3 m ρ c (Proc.devRef .tc main_v6) :=
  calc W11 m ρ c (Proc.devRef .tc main_v6)
    _ = W10 m ρ c (Proc.devRef .tc main_v6) := W11_of_ne m ρ c main_v6 (by decide)
    _ = W9 m ρ c (Proc.devRef .tc main_v6) := by host_keep hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

/-- `main_v6` (written before region 0) is written by nothing between boundaries 3 and 14. -/
theorem dst_at14 : W14 m ρ c (Proc.devRef .tc main_v6) = W3 m ρ c (Proc.devRef .tc main_v6) :=
  calc W14 m ρ c (Proc.devRef .tc main_v6)
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keep hostOps5
    _ = W10 m ρ c (Proc.devRef .tc main_v6) := W11_of_ne m ρ c main_v6 (by decide)
    _ = W9 m ρ c (Proc.devRef .tc main_v6) := by host_keep hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

/-- `main_v6` (written before region 0) is written by nothing between boundaries 3 and 16. -/
theorem dst_at16 : W16 m ρ c (Proc.devRef .tc main_v6) = W3 m ρ c (Proc.devRef .tc main_v6) :=
  calc W16 m ρ c (Proc.devRef .tc main_v6)
    _ = W15 m ρ c (Proc.devRef .tc main_v6) := W16_of_ne m ρ c main_v6 (by decide)
    _ = W14 m ρ c (Proc.devRef .tc main_v6) := by host_keep hostOps7
    _ = W13 m ρ c (Proc.devRef .tc main_v6) := W14_of_ne m ρ c main_v6 (by decide)
    _ = W12 m ρ c (Proc.devRef .tc main_v6) := W13_of_ne m ρ c main_v6 (by decide)
    _ = W11 m ρ c (Proc.devRef .tc main_v6) := by host_keep hostOps5
    _ = W10 m ρ c (Proc.devRef .tc main_v6) := W11_of_ne m ρ c main_v6 (by decide)
    _ = W9 m ρ c (Proc.devRef .tc main_v6) := by host_keep hostOps4
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := by host_keep hostOps2
    _ = W5 m ρ c (Proc.devRef .tc main_v6) := W6_of_ne m ρ c main_v6 (by decide)
    _ = W4 m ρ c (Proc.devRef .tc main_v6) := by host_keep hostOps1
    _ = W3 m ρ c (Proc.devRef .tc main_v6) := W4_of_ne m ρ c main_v6 (by decide)

/-- `main_v29` (written before region 0) is written by nothing between boundaries 3 and 4. -/
theorem nrm_at4 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

/-- `main_v29` (written before region 0) is written by nothing between boundaries 3 and 6. -/
theorem nrm_at6 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

/-- `main_v29` (written before region 0) is written by nothing between boundaries 3 and 9. -/
theorem nrm_at9 : W9 m ρ c (Proc.devRef .tc main_v29) = W3 m ρ c (Proc.devRef .tc main_v29) :=
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

/-- `main_v29` (written before region 0) is written by nothing between boundaries 3 and 11. -/
theorem nrm_at11 : W11 m ρ c (Proc.devRef .tc main_v29) = W3 m ρ c (Proc.devRef .tc main_v29) :=
  calc W11 m ρ c (Proc.devRef .tc main_v29)
    _ = W10 m ρ c (Proc.devRef .tc main_v29) := W11_of_ne m ρ c main_v29 (by decide)
    _ = W9 m ρ c (Proc.devRef .tc main_v29) := by host_keep hostOps4
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

/-- `main_v29` (written before region 0) is written by nothing between boundaries 3 and 14. -/
theorem nrm_at14 : W14 m ρ c (Proc.devRef .tc main_v29) = W3 m ρ c (Proc.devRef .tc main_v29) :=
  calc W14 m ρ c (Proc.devRef .tc main_v29)
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := by host_keep hostOps5
    _ = W10 m ρ c (Proc.devRef .tc main_v29) := W11_of_ne m ρ c main_v29 (by decide)
    _ = W9 m ρ c (Proc.devRef .tc main_v29) := by host_keep hostOps4
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

/-- `main_v29` (written before region 0) is written by nothing between boundaries 3 and 16. -/
theorem nrm_at16 : W16 m ρ c (Proc.devRef .tc main_v29) = W3 m ρ c (Proc.devRef .tc main_v29) :=
  calc W16 m ρ c (Proc.devRef .tc main_v29)
    _ = W15 m ρ c (Proc.devRef .tc main_v29) := W16_of_ne m ρ c main_v29 (by decide)
    _ = W14 m ρ c (Proc.devRef .tc main_v29) := by host_keep hostOps7
    _ = W13 m ρ c (Proc.devRef .tc main_v29) := W14_of_ne m ρ c main_v29 (by decide)
    _ = W12 m ρ c (Proc.devRef .tc main_v29) := W13_of_ne m ρ c main_v29 (by decide)
    _ = W11 m ρ c (Proc.devRef .tc main_v29) := by host_keep hostOps5
    _ = W10 m ρ c (Proc.devRef .tc main_v29) := W11_of_ne m ρ c main_v29 (by decide)
    _ = W9 m ρ c (Proc.devRef .tc main_v29) := by host_keep hostOps4
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := by host_keep hostOps2
    _ = W5 m ρ c (Proc.devRef .tc main_v29) := W6_of_ne m ρ c main_v29 (by decide)
    _ = W4 m ρ c (Proc.devRef .tc main_v29) := by host_keep hostOps1
    _ = W3 m ρ c (Proc.devRef .tc main_v29) := W4_of_ne m ρ c main_v29 (by decide)

/-- The first block's output `main_v60` (region 2's result) is read, never written, up to boundary 12, where region 5 takes it as its residual. -/
theorem h1_at12 : W12 m ρ c (Proc.devRef .tc main_v60) = W8 m ρ c (Proc.devRef .tc main_v60) :=
  calc W12 m ρ c (Proc.devRef .tc main_v60)
    _ = W11 m ρ c (Proc.devRef .tc main_v60) := by host_keep hostOps5
    _ = W10 m ρ c (Proc.devRef .tc main_v60) := W11_of_ne m ρ c main_v60 (by decide)
    _ = W9 m ρ c (Proc.devRef .tc main_v60) := by host_keep hostOps4
    _ = W8 m ρ c (Proc.devRef .tc main_v60) := (W9_arr m ρ c 0).trans (((dat3 (V8 m ρ) c).arrAt_in 0 rfl _).trans (A_eq3 (V8 m ρ) c 0))

/-- The second block's output `main_v91` (region 5's result) is read, never written, up to boundary 17, where region 8 takes it as its residual. -/
theorem h2_at17 : W17 m ρ c (Proc.devRef .tc main_v91) = W13 m ρ c (Proc.devRef .tc main_v91) :=
  calc W17 m ρ c (Proc.devRef .tc main_v91)
    _ = W16 m ρ c (Proc.devRef .tc main_v91) := by host_keep hostOps8
    _ = W15 m ρ c (Proc.devRef .tc main_v91) := W16_of_ne m ρ c main_v91 (by decide)
    _ = W14 m ρ c (Proc.devRef .tc main_v91) := by host_keep hostOps7
    _ = W13 m ρ c (Proc.devRef .tc main_v91) := (W14_arr m ρ c 0).trans (((dat6 (V13 m ρ) c).arrAt_in 0 rfl _).trans (A_eq6 (V13 m ρ) c 0))

end Cert.KernelIdeal.Carry

end
-- ==== Proof.HostStages.lean ====
/-
  Every host stretch of the kernel program as functions: what a buffer it writes holds afterwards, as the host
  operations' term of what the stretch found in the buffers it reads. `W` is ANY contents of the buffers the stretch
  starts from. The six stretches between the regions are one aggregation each (the messages along the edges gathered,
  scaled by the normalisation and summed at their target nodes: `Stages.agg`) plus a bias [32] recast as a row
  [1, 32]; the stretches before the first region compute the messages' endpoints and their normalisation; the last
  stretch sums the node features and counts the nodes per graph.
-/
import proofs.«157759_j39539468927577_1_alg».proof.Proof.Gen.KernelIdeal.Frame
import proofs.«157759_j39539468927577_1_alg».proof.Proof.Gen.ReferenceIdeal
import proofs.«157759_j39539468927577_1_alg».proof.Proof.Stages

set_option maxRecDepth 16384

noncomputable section

namespace Cert.KernelIdeal.HostStages

open Cert.KernelIdeal Cert.KernelIdeal.Gen
open Idealize.ShloMosaic Idealize.ShloMosaic.TcCoe Idealize.ShloMosaic.StableHlo Idealize.SL.Sem

variable (W : Valuation τ sig (Elt Ideal))

/-! ## Before the first region: endpoints, degrees, normalisation -/

theorem src_hostOps0 : StableHlo.after hostOps0 W (Proc.devRef .tc main_v5) = Cert.Stages.src (F := Ideal) (W (Proc.devRef .tc main_arg1)) := by
  dsimp only [hostOps0]; after_results_simp; try rfl

theorem dst_hostOps0 : StableHlo.after hostOps0 W (Proc.devRef .tc main_v6) = Cert.Stages.dst (F := Ideal) (W (Proc.devRef .tc main_arg1)) := by
  dsimp only [hostOps0]; after_results_simp; try rfl

theorem pos_hostOps0 : StableHlo.after hostOps0 W (Proc.devRef .tc main_v12)
    = cmpf (F := Ideal) .ogt (Cert.Stages.deg (F := Ideal) (Cert.Stages.dst (W (Proc.devRef .tc main_arg1)))) (broadcastInDim S100000 ![] bcast_S_S100000 (constant (F := Ideal) S_ .f32 0x00000000#32)) := by
  dsimp only [hostOps0]; after_results_simp; try rfl

theorem rsqrt_hostOps0 : StableHlo.after hostOps0 W (Proc.devRef .tc main_v13)
    = Host.rsqrt (F := Ideal) (φ := .f32) (Cert.Stages.deg (F := Ideal) (Cert.Stages.dst (W (Proc.devRef .tc main_arg1)))) := by
  dsimp only [hostOps0]; after_results_simp; try rfl

theorem zero_hostOps0 : StableHlo.after hostOps0 W (Proc.devRef .tc main_cst_2) = constant (F := Ideal) S_ .f32 0x00000000#32 := by
  dsimp only [hostOps0]; after_results_simp; try rfl

theorem dinv_hostOps0_1 : StableHlo.after hostOps0_1 W (Proc.devRef .tc main_v14)
    = select (W (Proc.devRef .tc main_v12)) (W (Proc.devRef .tc main_v13)) (broadcastInDim S100000 ![] bcast_S_S100000 (id (W (Proc.devRef .tc main_cst_2)))) := by
  dsimp only [hostOps0_1]; after_results_simp; try rfl

theorem nrm_hostOps0_2 : StableHlo.after hostOps0_2 W (Proc.devRef .tc main_v29)
    = mulf (F := Ideal) (φ := .f32) (Host.gather gather_S100000_S3300000x1_S3300000_n_0_n_n_0_1_1 (W (Proc.devRef .tc main_v14)) (Cert.Stages.wrapCol (F := Ideal) (W (Proc.devRef .tc main_v5))))
        (Host.gather gather_S100000_S3300000x1_S3300000_n_0_n_n_0_1_1 (W (Proc.devRef .tc main_v14)) (Cert.Stages.wrapCol (F := Ideal) (W (Proc.devRef .tc main_v6)))) := by
  dsimp only [hostOps0_2]; after_results_simp; try rfl

/-! ## Between the regions: one aggregation and one bias row per stretch -/

theorem agg_hostOps1 : StableHlo.after hostOps1 W (Proc.devRef .tc main_v43)
    = Cert.Stages.agg (F := Ideal) (W (Proc.devRef .tc main_v30)) (W (Proc.devRef .tc main_v5)) (W (Proc.devRef .tc main_v6)) (W (Proc.devRef .tc main_v29)) := by
  dsimp only [hostOps1]; after_results_simp; try rfl

theorem bias_hostOps1 : StableHlo.after hostOps1 W (Proc.devRef .tc main_v44)
    = shapeCast S1x32 (W (Proc.devRef .tc main_arg4)) shapeCasts_S32_S1x32 := by
  dsimp only [hostOps1]; after_results_simp; try rfl

theorem agg_hostOps2 : StableHlo.after hostOps2 W (Proc.devRef .tc main_v58)
    = Cert.Stages.agg (F := Ideal) (W (Proc.devRef .tc main_v45)) (W (Proc.devRef .tc main_v5)) (W (Proc.devRef .tc main_v6)) (W (Proc.devRef .tc main_v29)) := by
  dsimp only [hostOps2]; after_results_simp; try rfl

theorem bias_hostOps2 : StableHlo.after hostOps2 W (Proc.devRef .tc main_v59)
    = shapeCast S1x32 (W (Proc.devRef .tc main_arg6)) shapeCasts_S32_S1x32 := by
  dsimp only [hostOps2]; after_results_simp; try rfl

theorem agg_hostOps4 : StableHlo.after hostOps4 W (Proc.devRef .tc main_v74)
    = Cert.Stages.agg (F := Ideal) (W (Proc.devRef .tc main_v61)) (W (Proc.devRef .tc main_v5)) (W (Proc.devRef .tc main_v6)) (W (Proc.devRef .tc main_v29)) := by
  dsimp only [hostOps4]; after_results_simp; try rfl

theorem bias_hostOps4 : StableHlo.after hostOps4 W (Proc.devRef .tc main_v75)
    = shapeCast S1x32 (W (Proc.devRef .tc main_arg8)) shapeCasts_S32_S1x32 := by
  dsimp only [hostOps4]; after_results_simp; try rfl

theorem agg_hostOps5 : StableHlo.after hostOps5 W (Proc.devRef .tc main_v89)
    = Cert.Stages.agg (F := Ideal) (W (Proc.devRef .tc main_v76)) (W (Proc.devRef .tc main_v5)) (W (Proc.devRef .tc main_v6)) (W (Proc.devRef .tc main_v29)) := by
  dsimp only [hostOps5]; after_results_simp; try rfl

theorem bias_hostOps5 : StableHlo.after hostOps5 W (Proc.devRef .tc main_v90)
    = shapeCast S1x32 (W (Proc.devRef .tc main_arg10)) shapeCasts_S32_S1x32 := by
  dsimp only [hostOps5]; after_results_simp; try rfl

theorem agg_hostOps7 : StableHlo.after hostOps7 W (Proc.devRef .tc main_v105)
    = Cert.Stages.agg (F := Ideal) (W (Proc.devRef .tc main_v92)) (W (Proc.devRef .tc main_v5)) (W (Proc.devRef .tc main_v6)) (W (Proc.devRef .tc main_v29)) := by
  dsimp only [hostOps7]; after_results_simp; try rfl

theorem bias_hostOps7 : StableHlo.after hostOps7 W (Proc.devRef .tc main_v106)
    = shapeCast S1x32 (W (Proc.devRef .tc main_arg12)) shapeCasts_S32_S1x32 := by
  dsimp only [hostOps7]; after_results_simp; try rfl

theorem agg_hostOps8 : StableHlo.after hostOps8 W (Proc.devRef .tc main_v120)
    = Cert.Stages.agg (F := Ideal) (W (Proc.devRef .tc main_v107)) (W (Proc.devRef .tc main_v5)) (W (Proc.devRef .tc main_v6)) (W (Proc.devRef .tc main_v29)) := by
  dsimp only [hostOps8]; after_results_simp; try rfl

theorem bias_hostOps8 : StableHlo.after hostOps8 W (Proc.devRef .tc main_v121)
    = shapeCast S1x32 (W (Proc.devRef .tc main_arg14)) shapeCasts_S32_S1x32 := by
  dsimp only [hostOps8]; after_results_simp; try rfl

/-! ## After the last block: the per-graph sums and counts, the head's bias as a row -/

theorem sums_hostOps9 : StableHlo.after hostOps9 W (Proc.devRef .tc main_v125)
    = Cert.Stages.sums (F := Ideal) (W (Proc.devRef .tc main_v122)) (W (Proc.devRef .tc main_arg2)) := by
  dsimp only [hostOps9]; after_results_simp; try rfl

theorem cnts_hostOps9 : StableHlo.after hostOps9 W (Proc.devRef .tc main_v130)
    = shapeCast S8192x1 (Cert.Stages.cnts (F := Ideal) (W (Proc.devRef .tc main_arg2))) shapeCasts_S8192_S8192x1 := by
  dsimp only [hostOps9]; after_results_simp; try rfl

theorem bias_hostOps9 : StableHlo.after hostOps9 W (Proc.devRef .tc main_v131)
    = shapeCast S1x128 (W (Proc.devRef .tc main_arg16)) shapeCasts_S128_S1x128 := by
  dsimp only [hostOps9]; after_results_simp; try rfl

end Cert.KernelIdeal.HostStages

end
-- ==== Proof.MatmulAt.lean ====
/-
  Matrix products read at one entry, at the exact extended reals.

  A block product of the kernel (a [5000, 32] block of node rows against a [32, 32] weight matrix, accumulated
  into zero) and the whole-array product `x · w` of the stages ([100000, 32] against [32, 32]) are both, at entry
  (r, q), the sum over the 32 contracted columns k of  left (r, k) * right (k, q):  the contraction index of either
  product has one axis of extent 32, and the two operand indices at a contraction index k are (r, k) and (k, q).
  Also here: `relu (a + b)` of the stages at an entry, where the bias row b is read at the entry's column.
-/
import proofs.«157759_j39539468927577_1_alg».proof.Proof.Gen.KernelIdeal
import proofs.«157759_j39539468927577_1_alg».proof.Proof.Gen.ReferenceIdeal
import proofs.«157759_j39539468927577_1_alg».proof.Proof.Stages
import Idealize.ShloMosaic.Lib.Pipeline.Value
import Idealize.ShloMosaic.Lib.ValueIdx
import Idealize.ShloMosaic.PureOps.Ideal.Laws

noncomputable section

namespace Cert.KernelIdeal.RegionVal

open Cert.KernelIdeal Cert.KernelIdeal.Gen Idealize.ShloMosaic Idealize.ShloMosaic.ValueIdx
open scoped BigOperators

/-- The offsets of a rectangle that starts at the origin of a rank-2 buffer. -/
theorem zeroOffsets : (![0, 0] : Fin 2 → Nat) = fun _ => 0 := funext fun a => by fin_cases a <;> rfl

/-! ## The two products' operand indices, coordinate by coordinate

At output index `i` and contraction index `z` the left operand is read at (i 0, z 0) and the right at (z 0, i 1). -/

theorem blockDot_lhs0 (i : S5000x32.Idx) (z : dot_S5000x32_S32x32_S5000x32_1_0_0_1_n_n.contr.Idx) : (dot_S5000x32_S32x32_S5000x32_1_0_0_1_n_n.lhsIdx i z 0).val = (i 0).val := by
  unfold DotDims.lhsIdx
  rw [dif_neg (show ¬(0 : Fin S5000x32.rank) ∈ dot_S5000x32_S32x32_S5000x32_1_0_0_1_n_n.lhsBatch by decide), dif_pos (show (0 : Fin S5000x32.rank) ∈ dot_S5000x32_S32x32_S5000x32_1_0_0_1_n_n.lhsNonContracting by decide)]
  rfl
theorem blockDot_lhs1 (i : S5000x32.Idx) (z : dot_S5000x32_S32x32_S5000x32_1_0_0_1_n_n.contr.Idx) : (dot_S5000x32_S32x32_S5000x32_1_0_0_1_n_n.lhsIdx i z 1).val = (z ⟨0, by decide⟩).val :=
  dot_S5000x32_S32x32_S5000x32_1_0_0_1_n_n.lhsIdx_val_of_single rfl i z
theorem blockDot_rhs0 (i : S5000x32.Idx) (z : dot_S5000x32_S32x32_S5000x32_1_0_0_1_n_n.contr.Idx) : (dot_S5000x32_S32x32_S5000x32_1_0_0_1_n_n.rhsIdx i z 0).val = (z ⟨0, by decide⟩).val :=
  dot_S5000x32_S32x32_S5000x32_1_0_0_1_n_n.rhsIdx_val_of_single rfl i z
theorem blockDot_rhs1 (i : S5000x32.Idx) (z : dot_S5000x32_S32x32_S5000x32_1_0_0_1_n_n.contr.Idx) : (dot_S5000x32_S32x32_S5000x32_1_0_0_1_n_n.rhsIdx i z 1).val = (i 1).val := by
  unfold DotDims.rhsIdx
  rw [dif_neg (show ¬(1 : Fin S32x32.rank) ∈ dot_S5000x32_S32x32_S5000x32_1_0_0_1_n_n.rhsBatch by decide), dif_pos (show (1 : Fin S32x32.rank) ∈ dot_S5000x32_S32x32_S5000x32_1_0_0_1_n_n.rhsNonContracting by decide)]
  rfl

theorem wholeDot_lhs0 (i : Cert.ReferenceIdeal.S100000x32.Idx) (z : Cert.ReferenceIdeal.dot_S100000x32_S32x32_S100000x32_1_0_0_1_n_n.contr.Idx) : (Cert.ReferenceIdeal.dot_S100000x32_S32x32_S100000x32_1_0_0_1_n_n.lhsIdx i z 0).val = (i 0).val := by
  unfold DotDims.lhsIdx
  rw [dif_neg (show ¬(0 : Fin Cert.ReferenceIdeal.S100000x32.rank) ∈ Cert.ReferenceIdeal.dot_S100000x32_S32x32_S100000x32_1_0_0_1_n_n.lhsBatch by decide), dif_pos (show (0 : Fin Cert.ReferenceIdeal.S100000x32.rank) ∈ Cert.ReferenceIdeal.dot_S100000x32_S32x32_S100000x32_1_0_0_1_n_n.lhsNonContracting by decide)]
  rfl
theorem wholeDot_lhs1 (i : Cert.ReferenceIdeal.S100000x32.Idx) (z : Cert.ReferenceIdeal.dot_S100000x32_S32x32_S100000x32_1_0_0_1_n_n.contr.Idx) : (Cert.ReferenceIdeal.dot_S100000x32_S32x32_S100000x32_1_0_0_1_n_n.lhsIdx i z 1).val = (z ⟨0, by decide⟩).val :=
  Cert.ReferenceIdeal.dot_S100000x32_S32x32_S100000x32_1_0_0_1_n_n.lhsIdx_val_of_single rfl i z
theorem wholeDot_rhs0 (i : Cert.ReferenceIdeal.S100000x32.Idx) (z : Cert.ReferenceIdeal.dot_S100000x32_S32x32_S100000x32_1_0_0_1_n_n.contr.Idx) : (Cert.ReferenceIdeal.dot_S100000x32_S32x32_S100000x32_1_0_0_1_n_n.rhsIdx i z 0).val = (z ⟨0, by decide⟩).val :=
  Cert.ReferenceIdeal.dot_S100000x32_S32x32_S100000x32_1_0_0_1_n_n.rhsIdx_val_of_single rfl i z
theorem wholeDot_rhs1 (i : Cert.ReferenceIdeal.S100000x32.Idx) (z : Cert.ReferenceIdeal.dot_S100000x32_S32x32_S100000x32_1_0_0_1_n_n.contr.Idx) : (Cert.ReferenceIdeal.dot_S100000x32_S32x32_S100000x32_1_0_0_1_n_n.rhsIdx i z 1).val = (i 1).val := by
  unfold DotDims.rhsIdx
  rw [dif_neg (show ¬(1 : Fin Cert.ReferenceIdeal.S32x32.rank) ∈ Cert.ReferenceIdeal.dot_S100000x32_S32x32_S100000x32_1_0_0_1_n_n.rhsBatch by decide), dif_pos (show (1 : Fin Cert.ReferenceIdeal.S32x32.rank) ∈ Cert.ReferenceIdeal.dot_S100000x32_S32x32_S100000x32_1_0_0_1_n_n.rhsNonContracting by decide)]
  rfl

/-! ## The products at an entry -/

/-- The block product at entry (p, q): row `p` of the left block against column `q` of the weights. -/
theorem blockMatmul_apply (a : FVec Ideal S5000x32 .bf16) (b : FVec Ideal S32x32 .bf16) (p : Fin 5000) (q : Fin 32) :
    matmul dot_S5000x32_S32x32_S5000x32_1_0_0_1_n_n none a b (constant (F := Ideal) S5000x32 .f32 0x00000000#32) (ix2 p q)
      = ∑ k : Fin 32, a (ix2 p k) * b (ix2 k q) := by
  simp only [matmul]
  rw [Ideal.matmul_constant_zero_apply, ← Equiv.sum_comp (contrEquiv1 dot_S5000x32_S32x32_S5000x32_1_0_0_1_n_n 32 rfl rfl).symm]
  refine Finset.sum_congr rfl fun k _ => ?_
  have hk := contrEquiv1_symm_val dot_S5000x32_S32x32_S5000x32_1_0_0_1_n_n 32 rfl rfl k
  have el : dot_S5000x32_S32x32_S5000x32_1_0_0_1_n_n.lhsIdx (ix2 p q) ((contrEquiv1 dot_S5000x32_S32x32_S5000x32_1_0_0_1_n_n 32 rfl rfl).symm k) = ix2 p k := funext fun d => Fin.ext (by
    match d with
    | ⟨0, _⟩ => exact blockDot_lhs0 _ _
    | ⟨1, _⟩ => exact (blockDot_lhs1 _ _).trans hk)
  have er : dot_S5000x32_S32x32_S5000x32_1_0_0_1_n_n.rhsIdx (ix2 p q) ((contrEquiv1 dot_S5000x32_S32x32_S5000x32_1_0_0_1_n_n 32 rfl rfl).symm k) = ix2 k q := funext fun d => Fin.ext (by
    match d with
    | ⟨0, _⟩ => exact (blockDot_rhs0 _ _).trans hk
    | ⟨1, _⟩ => exact blockDot_rhs1 _ _)
  rw [el, er]

/-- The whole-array product `x · w` at entry (r, q). -/
theorem mm_apply (x : (⟨Cert.ReferenceIdeal.S100000x32, .f32⟩ : BufTy).Contents (Elt Ideal)) (w : (⟨Cert.ReferenceIdeal.S32x32, .f32⟩ : BufTy).Contents (Elt Ideal))
    (r : Fin 100000) (q : Fin 32) :
    Cert.Stages.mm (F := Ideal) x w (ix2 r q) = ∑ k : Fin 32, x (ix2 r k) * w (ix2 k q) := by
  unfold Cert.Stages.mm
  simp only [Host.dotGeneral]
  rw [Ideal.dotGeneral_apply, ← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have el : Cert.ReferenceIdeal.dot_S100000x32_S32x32_S100000x32_1_0_0_1_n_n.lhsIdx (ix2 r q) ((contrEquiv1 Cert.ReferenceIdeal.dot_S100000x32_S32x32_S100000x32_1_0_0_1_n_n 32 rfl rfl).symm k) = ix2 r k := funext fun d => Fin.ext (by
    match d with
    | ⟨0, _⟩ => exact wholeDot_lhs0 _ _
    | ⟨1, _⟩ => exact (wholeDot_lhs1 _ _).trans hk)
  have er : Cert.ReferenceIdeal.dot_S100000x32_S32x32_S100000x32_1_0_0_1_n_n.rhsIdx (ix2 r q) ((contrEquiv1 Cert.ReferenceIdeal.dot_S100000x32_S32x32_S100000x32_1_0_0_1_n_n 32 rfl rfl).symm k) = ix2 k q := funext fun d => Fin.ext (by
    match d with
    | ⟨0, _⟩ => exact (wholeDot_rhs0 _ _).trans hk
    | ⟨1, _⟩ => exact wholeDot_rhs1 _ _)
  rw [el, er]

/-- `relu (a + b)` at entry (r, k): the bias row is read at column `k`, the zero is the f32 zero word's value. -/
theorem biasRelu_apply (a : (⟨Cert.ReferenceIdeal.S100000x32, .f32⟩ : BufTy).Contents (Elt Ideal)) (b : (⟨Cert.ReferenceIdeal.S1x32, .f32⟩ : BufTy).Contents (Elt Ideal))
    (r : Fin 100000) (k : Fin 32) :
    Cert.Stages.biasRelu (F := Ideal) a b (ix2 r k)
      = max (a (ix2 r k) + b (ix2 (0 : Fin 1) k)) (Ideal.ofBits .f32 0x00000000#32) := by
  unfold Cert.Stages.biasRelu Cert.Stages.rows Cert.Stages.zeros
  rw [maximumf_apply, addf_apply,
    broadcastInDim_apply _ _ b (ix2 r k) (ix2 (0 : Fin 1) k) (fun d => by
      match d with
      | ⟨0, _⟩ => rfl
      | ⟨1, _⟩ => rfl),
    broadcastInDim_apply _ _ (constant (F := Ideal) Cert.ReferenceIdeal.S_ .f32 0x00000000#32) (ix2 r k) ix0 (fun d => d.elim0)]
  rfl

end Cert.KernelIdeal.RegionVal

end
-- ==== Proof.RegionMM.lean ====
/-
  Regions 0, 3 and 6: a node array [100000, 32] times a weight matrix [32, 32], computed in 20 row blocks of
  5000 nodes. At grid point t the body reads rows 5000 t … 5000 t + 4999 of the node array and the whole weight
  matrix, and stores their product, which is written back as rows 5000 t … 5000 t + 4999 of the output array.
  Entry (p, q) of that block is  Σ_k x (5000 t + p, k) · W (k, q),  which is entry (5000 t + p, q) of the whole
  product x · W; the 20 blocks fill the array (row r lies in block r / 5000), so after the region the output array
  IS the whole product of the arrays the region found.
-/
import proofs.«157759_j39539468927577_1_alg».proof.Proof.Gen.KernelIdeal.Frame
import proofs.«157759_j39539468927577_1_alg».proof.Proof.Gen.ReferenceIdeal
import proofs.«157759_j39539468927577_1_alg».proof.Proof.Stages
import proofs.«157759_j39539468927577_1_alg».proof.Proof.MatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! # Region 0: the node array `main_arg0` times the weights `main_arg3`, row block by row block -/

/-- The value the body stores, at entry (p, q) of the block: row `p` of the node block against column `q` of the
    weights (the changes of float format are the identity on extended reals). -/
theorem k0_pay1_apply (x0 : Vec Ideal S5000x32 .f32) (x1 : Vec Ideal S32x32 .f32) (p : Fin 5000) (q : Fin 32) :
    k0_pay1 x0 x1 (ix2 p q) = ∑ k : Fin 32, x0 (ix2 p k) * x1 (ix2 k q) := by
  unfold k0_pay1
  exact blockMatmul_apply _ _ p q

/-- What the body leaves in the output window's buffer, at an entry: its one store covers the buffer. -/
theorem out0_2_apply (x0 : Vec Ideal S5000x32 .f32) (x1 : Vec Ideal S32x32 .f32) (p : Fin 5000) (q : Fin 32) :
    out0_2 x0 x1 (ix2 p q) = ∑ k : Fin 32, x0 (ix2 p k) * x1 (ix2 k q) := by
  unfold out0_2
  rw [View.canon_unit_zero zeroOffsets]
  simp only [View.ld_unit_zero (S := S5000x32) zeroOffsets, View.ld_unit_zero (S := S32x32) zeroOffsets]
  exact k0_pay1_apply x0 x1 p q

/-- The index maps over the 20 points: at point `t` the node windows sit at row block `t`, the weights at block 0. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The node window's block at point `t` is rows `5000 t … 5000 t + 4999` of the node array. -/
theorem iblk0_0_apply (c : Dev nD) (t : Fin cfg0.N) (p : Fin 5000) (k : Fin 32) (i : S100000x32.Idx)
    (hi0 : (i 0).val = t.val * 5000 + p.val) (hi1 : (i 1).val = k.val) :
    (iblk0 V c 0 t : Vec Ideal S5000x32 .f32) (ix2 p k) = (V c main_arg0 : S100000x32.Idx → EReal) i := by
  obtain ⟨e0, e1, -⟩ := index0 t
  unfold iblk0
  rw [View.read_apply]
  show (V c main_arg0 : S100000x32.Idx → EReal) _ = _
  refine congrArg (V c main_arg0 : S100000x32.Idx → EReal) (funext fun a => Fin.ext ?_)
  match a with
  | ⟨0, _⟩ => show win0_0.index t (0 : Fin 2) * 5000 + 1 * p.val = (i 0).val; omega
  | ⟨1, _⟩ => show win0_0.index t (1 : Fin 2) * 32 + 1 * k.val = (i 1).val; omega

/-- The weight window's block at every point is the whole weight matrix. -/
theorem iblk0_1_apply (c : Dev nD) (t : Fin cfg0.N) (k q : Fin 32) :
    (iblk0 V c 1 t : Vec Ideal S32x32 .f32) (ix2 k q) = (V c main_arg3 : S32x32.Idx → EReal) (ix2 k q) := by
  obtain ⟨-, -, e0, e1, -⟩ := index0 t
  unfold iblk0
  rw [View.read_apply]
  show (V c main_arg3 : S32x32.Idx → EReal) _ = _
  refine congrArg (V c main_arg3 : S32x32.Idx → EReal) (funext fun a => Fin.ext ?_)
  match a with
  | ⟨0, _⟩ => show win0_1.index t (0 : Fin 2) * 32 + 1 * k.val = k.val; omega
  | ⟨1, _⟩ => show win0_1.index t (1 : Fin 2) * 32 + 1 * q.val = q.val; omega

/-- What point `t` writes back is row block `t` of the whole product: entry (p, q) of the block is entry
    (5000 t + p, q) of the array, and both are the same sum over the contracted columns. -/
theorem flushed0 (c : Dev nD) (t : Fin cfg0.N) :
    (dat0 (F := Ideal) V c).flushed 2 t
      = ((cfg0.win 2).blk t).view.read (Elt Ideal) (Cert.Stages.mm (F := Ideal) (V c main_arg0) (V c main_arg3)) := by
  show (cfg0.win 2).cut (grid0.coords t) ((dat0 V c).after 2 t) = _
  rw [after0_2]
  have hN : t.val < 20 := t.isLt.trans_eq N_0
  obtain ⟨-, -, -, -, e0, e1⟩ := index0 t
  funext j
  have hj0 : (j 0).val < 5000 := (j 0).isLt
  have hj1 : (j 1).val < 32 := (j 1).isLt
  rw [View.read_apply]
  have hemb : ((cfg0.win 2).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win0_2.index t (0 : Fin 2) * 5000 + 1 * (j 0).val = t.val * 5000 + (j 0).val; omega
    | ⟨1, _⟩ => show win0_2.index t (1 : Fin 2) * 32 + 1 * (j 1).val = (j 1).val; omega
  rw [hemb, mm_apply]
  have hx : (cfg0.win 2).xinj (grid0.coords t) j = (ix2 (⟨(j 0).val, hj0⟩ : Fin 5000) (⟨(j 1).val, hj1⟩ : Fin 32) : S5000x32.Idx) :=
    funext fun a => by match a with | ⟨0, _⟩ => rfl | ⟨1, _⟩ => rfl
  show out0_2 (iblk0 V c 0 t) (iblk0 V c 1 t) ((cfg0.win 2).xinj (grid0.coords t) j) = _
  rw [hx, out0_2_apply]
  refine Finset.sum_congr rfl fun k _ => ?_
  exact congrArg₂ (· * ·)
    (iblk0_0_apply V c t ⟨(j 0).val, hj0⟩ k (ix2 (⟨t.val * 5000 + (j 0).val, by omega⟩ : Fin 100000) k) rfl rfl)
    (iblk0_1_apply V c t k ⟨(j 1).val, hj1⟩)

/-- An index of the array is in point `t`'s block iff each coordinate is in the block's range on its axis. -/
theorem mem_blk0 (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v30).slice (win0_2.rect t)).set ↔ _
  rw [View.set_slice_whole, Rect.mem_set_unit]
  exact Iff.rfl

/-- The 20 row blocks fill the array: row `r` lies in the block of point `r / 5000`. -/
theorem cover0 (i : S100000x32.Idx) : ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨-, -, -, -, e0, e1⟩ := index0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- After region 0 its output array is the whole product of `main_arg0` and `main_arg3` as the region found them. -/
theorem region0 (c : Dev nD) :
    (dat0 (F := Ideal) V c).arrAt 2 cfg0.N = Cert.Stages.mm (F := Ideal) (V c main_arg0) (V c main_arg3) :=
  (dat0 (F := Ideal) V c).arrAt_eq_of_cover 2 (Cert.Stages.mm (F := Ideal) (V c main_arg0) (V c main_arg3))
    (fun t _ => flushed0 V c t) cover0

/-! # Region 3: the node array `main_v60` times the weights `main_arg7`, row block by row block -/

/-- The value the body stores, at entry (p, q) of the block: row `p` of the node block against column `q` of the
    weights (the changes of float format are the identity on extended reals, and so is the cast to the same shape). -/
theorem k3_pay1_apply (x0 : Vec Ideal S5000x32 .f32) (x1 : Vec Ideal S32x32 .f32) (p : Fin 5000) (q : Fin 32) :
    k3_pay1 x0 x1 (ix2 p q) = ∑ k : Fin 32, x0 (ix2 p k) * x1 (ix2 k q) := by
  unfold k3_pay1
  simp only [shapeCast_self]
  exact blockMatmul_apply _ _ p q

/-- What the body leaves in the output window's buffer, at an entry: its one store covers the buffer. -/
theorem out3_2_apply (x0 : Vec Ideal S5000x32 .f32) (x1 : Vec Ideal S32x32 .f32) (p : Fin 5000) (q : Fin 32) :
    out3_2 x0 x1 (ix2 p q) = ∑ k : Fin 32, x0 (ix2 p k) * x1 (ix2 k q) := by
  unfold out3_2
  rw [View.canon_unit_zero zeroOffsets]
  simp only [View.ld_unit_zero (S := S5000x32) zeroOffsets, View.ld_unit_zero (S := S32x32) zeroOffsets]
  exact k3_pay1_apply x0 x1 p q

/-- The index maps over the 20 points: at point `t` the node windows sit at row block `t`, the weights at block 0. -/
theorem index3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The node window's block at point `t` is rows `5000 t … 5000 t + 4999` of the node array. -/
theorem iblk3_0_apply (c : Dev nD) (t : Fin cfg3.N) (p : Fin 5000) (k : Fin 32) (i : S100000x32.Idx)
    (hi0 : (i 0).val = t.val * 5000 + p.val) (hi1 : (i 1).val = k.val) :
    (iblk3 V c 0 t : Vec Ideal S5000x32 .f32) (ix2 p k) = (V c main_v60 : S100000x32.Idx → EReal) i := by
  obtain ⟨e0, e1, -⟩ := index3 t
  unfold iblk3
  rw [View.read_apply]
  show (V c main_v60 : S100000x32.Idx → EReal) _ = _
  refine congrArg (V c main_v60 : S100000x32.Idx → EReal) (funext fun a => Fin.ext ?_)
  match a with
  | ⟨0, _⟩ => show win3_0.index t (0 : Fin 2) * 5000 + 1 * p.val = (i 0).val; omega
  | ⟨1, _⟩ => show win3_0.index t (1 : Fin 2) * 32 + 1 * k.val = (i 1).val; omega

/-- The weight window's block at every point is the whole weight matrix. -/
theorem iblk3_1_apply (c : Dev nD) (t : Fin cfg3.N) (k q : Fin 32) :
    (iblk3 V c 1 t : Vec Ideal S32x32 .f32) (ix2 k q) = (V c main_arg7 : S32x32.Idx → EReal) (ix2 k q) := by
  obtain ⟨-, -, e0, e1, -⟩ := index3 t
  unfold iblk3
  rw [View.read_apply]
  show (V c main_arg7 : S32x32.Idx → EReal) _ = _
  refine congrArg (V c main_arg7 : S32x32.Idx → EReal) (funext fun a => Fin.ext ?_)
  match a with
  | ⟨0, _⟩ => show win3_1.index t (0 : Fin 2) * 32 + 1 * k.val = k.val; omega
  | ⟨1, _⟩ => show win3_1.index t (1 : Fin 2) * 32 + 1 * q.val = q.val; omega

/-- What point `t` writes back is row block `t` of the whole product: entry (p, q) of the block is entry
    (5000 t + p, q) of the array, and both are the same sum over the contracted columns. -/
theorem flushed3 (c : Dev nD) (t : Fin cfg3.N) :
    (dat3 (F := Ideal) V c).flushed 2 t
      = ((cfg3.win 2).blk t).view.read (Elt Ideal) (Cert.Stages.mm (F := Ideal) (V c main_v60) (V c main_arg7)) := by
  show (cfg3.win 2).cut (grid3.coords t) ((dat3 V c).after 2 t) = _
  rw [after3_2]
  have hN : t.val < 20 := t.isLt.trans_eq N_3
  obtain ⟨-, -, -, -, e0, e1⟩ := index3 t
  funext j
  have hj0 : (j 0).val < 5000 := (j 0).isLt
  have hj1 : (j 1).val < 32 := (j 1).isLt
  rw [View.read_apply]
  have hemb : ((cfg3.win 2).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win3_2.index t (0 : Fin 2) * 5000 + 1 * (j 0).val = t.val * 5000 + (j 0).val; omega
    | ⟨1, _⟩ => show win3_2.index t (1 : Fin 2) * 32 + 1 * (j 1).val = (j 1).val; omega
  rw [hemb, mm_apply]
  have hx : (cfg3.win 2).xinj (grid3.coords t) j = (ix2 (⟨(j 0).val, hj0⟩ : Fin 5000) (⟨(j 1).val, hj1⟩ : Fin 32) : S5000x32.Idx) :=
    funext fun a => by match a with | ⟨0, _⟩ => rfl | ⟨1, _⟩ => rfl
  show out3_2 (iblk3 V c 0 t) (iblk3 V c 1 t) ((cfg3.win 2).xinj (grid3.coords t) j) = _
  rw [hx, out3_2_apply]
  refine Finset.sum_congr rfl fun k _ => ?_
  exact congrArg₂ (· * ·)
    (iblk3_0_apply V c t ⟨(j 0).val, hj0⟩ k (ix2 (⟨t.val * 5000 + (j 0).val, by omega⟩ : Fin 100000) k) rfl rfl)
    (iblk3_1_apply V c t k ⟨(j 1).val, hj1⟩)

/-- An index of the array is in point `t`'s block iff each coordinate is in the block's range on its axis. -/
theorem mem_blk3 (t : Fin cfg3.N) (i : S100000x32.Idx) :
    i ∈ ((cfg3.win 2).blk t).view.set ↔ ∀ a : Fin 2, win3_2.index t a * S5000x32.size a ≤ (i a).val ∧ (i a).val < win3_2.index t a * S5000x32.size a + S5000x32.size a := by
  show i ∈ ((View.whole main_v61).slice (win3_2.rect t)).set ↔ _
  rw [View.set_slice_whole, Rect.mem_set_unit]
  exact Iff.rfl

/-- The 20 row blocks fill the array: row `r` lies in the block of point `r / 5000`. -/
theorem cover3 (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  have hN : cfg3.N = 20 := N_3
  let t : Fin cfg3.N := ⟨(i 0).val / 5000, by rw [hN]; omega⟩
  obtain ⟨-, -, -, -, e0, e1⟩ := index3 t
  have ht : t.val = (i 0).val / 5000 := rfl
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 32 ≤ (i 1).val ∧ (i 1).val < win3_2.index t (1 : Fin 2) * 32 + 32; omega

/-- After region 3 its output array is the whole product of `main_v60` and `main_arg7` as the region found them. -/
theorem region3 (c : Dev nD) :
    (dat3 (F := Ideal) V c).arrAt 2 cfg3.N = Cert.Stages.mm (F := Ideal) (V c main_v60) (V c main_arg7) :=
  (dat3 (F := Ideal) V c).arrAt_eq_of_cover 2 (Cert.Stages.mm (F := Ideal) (V c main_v60) (V c main_arg7))
    (fun t _ => flushed3 V c t) cover3

/-! # Region 6: the node array `main_v91` times the weights `main_arg11`, row block by row block -/

/-- The value the body stores, at entry (p, q) of the block: row `p` of the node block against column `q` of the
    weights (the changes of float format are the identity on extended reals, and so is the cast to the same shape). -/
theorem k6_pay1_apply (x0 : Vec Ideal S5000x32 .f32) (x1 : Vec Ideal S32x32 .f32) (p : Fin 5000) (q : Fin 32) :
    k6_pay1 x0 x1 (ix2 p q) = ∑ k : Fin 32, x0 (ix2 p k) * x1 (ix2 k q) := by
  unfold k6_pay1
  simp only [shapeCast_self]
  exact blockMatmul_apply _ _ p q

/-- What the body leaves in the output window's buffer, at an entry: its one store covers the buffer. -/
theorem out6_2_apply (x0 : Vec Ideal S5000x32 .f32) (x1 : Vec Ideal S32x32 .f32) (p : Fin 5000) (q : Fin 32) :
    out6_2 x0 x1 (ix2 p q) = ∑ k : Fin 32, x0 (ix2 p k) * x1 (ix2 k q) := by
  unfold out6_2
  rw [View.canon_unit_zero zeroOffsets]
  simp only [View.ld_unit_zero (S := S5000x32) zeroOffsets, View.ld_unit_zero (S := S32x32) zeroOffsets]
  exact k6_pay1_apply x0 x1 p q

/-- The index maps over the 20 points: at point `t` the node windows sit at row block `t`, the weights at block 0. -/
theorem index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- The node window's block at point `t` is rows `5000 t … 5000 t + 4999` of the node array. -/
theorem iblk6_0_apply (c : Dev nD) (t : Fin cfg6.N) (p : Fin 5000) (k : Fin 32) (i : S100000x32.Idx)
    (hi0 : (i 0).val = t.val * 5000 + p.val) (hi1 : (i 1).val = k.val) :
    (iblk6 V c 0 t : Vec Ideal S5000x32 .f32) (ix2 p k) = (V c main_v91 : S100000x32.Idx → EReal) i := by
  obtain ⟨e0, e1, -⟩ := index6 t
  unfold iblk6
  rw [View.read_apply]
  show (V c main_v91 : S100000x32.Idx → EReal) _ = _
  refine congrArg (V c main_v91 : S100000x32.Idx → EReal) (funext fun a => Fin.ext ?_)
  match a with
  | ⟨0, _⟩ => show win6_0.index t (0 : Fin 2) * 5000 + 1 * p.val = (i 0).val; omega
  | ⟨1, _⟩ => show win6_0.index t (1 : Fin 2) * 32 + 1 * k.val = (i 1).val; omega

/-- The weight window's block at every point is the whole weight matrix. -/
theorem iblk6_1_apply (c : Dev nD) (t : Fin cfg6.N) (k q : Fin 32) :
    (iblk6 V c 1 t : Vec Ideal S32x32 .f32) (ix2 k q) = (V c main_arg11 : S32x32.Idx → EReal) (ix2 k q) := by
  obtain ⟨-, -, e0, e1, -⟩ := index6 t
  unfold iblk6
  rw [View.read_apply]
  show (V c main_arg11 : S32x32.Idx → EReal) _ = _
  refine congrArg (V c main_arg11 : S32x32.Idx → EReal) (funext fun a => Fin.ext ?_)
  match a with
  | ⟨0, _⟩ => show win6_1.index t (0 : Fin 2) * 32 + 1 * k.val = k.val; omega
  | ⟨1, _⟩ => show win6_1.index t (1 : Fin 2) * 32 + 1 * q.val = q.val; omega

/-- What point `t` writes back is row block `t` of the whole product: entry (p, q) of the block is entry
    (5000 t + p, q) of the array, and both are the same sum over the contracted columns. -/
theorem flushed6 (c : Dev nD) (t : Fin cfg6.N) :
    (dat6 (F := Ideal) V c).flushed 2 t
      = ((cfg6.win 2).blk t).view.read (Elt Ideal) (Cert.Stages.mm (F := Ideal) (V c main_v91) (V c main_arg11)) := by
  show (cfg6.win 2).cut (grid6.coords t) ((dat6 V c).after 2 t) = _
  rw [after6_2]
  have hN : t.val < 20 := t.isLt.trans_eq N_6
  obtain ⟨-, -, -, -, e0, e1⟩ := index6 t
  funext j
  have hj0 : (j 0).val < 5000 := (j 0).isLt
  have hj1 : (j 1).val < 32 := (j 1).isLt
  rw [View.read_apply]
  have hemb : ((cfg6.win 2).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win6_2.index t (0 : Fin 2) * 5000 + 1 * (j 0).val = t.val * 5000 + (j 0).val; omega
    | ⟨1, _⟩ => show win6_2.index t (1 : Fin 2) * 32 + 1 * (j 1).val = (j 1).val; omega
  rw [hemb, mm_apply]
  have hx : (cfg6.win 2).xinj (grid6.coords t) j = (ix2 (⟨(j 0).val, hj0⟩ : Fin 5000) (⟨(j 1).val, hj1⟩ : Fin 32) : S5000x32.Idx) :=
    funext fun a => by match a with | ⟨0, _⟩ => rfl | ⟨1, _⟩ => rfl
  show out6_2 (iblk6 V c 0 t) (iblk6 V c 1 t) ((cfg6.win 2).xinj (grid6.coords t) j) = _
  rw [hx, out6_2_apply]
  refine Finset.sum_congr rfl fun k _ => ?_
  exact congrArg₂ (· * ·)
    (iblk6_0_apply V c t ⟨(j 0).val, hj0⟩ k (ix2 (⟨t.val * 5000 + (j 0).val, by omega⟩ : Fin 100000) k) rfl rfl)
    (iblk6_1_apply V c t k ⟨(j 1).val, hj1⟩)

/-- An index of the array is in point `t`'s block iff each coordinate is in the block's range on its axis. -/
theorem mem_blk6 (t : Fin cfg6.N) (i : S100000x32.Idx) :
    i ∈ ((cfg6.win 2).blk t).view.set ↔ ∀ a : Fin 2, win6_2.index t a * S5000x32.size a ≤ (i a).val ∧ (i a).val < win6_2.index t a * S5000x32.size a + S5000x32.size a := by
  show i ∈ ((View.whole main_v92).slice (win6_2.rect t)).set ↔ _
  rw [View.set_slice_whole, Rect.mem_set_unit]
  exact Iff.rfl

/-- The 20 row blocks fill the array: row `r` lies in the block of point `r / 5000`. -/
theorem cover6 (i : S100000x32.Idx) : ∃ t : Fin cfg6.N, (cfg6.win 2).flush t = true ∧ i ∈ ((cfg6.win 2).blk t).view.set := by
  have hi0 : (i 0).val < 100000 := (i 0).isLt
  have hi1 : (i 1).val < 32 := (i 1).isLt
  have hN : cfg6.N = 20 := N_6
  let t : Fin cfg6.N := ⟨(i 0).val / 5000, by rw [hN]; omega⟩
  obtain ⟨-, -, -, -, e0, e1⟩ := index6 t
  have ht : t.val = (i 0).val / 5000 := rfl
  refine ⟨t, flush6_2 t, ?_⟩
  rw [mem_blk6]
  intro a
  match a with
  | ⟨0, _⟩ => show win6_2.index t (0 : Fin 2) * 5000 ≤ (i 0).val ∧ (i 0).val < win6_2.index t (0 : Fin 2) * 5000 + 5000; omega
  | ⟨1, _⟩ => show win6_2.index t (1 : Fin 2) * 32 ≤ (i 1).val ∧ (i 1).val < win6_2.index t (1 : Fin 2) * 32 + 32; omega

/-- After region 6 its output array is the whole product of `main_v91` and `main_arg11` as the region found them. -/
theorem region6 (c : Dev nD) :
    (dat6 (F := Ideal) V c).arrAt 2 cfg6.N = Cert.Stages.mm (F := Ideal) (V c main_v91) (V c main_arg11) :=
  (dat6 (F := Ideal) V c).arrAt_eq_of_cover 2 (Cert.Stages.mm (F := Ideal) (V c main_v91) (V c main_arg11))
    (fun t _ => flushed6 V c t) cover6

end Cert.KernelIdeal.RegionVal

end
-- ==== Proof.RegionBRM.lean ====
/-
  Regions 1, 4 and 7: `relu (a + b) · W` for a node array a [100000, 32], a bias row b [1, 32] and a weight matrix
  W [32, 32], computed in 20 row blocks of 5000 nodes. At grid point t the body reads rows 5000 t … 5000 t + 4999
  of a, the whole bias row and the whole weight matrix, adds the bias row to every row of the block, takes the maximum
  with zero, multiplies by W and stores the product, which is written back as rows 5000 t … 5000 t + 4999 of the
  output array. Entry (p, q) of that block is  Σ_k max (a (5000 t + p, k) + b (0, k), 0) · W (k, q),  which is entry
  (5000 t + p, q) of the whole product; the 20 blocks fill the array (row r lies in block r / 5000), so after the
  region the output array IS `relu (a + b) · W` of the arrays the region found.
-/
import proofs.«157759_j39539468927577_1_alg».proof.Proof.Gen.KernelIdeal.Frame
import proofs.«157759_j39539468927577_1_alg».proof.Proof.Gen.ReferenceIdeal
import proofs.«157759_j39539468927577_1_alg».proof.Proof.Stages
import proofs.«157759_j39539468927577_1_alg».proof.Proof.MatmulAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)
open scoped BigOperators

variable (V : (c : Dev nD) → (b : Ref sig .tc) → Buf (Elt Ideal) ((c : Thread nD τ).loc b))

/-! # Region 1: `relu (main_v43 + main_v44)` times the weights `main_arg5`, row block by row block -/

/-- The value the body stores, at entry (p, q) of the block: the bias row is repeated over the block's rows (it is read
    at the column), the zero of the maximum is the f32 zero word's value, the changes of float format and the casts to
    the same shape are the identity. -/
theorem k1_pay1_apply (x0 : Vec Ideal S5000x32 .f32) (x1 : Vec Ideal S1x32 .f32) (x2 : Vec Ideal S32x32 .f32) (p : Fin 5000) (q : Fin 32) :
    k1_pay1 x0 x1 x2 (ix2 p q)
      = ∑ k : Fin 32, max (x0 (ix2 p k) + x1 (ix2 (0 : Fin 1) k)) (Ideal.ofBits .f32 0x00000000#32) * x2 (ix2 k q) := by
  unfold k1_pay1
  simp only [shapeCast_self]
  refine (blockMatmul_apply _ _ p q).trans (Finset.sum_congr rfl fun k _ => ?_)
  rw [truncf_apply, truncf_apply, maximumf_apply, addf_apply, broadcastTo_1b_ab_apply]
  rfl

/-- What the body leaves in the output window's buffer, at an entry: its one store covers the buffer. -/
theorem out1_3_apply (x0 : Vec Ideal S5000x32 .f32) (x1 : Vec Ideal S1x32 .f32) (x2 : Vec Ideal S32x32 .f32) (p : Fin 5000) (q : Fin 32) :
    out1_3 x0 x1 x2 (ix2 p q)
      = ∑ k : Fin 32, max (x0 (ix2 p k) + x1 (ix2 (0 : Fin 1) k)) (Ideal.ofBits .f32 0x00000000#32) * x2 (ix2 k q) := by
  unfold out1_3
  rw [View.canon_unit_zero zeroOffsets]
  simp only [View.ld_unit_zero (S := S5000x32) zeroOffsets, View.ld_unit_zero (S := S1x32) zeroOffsets, View.ld_unit_zero (S := S32x32) zeroOffsets]
  exact k1_pay1_apply x0 x1 x2 p q

/-- The index maps over the 20 points: at point `t` the node windows sit at row block `t`, the bias row and the
    weights at block 0. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The node window's block at point `t` is rows `5000 t … 5000 t + 4999` of the node array. -/
theorem iblk1_0_apply (c : Dev nD) (t : Fin cfg1.N) (p : Fin 5000) (k : Fin 32) (i : S100000x32.Idx)
    (hi0 : (i 0).val = t.val * 5000 + p.val) (hi1 : (i 1).val = k.val) :
    (iblk1 V c 0 t : Vec Ideal S5000x32 .f32) (ix2 p k) = (V c main_v43 : S100000x32.Idx → EReal) i := by
  obtain ⟨e0, e1, -⟩ := index1 t
  unfold iblk1
  rw [View.read_apply]
  show (V c main_v43 : S100000x32.Idx → EReal) _ = _
  refine congrArg (V c main_v43 : S100000x32.Idx → EReal) (funext fun a => Fin.ext ?_)
  match a with
  | ⟨0, _⟩ => show win1_0.index t (0 : Fin 2) * 5000 + 1 * p.val = (i 0).val; omega
  | ⟨1, _⟩ => show win1_0.index t (1 : Fin 2) * 32 + 1 * k.val = (i 1).val; omega

/-- The bias window's block at every point is the whole bias row. -/
theorem iblk1_1_apply (c : Dev nD) (t : Fin cfg1.N) (k : Fin 32) :
    (iblk1 V c 1 t : Vec Ideal S1x32 .f32) (ix2 (0 : Fin 1) k) = (V c main_v44 : S1x32.Idx → EReal) (ix2 (0 : Fin 1) k) := by
  obtain ⟨-, -, e0, e1, -⟩ := index1 t
  unfold iblk1
  rw [View.read_apply]
  show (V c main_v44 : S1x32.Idx → EReal) _ = _
  refine congrArg (V c main_v44 : S1x32.Idx → EReal) (funext fun a => Fin.ext ?_)
  match a with
  | ⟨0, _⟩ => show win1_1.index t (0 : Fin 2) * 1 + 1 * 0 = 0; omega
  | ⟨1, _⟩ => show win1_1.index t (1 : Fin 2) * 32 + 1 * k.val = k.val; omega

/-- The weight window's block at every point is the whole weight matrix. -/
theorem iblk1_2_apply (c : Dev nD) (t : Fin cfg1.N) (k q : Fin 32) :
    (iblk1 V c 2 t : Vec Ideal S32x32 .f32) (ix2 k q) = (V c main_arg5 : S32x32.Idx → EReal) (ix2 k q) := by
  obtain ⟨-, -, -, -, e0, e1, -⟩ := index1 t
  unfold iblk1
  rw [View.read_apply]
  show (V c main_arg5 : S32x32.Idx → EReal) _ = _
  refine congrArg (V c main_arg5 : S32x32.Idx → EReal) (funext fun a => Fin.ext ?_)
  match a with
  | ⟨0, _⟩ => show win1_2.index t (0 : Fin 2) * 32 + 1 * k.val = k.val; omega
  | ⟨1, _⟩ => show win1_2.index t (1 : Fin 2) * 32 + 1 * q.val = q.val; omega

/-- What point `t` writes back is row block `t` of the whole product `relu (a + b) · W`: entry (p, q) of the block is
    entry (5000 t + p, q) of the array, and both are the same sum over the contracted columns of the same terms. -/
theorem flushed1 (c : Dev nD) (t : Fin cfg1.N) :
    (dat1 (F := Ideal) V c).flushed 3 t
      = ((cfg1.win 3).blk t).view.read (Elt Ideal)
          (Cert.Stages.mm (F := Ideal) (Cert.Stages.biasRelu (V c main_v43) (V c main_v44)) (V c main_arg5)) := by
  show (cfg1.win 3).cut (grid1.coords t) ((dat1 V c).after 3 t) = _
  rw [after1_3]
  have hN : t.val < 20 := t.isLt.trans_eq N_1
  obtain ⟨-, -, -, -, -, -, e0, e1⟩ := index1 t
  funext j
  have hj0 : (j 0).val < 5000 := (j 0).isLt
  have hj1 : (j 1).val < 32 := (j 1).isLt
  rw [View.read_apply]
  have hemb : ((cfg1.win 3).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win1_3.index t (0 : Fin 2) * 5000 + 1 * (j 0).val = t.val * 5000 + (j 0).val; omega
    | ⟨1, _⟩ => show win1_3.index t (1 : Fin 2) * 32 + 1 * (j 1).val = (j 1).val; omega
  rw [hemb, mm_apply]
  have hx : (cfg1.win 3).xinj (grid1.coords t) j = (ix2 (⟨(j 0).val, hj0⟩ : Fin 5000) (⟨(j 1).val, hj1⟩ : Fin 32) : S5000x32.Idx) :=
    funext fun a => by match a with | ⟨0, _⟩ => rfl | ⟨1, _⟩ => rfl
  show out1_3 (iblk1 V c 0 t) (iblk1 V c 1 t) (iblk1 V c 2 t) ((cfg1.win 3).xinj (grid1.coords t) j) = _
  rw [hx, out1_3_apply]
  refine Finset.sum_congr rfl fun k _ => ?_
  rw [biasRelu_apply]
  exact congrArg₂ (· * ·)
    (congrArg₂ (fun u v : EReal => max (u + v) (Ideal.ofBits .f32 0x00000000#32))
      (iblk1_0_apply V c t ⟨(j 0).val, hj0⟩ k (ix2 (⟨t.val * 5000 + (j 0).val, by omega⟩ : Fin 100000) k) rfl rfl)
      (iblk1_1_apply V c t k))
    (iblk1_2_apply V c t k ⟨(j 1).val, hj1⟩)

/-- An index of the array is in point `t`'s block iff each coordinate is in the block's range on its axis. -/
theorem mem_blk1 (t : Fin cfg1.N) (i : S100000x32.Idx) :
    i ∈ ((cfg1.win 3).blk t).view.set ↔ ∀ a : Fin 2, win1_3.index t a * S5000x32.size a ≤ (i a).val ∧ (i a).val < win1_3.index t a * S5000x32.size a + S5000x32.size a := by
  show i ∈ ((View.whole main_v45).slice (win1_3.rect t)).set ↔ _
  rw [View.set_slice_whole, Rect.mem_set_unit]
  exact Iff.rfl

/-- The 20 row blocks fill the array: row `r` lies in the block of point `r / 5000`. -/
theorem cover1 (i : S100000x32.Idx) : ∃ t : Fin cfg1.N, (cfg1.win 3).flush t = true ∧ i ∈ ((cfg1.win 3).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨-, -, -, -, -, -, e0, e1⟩ := index1 t
  have ht : t.val = (i 0).val / 5000 := rfl
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 32 ≤ (i 1).val ∧ (i 1).val < win1_3.index t (1 : Fin 2) * 32 + 32; omega

/-- After region 1 its output array is the whole product of `relu (main_v43 + main_v44)` and `main_arg5` as the region found them. -/
theorem region1 (c : Dev nD) :
    (dat1 (F := Ideal) V c).arrAt 3 cfg1.N
      = Cert.Stages.mm (F := Ideal) (Cert.Stages.biasRelu (V c main_v43) (V c main_v44)) (V c main_arg5) :=
  (dat1 (F := Ideal) V c).arrAt_eq_of_cover 3
    (Cert.Stages.mm (F := Ideal) (Cert.Stages.biasRelu (V c main_v43) (V c main_v44)) (V c main_arg5))
    (fun t _ => flushed1 V c t) cover1

/-! # Region 4: `relu (main_v74 + main_v75)` times the weights `main_arg9`, row block by row block -/

/-- The value the body stores, at entry (p, q) of the block: the bias row is repeated over the block's rows (it is read
    at the column), the zero of the maximum is the f32 zero word's value, the changes of float format and the casts to
    the same shape are the identity. -/
theorem k4_pay1_apply (x0 : Vec Ideal S5000x32 .f32) (x1 : Vec Ideal S1x32 .f32) (x2 : Vec Ideal S32x32 .f32) (p : Fin 5000) (q : Fin 32) :
    k4_pay1 x0 x1 x2 (ix2 p q)
      = ∑ k : Fin 32, max (x0 (ix2 p k) + x1 (ix2 (0 : Fin 1) k)) (Ideal.ofBits .f32 0x00000000#32) * x2 (ix2 k q) := by
  unfold k4_pay1
  simp only [shapeCast_self]
  refine (blockMatmul_apply _ _ p q).trans (Finset.sum_congr rfl fun k _ => ?_)
  rw [truncf_apply, truncf_apply, maximumf_apply, addf_apply, broadcastTo_1b_ab_apply]
  rfl

/-- What the body leaves in the output window's buffer, at an entry: its one store covers the buffer. -/
theorem out4_3_apply (x0 : Vec Ideal S5000x32 .f32) (x1 : Vec Ideal S1x32 .f32) (x2 : Vec Ideal S32x32 .f32) (p : Fin 5000) (q : Fin 32) :
    out4_3 x0 x1 x2 (ix2 p q)
      = ∑ k : Fin 32, max (x0 (ix2 p k) + x1 (ix2 (0 : Fin 1) k)) (Ideal.ofBits .f32 0x00000000#32) * x2 (ix2 k q) := by
  unfold out4_3
  rw [View.canon_unit_zero zeroOffsets]
  simp only [View.ld_unit_zero (S := S5000x32) zeroOffsets, View.ld_unit_zero (S := S1x32) zeroOffsets, View.ld_unit_zero (S := S32x32) zeroOffsets]
  exact k4_pay1_apply x0 x1 x2 p q

/-- The index maps over the 20 points: at point `t` the node windows sit at row block `t`, the bias row and the
    weights at block 0. -/
theorem index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The node window's block at point `t` is rows `5000 t … 5000 t + 4999` of the node array. -/
theorem iblk4_0_apply (c : Dev nD) (t : Fin cfg4.N) (p : Fin 5000) (k : Fin 32) (i : S100000x32.Idx)
    (hi0 : (i 0).val = t.val * 5000 + p.val) (hi1 : (i 1).val = k.val) :
    (iblk4 V c 0 t : Vec Ideal S5000x32 .f32) (ix2 p k) = (V c main_v74 : S100000x32.Idx → EReal) i := by
  obtain ⟨e0, e1, -⟩ := index4 t
  unfold iblk4
  rw [View.read_apply]
  show (V c main_v74 : S100000x32.Idx → EReal) _ = _
  refine congrArg (V c main_v74 : S100000x32.Idx → EReal) (funext fun a => Fin.ext ?_)
  match a with
  | ⟨0, _⟩ => show win4_0.index t (0 : Fin 2) * 5000 + 1 * p.val = (i 0).val; omega
  | ⟨1, _⟩ => show win4_0.index t (1 : Fin 2) * 32 + 1 * k.val = (i 1).val; omega

/-- The bias window's block at every point is the whole bias row. -/
theorem iblk4_1_apply (c : Dev nD) (t : Fin cfg4.N) (k : Fin 32) :
    (iblk4 V c 1 t : Vec Ideal S1x32 .f32) (ix2 (0 : Fin 1) k) = (V c main_v75 : S1x32.Idx → EReal) (ix2 (0 : Fin 1) k) := by
  obtain ⟨-, -, e0, e1, -⟩ := index4 t
  unfold iblk4
  rw [View.read_apply]
  show (V c main_v75 : S1x32.Idx → EReal) _ = _
  refine congrArg (V c main_v75 : S1x32.Idx → EReal) (funext fun a => Fin.ext ?_)
  match a with
  | ⟨0, _⟩ => show win4_1.index t (0 : Fin 2) * 1 + 1 * 0 = 0; omega
  | ⟨1, _⟩ => show win4_1.index t (1 : Fin 2) * 32 + 1 * k.val = k.val; omega

/-- The weight window's block at every point is the whole weight matrix. -/
theorem iblk4_2_apply (c : Dev nD) (t : Fin cfg4.N) (k q : Fin 32) :
    (iblk4 V c 2 t : Vec Ideal S32x32 .f32) (ix2 k q) = (V c main_arg9 : S32x32.Idx → EReal) (ix2 k q) := by
  obtain ⟨-, -, -, -, e0, e1, -⟩ := index4 t
  unfold iblk4
  rw [View.read_apply]
  show (V c main_arg9 : S32x32.Idx → EReal) _ = _
  refine congrArg (V c main_arg9 : S32x32.Idx → EReal) (funext fun a => Fin.ext ?_)
  match a with
  | ⟨0, _⟩ => show win4_2.index t (0 : Fin 2) * 32 + 1 * k.val = k.val; omega
  | ⟨1, _⟩ => show win4_2.index t (1 : Fin 2) * 32 + 1 * q.val = q.val; omega

/-- What point `t` writes back is row block `t` of the whole product `relu (a + b) · W`: entry (p, q) of the block is
    entry (5000 t + p, q) of the array, and both are the same sum over the contracted columns of the same terms. -/
theorem flushed4 (c : Dev nD) (t : Fin cfg4.N) :
    (dat4 (F := Ideal) V c).flushed 3 t
      = ((cfg4.win 3).blk t).view.read (Elt Ideal)
          (Cert.Stages.mm (F := Ideal) (Cert.Stages.biasRelu (V c main_v74) (V c main_v75)) (V c main_arg9)) := by
  show (cfg4.win 3).cut (grid4.coords t) ((dat4 V c).after 3 t) = _
  rw [after4_3]
  have hN : t.val < 20 := t.isLt.trans_eq N_4
  obtain ⟨-, -, -, -, -, -, e0, e1⟩ := index4 t
  funext j
  have hj0 : (j 0).val < 5000 := (j 0).isLt
  have hj1 : (j 1).val < 32 := (j 1).isLt
  rw [View.read_apply]
  have hemb : ((cfg4.win 3).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win4_3.index t (0 : Fin 2) * 5000 + 1 * (j 0).val = t.val * 5000 + (j 0).val; omega
    | ⟨1, _⟩ => show win4_3.index t (1 : Fin 2) * 32 + 1 * (j 1).val = (j 1).val; omega
  rw [hemb, mm_apply]
  have hx : (cfg4.win 3).xinj (grid4.coords t) j = (ix2 (⟨(j 0).val, hj0⟩ : Fin 5000) (⟨(j 1).val, hj1⟩ : Fin 32) : S5000x32.Idx) :=
    funext fun a => by match a with | ⟨0, _⟩ => rfl | ⟨1, _⟩ => rfl
  show out4_3 (iblk4 V c 0 t) (iblk4 V c 1 t) (iblk4 V c 2 t) ((cfg4.win 3).xinj (grid4.coords t) j) = _
  rw [hx, out4_3_apply]
  refine Finset.sum_congr rfl fun k _ => ?_
  rw [biasRelu_apply]
  exact congrArg₂ (· * ·)
    (congrArg₂ (fun u v : EReal => max (u + v) (Ideal.ofBits .f32 0x00000000#32))
      (iblk4_0_apply V c t ⟨(j 0).val, hj0⟩ k (ix2 (⟨t.val * 5000 + (j 0).val, by omega⟩ : Fin 100000) k) rfl rfl)
      (iblk4_1_apply V c t k))
    (iblk4_2_apply V c t k ⟨(j 1).val, hj1⟩)

/-- An index of the array is in point `t`'s block iff each coordinate is in the block's range on its axis. -/
theorem mem_blk4 (t : Fin cfg4.N) (i : S100000x32.Idx) :
    i ∈ ((cfg4.win 3).blk t).view.set ↔ ∀ a : Fin 2, win4_3.index t a * S5000x32.size a ≤ (i a).val ∧ (i a).val < win4_3.index t a * S5000x32.size a + S5000x32.size a := by
  show i ∈ ((View.whole main_v76).slice (win4_3.rect t)).set ↔ _
  rw [View.set_slice_whole, Rect.mem_set_unit]
  exact Iff.rfl

/-- The 20 row blocks fill the array: row `r` lies in the block of point `r / 5000`. -/
theorem cover4 (i : S100000x32.Idx) : ∃ t : Fin cfg4.N, (cfg4.win 3).flush t = true ∧ i ∈ ((cfg4.win 3).blk t).view.set := by
  have hi0 : (i 0).val < 100000 := (i 0).isLt
  have hi1 : (i 1).val < 32 := (i 1).isLt
  have hN : cfg4.N = 20 := N_4
  let t : Fin cfg4.N := ⟨(i 0).val / 5000, by rw [hN]; omega⟩
  obtain ⟨-, -, -, -, -, -, e0, e1⟩ := index4 t
  have ht : t.val = (i 0).val / 5000 := rfl
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 32 ≤ (i 1).val ∧ (i 1).val < win4_3.index t (1 : Fin 2) * 32 + 32; omega

/-- After region 4 its output array is the whole product of `relu (main_v74 + main_v75)` and `main_arg9` as the region found them. -/
theorem region4 (c : Dev nD) :
    (dat4 (F := Ideal) V c).arrAt 3 cfg4.N
      = Cert.Stages.mm (F := Ideal) (Cert.Stages.biasRelu (V c main_v74) (V c main_v75)) (V c main_arg9) :=
  (dat4 (F := Ideal) V c).arrAt_eq_of_cover 3
    (Cert.Stages.mm (F := Ideal) (Cert.Stages.biasRelu (V c main_v74) (V c main_v75)) (V c main_arg9))
    (fun t _ => flushed4 V c t) cover4

/-! # Region 7: `relu (main_v105 + main_v106)` times the weights `main_arg13`, row block by row block -/

/-- The value the body stores, at entry (p, q) of the block: the bias row is repeated over the block's rows (it is read
    at the column), the zero of the maximum is the f32 zero word's value, the changes of float format and the casts to
    the same shape are the identity. -/
theorem k7_pay1_apply (x0 : Vec Ideal S5000x32 .f32) (x1 : Vec Ideal S1x32 .f32) (x2 : Vec Ideal S32x32 .f32) (p : Fin 5000) (q : Fin 32) :
    k7_pay1 x0 x1 x2 (ix2 p q)
      = ∑ k : Fin 32, max (x0 (ix2 p k) + x1 (ix2 (0 : Fin 1) k)) (Ideal.ofBits .f32 0x00000000#32) * x2 (ix2 k q) := by
  unfold k7_pay1
  simp only [shapeCast_self]
  refine (blockMatmul_apply _ _ p q).trans (Finset.sum_congr rfl fun k _ => ?_)
  rw [truncf_apply, truncf_apply, maximumf_apply, addf_apply, broadcastTo_1b_ab_apply]
  rfl

/-- What the body leaves in the output window's buffer, at an entry: its one store covers the buffer. -/
theorem out7_3_apply (x0 : Vec Ideal S5000x32 .f32) (x1 : Vec Ideal S1x32 .f32) (x2 : Vec Ideal S32x32 .f32) (p : Fin 5000) (q : Fin 32) :
    out7_3 x0 x1 x2 (ix2 p q)
      = ∑ k : Fin 32, max (x0 (ix2 p k) + x1 (ix2 (0 : Fin 1) k)) (Ideal.ofBits .f32 0x00000000#32) * x2 (ix2 k q) := by
  unfold out7_3
  rw [View.canon_unit_zero zeroOffsets]
  simp only [View.ld_unit_zero (S := S5000x32) zeroOffsets, View.ld_unit_zero (S := S1x32) zeroOffsets, View.ld_unit_zero (S := S32x32) zeroOffsets]
  exact k7_pay1_apply x0 x1 x2 p q

/-- The index maps over the 20 points: at point `t` the node windows sit at row block `t`, the bias row and the
    weights at block 0. -/
theorem index7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The node window's block at point `t` is rows `5000 t … 5000 t + 4999` of the node array. -/
theorem iblk7_0_apply (c : Dev nD) (t : Fin cfg7.N) (p : Fin 5000) (k : Fin 32) (i : S100000x32.Idx)
    (hi0 : (i 0).val = t.val * 5000 + p.val) (hi1 : (i 1).val = k.val) :
    (iblk7 V c 0 t : Vec Ideal S5000x32 .f32) (ix2 p k) = (V c main_v105 : S100000x32.Idx → EReal) i := by
  obtain ⟨e0, e1, -⟩ := index7 t
  unfold iblk7
  rw [View.read_apply]
  show (V c main_v105 : S100000x32.Idx → EReal) _ = _
  refine congrArg (V c main_v105 : S100000x32.Idx → EReal) (funext fun a => Fin.ext ?_)
  match a with
  | ⟨0, _⟩ => show win7_0.index t (0 : Fin 2) * 5000 + 1 * p.val = (i 0).val; omega
  | ⟨1, _⟩ => show win7_0.index t (1 : Fin 2) * 32 + 1 * k.val = (i 1).val; omega

/-- The bias window's block at every point is the whole bias row. -/
theorem iblk7_1_apply (c : Dev nD) (t : Fin cfg7.N) (k : Fin 32) :
    (iblk7 V c 1 t : Vec Ideal S1x32 .f32) (ix2 (0 : Fin 1) k) = (V c main_v106 : S1x32.Idx → EReal) (ix2 (0 : Fin 1) k) := by
  obtain ⟨-, -, e0, e1, -⟩ := index7 t
  unfold iblk7
  rw [View.read_apply]
  show (V c main_v106 : S1x32.Idx → EReal) _ = _
  refine congrArg (V c main_v106 : S1x32.Idx → EReal) (funext fun a => Fin.ext ?_)
  match a with
  | ⟨0, _⟩ => show win7_1.index t (0 : Fin 2) * 1 + 1 * 0 = 0; omega
  | ⟨1, _⟩ => show win7_1.index t (1 : Fin 2) * 32 + 1 * k.val = k.val; omega

/-- The weight window's block at every point is the whole weight matrix. -/
theorem iblk7_2_apply (c : Dev nD) (t : Fin cfg7.N) (k q : Fin 32) :
    (iblk7 V c 2 t : Vec Ideal S32x32 .f32) (ix2 k q) = (V c main_arg13 : S32x32.Idx → EReal) (ix2 k q) := by
  obtain ⟨-, -, -, -, e0, e1, -⟩ := index7 t
  unfold iblk7
  rw [View.read_apply]
  show (V c main_arg13 : S32x32.Idx → EReal) _ = _
  refine congrArg (V c main_arg13 : S32x32.Idx → EReal) (funext fun a => Fin.ext ?_)
  match a with
  | ⟨0, _⟩ => show win7_2.index t (0 : Fin 2) * 32 + 1 * k.val = k.val; omega
  | ⟨1, _⟩ => show win7_2.index t (1 : Fin 2) * 32 + 1 * q.val = q.val; omega

/-- What point `t` writes back is row block `t` of the whole product `relu (a + b) · W`: entry (p, q) of the block is
    entry (5000 t + p, q) of the array, and both are the same sum over the contracted columns of the same terms. -/
theorem flushed7 (c : Dev nD) (t : Fin cfg7.N) :
    (dat7 (F := Ideal) V c).flushed 3 t
      = ((cfg7.win 3).blk t).view.read (Elt Ideal)
          (Cert.Stages.mm (F := Ideal) (Cert.Stages.biasRelu (V c main_v105) (V c main_v106)) (V c main_arg13)) := by
  show (cfg7.win 3).cut (grid7.coords t) ((dat7 V c).after 3 t) = _
  rw [after7_3]
  have hN : t.val < 20 := t.isLt.trans_eq N_7
  obtain ⟨-, -, -, -, -, -, e0, e1⟩ := index7 t
  funext j
  have hj0 : (j 0).val < 5000 := (j 0).isLt
  have hj1 : (j 1).val < 32 := (j 1).isLt
  rw [View.read_apply]
  have hemb : ((cfg7.win 3).blk t).view.emb j = (ix2 (⟨t.val * 5000 + (j 0).val, by omega⟩ : Fin 100000) (⟨(j 1).val, hj1⟩ : Fin 32) : S100000x32.Idx) := by
    funext a; apply Fin.ext
    match a with
    | ⟨0, _⟩ => show win7_3.index t (0 : Fin 2) * 5000 + 1 * (j 0).val = t.val * 5000 + (j 0).val; omega
    | ⟨1, _⟩ => show win7_3.index t (1 : Fin 2) * 32 + 1 * (j 1).val = (j 1).val; omega
  rw [hemb, mm_apply]
  have hx : (cfg7.win 3).xinj (grid7.coords t) j = (ix2 (⟨(j 0).val, hj0⟩ : Fin 5000) (⟨(j 1).val, hj1⟩ : Fin 32) : S5000x32.Idx) :=
    funext fun a => by match a with | ⟨0, _⟩ => rfl | ⟨1, _⟩ => rfl
  show out7_3 (iblk7 V c 0 t) (iblk7 V c 1 t) (iblk7 V c 2 t) ((cfg7.win 3).xinj (grid7.coords t) j) = _
  rw [hx, out7_3_apply]
  refine Finset.sum_congr rfl fun k _ => ?_
  rw [biasRelu_apply]
  exact congrArg₂ (· * ·)
    (congrArg₂ (fun u v : EReal => max (u + v) (Ideal.ofBits .f32 0x00000000#32))
      (iblk7_0_apply V c t ⟨(j 0).val, hj0⟩ k (ix2 (⟨t.val * 5000 + (j 0).val, by omega⟩ : Fin 100000) k) rfl rfl)
      (iblk7_1_apply V c t k))
    (iblk7_2_apply V c t k ⟨(j 1).val, hj1⟩)

/-- An index of the array is in point `t`'s block iff each coordinate is in the block's range on its axis. -/
theorem mem_blk7 (t : Fin cfg7.N) (i : S100000x32.Idx) :
    i ∈ ((cfg7.win 3).blk t).view.set ↔ ∀ a : Fin 2, win7_3.index t a * S5000x32.size a ≤ (i a).val ∧ (i a).val < win7_3.index t a * S5000x32.size a + S5000x32.size a := by
  show i ∈ ((View.whole main_v107).slice (win7_3.rect t)).set ↔ _
  rw [View.set_slice_whole, Rect.mem_set_unit]
  exact Iff.rfl

/-- The 20 row blocks fill the array: row `r` lies in the block of point `r / 5000`. -/
theorem cover7 (i : S100000x32.Idx) : ∃ t : Fin cfg7.N, (cfg7.win 3).flush t = true ∧ i ∈ ((cfg7.win 3).blk t).view.set := by
  have hi0 : (i 0).val < 100000 := (i 0).isLt
  have hi1 : (i 1).val < 32 := (i 1).isLt
  have hN : cfg7.N = 20 := N_7
  let t : Fin cfg7.N := ⟨(i 0).val / 5000, by rw [hN]; omega⟩
  obtain ⟨-, -, -, -, -, -, e0, e1⟩ := index7 t
  have ht : t.val = (i 0).val / 5000 := rfl
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 32 ≤ (i 1).val ∧ (i 1).val < win7_3.index t (1 : Fin 2) * 32 + 32; omega

/-- After region 7 its output array is the whole product of `relu (main_v105 + main_v106)` and `main_arg13` as the region found them. -/
theorem region7 (c : Dev nD) :
    (dat7 (F := Ideal) V c).arrAt 3 cfg7.N
      = Cert.Stages.mm (F := Ideal) (Cert.Stages.biasRelu (V c main_v105) (V c main_v106)) (V c main_arg13) :=
  (dat7 (F := Ideal) V c).arrAt_eq_of_cover 3
    (Cert.Stages.mm (F := Ideal) (Cert.Stages.biasRelu (V c main_v105) (V c main_v106)) (V c main_arg13))
    (fun t _ => flushed7 V c t) cover7

end Cert.KernelIdeal.RegionVal

end
-- ==== Proof.StagesAt.lean ====
/-
  Two of the per-node stages read at an index. At the extended reals

      biasResRelu a b res (p, q) = max (a (p, q) + b (0, q) + res (p, q)) 0

  (the reference's second relu changes nothing: max (max z 0) 0 = max z 0, an order fact that needs no finiteness),
  and the head is, at graph `p` and output feature `q`,

      poolLinear sums cnts w b (p, q) = (∑ k < 32, (sums (p, k) / max (cnts (p, 0)) 1) · w (k, q)) + b (0, q),

  the host's product with one contracted axis being the plain sum over that axis. The right-hand sides are the
  functions `biasResReluAt` and `poolLinearAt`, stated over literal shapes so that either program's arrays fit.
-/
import proofs.«157759_j39539468927577_1_alg».proof.Proof.Stages
import proofs.«157759_j39539468927577_1_alg».proof.Proof.Gen.ReferenceIdeal
import Idealize.ShloMosaic.Lib.Pipeline.Value
import Idealize.ShloMosaic.Lib.ValueIdx
import Idealize.ShloMosaic.PureOps.Ideal.Laws

noncomputable section

namespace Cert.StagesAt

open Idealize.ShloMosaic Idealize.ShloMosaic.ValueIdx Cert.ReferenceIdeal
open Cert.ReferenceIdeal.Facts₀ Cert.ReferenceIdeal.Facts

/-- relu (a + b + res): node `p`, feature `q` reads the aggregate and the residual at (p, q), the bias row at q. -/
def biasResReluAt (a : (⟨2, ![100000, 32]⟩ : Shape).Idx → EReal) (b : (⟨2, ![1, 32]⟩ : Shape).Idx → EReal)
    (r : (⟨2, ![100000, 32]⟩ : Shape).Idx → EReal) : (⟨2, ![100000, 32]⟩ : Shape).Idx → EReal :=
  fun i => max (a i + b (ix2 (0 : Fin 1) (⟨(i 1).val, idx2_lt1 i⟩ : Fin 32)) + r i) 0

/-- The head: the mean row `sums (p, ·) / max (cnts (p, 0)) 1` against column `q` of `w`, plus the bias at `q`. -/
def poolLinearAt (sums : (⟨2, ![8192, 32]⟩ : Shape).Idx → EReal) (cnts : (⟨2, ![8192, 1]⟩ : Shape).Idx → EReal)
    (w : (⟨2, ![32, 128]⟩ : Shape).Idx → EReal) (b : (⟨2, ![1, 128]⟩ : Shape).Idx → EReal) :
    (⟨2, ![8192, 128]⟩ : Shape).Idx → EReal :=
  fun i => (∑ k : Fin 32, Ideal.div (sums (ix2 (⟨(i 0).val, idx2_lt0 i⟩ : Fin 8192) k))
        (max (cnts (ix2 (⟨(i 0).val, idx2_lt0 i⟩ : Fin 8192) (0 : Fin 1))) (Ideal.ofBits .f32 0x3F800000#32))
      * w (ix2 k (⟨(i 1).val, idx2_lt1 i⟩ : Fin 128)))
    + b (ix2 (0 : Fin 1) (⟨(i 1).val, idx2_lt1 i⟩ : Fin 128))

/-- The all-zero node array is 0 everywhere. -/
theorem zeros_apply (i : S100000x32.Idx) : Cert.Stages.zeros (F := Ideal) i = 0 := by
  unfold Cert.Stages.zeros
  refine (broadcastInDim_apply _ bcast_S_S100000x32 (constant (F := Ideal) S_ .f32 0x00000000#32) i ix0 (fun a => a.elim0)).trans ?_
  exact Ideal.ofBits_zero_f32

/-- The bias row repeated for every node reads the row at the feature. -/
theorem rows_apply (b : (⟨S1x32, .f32⟩ : BufTy).Contents (Elt Ideal)) (p : Fin 100000) (q : Fin 32) :
    Cert.Stages.rows (F := Ideal) b (ix2 p q) = b (ix2 (0 : Fin 1) q) := by
  unfold Cert.Stages.rows
  refine broadcastInDim_apply _ bcast_S1x32_S100000x32_0_1 b (ix2 p q) (ix2 (0 : Fin 1) q) (fun a => ?_)
  match a with
  | ⟨0, _⟩ => show (0 : ℕ) = if (1 : ℕ) = 1 then 0 else p.val; rw [if_pos rfl]
  | ⟨1, _⟩ => show q.val = if (32 : ℕ) = 1 then 0 else q.val; rw [if_neg (by decide)]

/-- The reference's doubled relu of `a + b + res` is the single one, index by index. -/
theorem biasResRelu_eq (a : (⟨S100000x32, .f32⟩ : BufTy).Contents (Elt Ideal)) (b : (⟨S1x32, .f32⟩ : BufTy).Contents (Elt Ideal))
    (r : (⟨S100000x32, .f32⟩ : BufTy).Contents (Elt Ideal)) :
    Cert.Stages.biasResRelu (F := Ideal) a b r = biasResReluAt a b r := by
  funext i
  obtain ⟨p, q, rfl⟩ : ∃ (p : Fin 100000) (q : Fin 32), i = ix2 p q := ⟨i 0, i 1, eq_ix2 i⟩
  unfold Cert.Stages.biasResRelu biasResReluAt
  show max (max (a (ix2 p q) + Cert.Stages.rows (F := Ideal) b (ix2 p q) + r (ix2 p q)) (Cert.Stages.zeros (F := Ideal) (ix2 p q)))
      (Cert.Stages.zeros (F := Ideal) (ix2 p q)) = max (a (ix2 p q) + b (ix2 (0 : Fin 1) q) + r (ix2 p q)) 0
  rw [rows_apply, zeros_apply]
  exact max_eq_left (le_max_right _ _)

/-- The column of ones is the word of 1.0 everywhere. -/
theorem onesCol_apply (i : S8192x1.Idx) : Cert.Stages.onesCol (F := Ideal) i = Ideal.ofBits .f32 0x3F800000#32 := by
  unfold Cert.Stages.onesCol
  refine (broadcastInDim_apply _ bcast_S8192_S8192x1_0 _ i (ix1 (⟨(i 0).val, idx2_lt0 i⟩ : Fin 8192)) (fun a => ?_)).trans ?_
  · match a with
    | ⟨0, _⟩ => show (i 0).val = if (8192 : ℕ) = 1 then 0 else (i 0).val; rw [if_neg (by decide)]
  · exact broadcastInDim_apply _ bcast_S_S8192 (constant (F := Ideal) S_ .f32 0x3F800000#32) _ ix0 (fun a => a.elim0)

/-- A column [8192, 1] repeated along the 32 features reads, at (p, k), the column at p. -/
theorem cols_apply (v : (⟨S8192x1, .f32⟩ : BufTy).Contents (Elt Ideal)) (p : Fin 8192) (k : Fin 32) :
    broadcastInDim S8192x32 ![0, 1] bcast_S8192x1_S8192x32_0_1 v (ix2 p k) = v (ix2 p (0 : Fin 1)) := by
  refine broadcastInDim_apply _ bcast_S8192x1_S8192x32_0_1 v (ix2 p k) (ix2 p (0 : Fin 1)) (fun a => ?_)
  match a with
  | ⟨0, _⟩ => show p.val = if (8192 : ℕ) = 1 then 0 else p.val; rw [if_neg (by decide)]
  | ⟨1, _⟩ => show (0 : ℕ) = if (1 : ℕ) = 1 then 0 else k.val; rw [if_pos rfl]

/-- The bias row [1, 128] repeated for every graph reads the row at the output feature. -/
theorem biasRow_apply (b : (⟨S1x128, .f32⟩ : BufTy).Contents (Elt Ideal)) (p : Fin 8192) (q : Fin 128) :
    broadcastInDim S8192x128 ![0, 1] bcast_S1x128_S8192x128_0_1 b (ix2 p q) = b (ix2 (0 : Fin 1) q) := by
  refine broadcastInDim_apply _ bcast_S1x128_S8192x128_0_1 b (ix2 p q) (ix2 (0 : Fin 1) q) (fun a => ?_)
  match a with
  | ⟨0, _⟩ => show (0 : ℕ) = if (1 : ℕ) = 1 then 0 else p.val; rw [if_pos rfl]
  | ⟨1, _⟩ => show q.val = if (128 : ℕ) = 1 then 0 else q.val; rw [if_neg (by decide)]

theorem lhs_pool_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
theorem lhs_pool_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
theorem rhs_pool_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
theorem rhs_pool_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- The host's [8192, 32] x [32, 128] product at (p, q): the sum over the 32 contracted features. -/
theorem dotPool_apply (y : FVec Ideal S8192x32 .f32) (w : FVec Ideal S32x128 .f32) (p : Fin 8192) (q : Fin 128) :
    Host.dotGeneral (F := Ideal) dot_S8192x32_S32x128_S8192x128_1_0_0_1_n_n none y w (ix2 p q)
      = ∑ k : Fin 32, y (ix2 p k) * w (ix2 k q) := by
  simp only [Host.dotGeneral]
  rw [Ideal.dotGeneral_apply, ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 p q) ((ValueIdx.contrEquiv1 dot_S8192x32_S32x128_S8192x128_1_0_0_1_n_n 32 rfl rfl).symm k) = ix2 p k := funext fun a => Fin.ext (by
    match a with
    | ⟨0, _⟩ => exact lhs_pool_0 _ _
    | ⟨1, _⟩ => exact (lhs_pool_1 _ _).trans hk)
  have er : dot_S8192x32_S32x128_S8192x128_1_0_0_1_n_n.rhsIdx (ix2 p q) ((ValueIdx.contrEquiv1 dot_S8192x32_S32x128_S8192x128_1_0_0_1_n_n 32 rfl rfl).symm k) = ix2 k q := funext fun a => Fin.ext (by
    match a with
    | ⟨0, _⟩ => exact (rhs_pool_0 _ _).trans hk
    | ⟨1, _⟩ => exact rhs_pool_1 _ _)
  rw [el, er]

/-- The head, index by index. -/
theorem poolLinear_eq (sums : (⟨S8192x32, .f32⟩ : BufTy).Contents (Elt Ideal)) (cnts : (⟨S8192x1, .f32⟩ : BufTy).Contents (Elt Ideal))
    (w : (⟨S32x128, .f32⟩ : BufTy).Contents (Elt Ideal)) (b : (⟨S1x128, .f32⟩ : BufTy).Contents (Elt Ideal)) :
    Cert.Stages.poolLinear (F := Ideal) sums cnts w b = poolLinearAt sums cnts w b := by
  funext i
  obtain ⟨p, q, rfl⟩ : ∃ (p : Fin 8192) (q : Fin 128), i = ix2 p q := ⟨i 0, i 1, eq_ix2 i⟩
  unfold Cert.Stages.poolLinear poolLinearAt
  show (Host.dotGeneral (F := Ideal) (φ₁ := .f32) (φ₂ := .f32) dot_S8192x32_S32x128_S8192x128_1_0_0_1_n_n none
        (Host.divf (F := Ideal) sums (broadcastInDim S8192x32 ![0, 1] bcast_S8192x1_S8192x32_0_1 (maximumf (F := Ideal) cnts (Cert.Stages.onesCol (F := Ideal))))) w (ix2 p q) : EReal)
      + broadcastInDim S8192x128 ![0, 1] bcast_S1x128_S8192x128_0_1 b (ix2 p q)
    = (∑ k : Fin 32, Ideal.div (sums (ix2 p k)) (max (cnts (ix2 p (0 : Fin 1))) (Ideal.ofBits .f32 0x3F800000#32)) * w (ix2 k q))
      + b (ix2 (0 : Fin 1) q)
  rw [dotPool_apply, biasRow_apply]
  refine congrArg (· + _) (Finset.sum_congr rfl fun k _ => ?_)
  show Ideal.div (sums (ix2 p k)) (broadcastInDim S8192x32 ![0, 1] bcast_S8192x1_S8192x32_0_1 (maximumf (F := Ideal) cnts (Cert.Stages.onesCol (F := Ideal))) (ix2 p k)) * w (ix2 k q) = _
  rw [cols_apply]
  show Ideal.div (sums (ix2 p k)) (max (cnts (ix2 p (0 : Fin 1))) (Cert.Stages.onesCol (F := Ideal) (ix2 p (0 : Fin 1)))) * w (ix2 k q) = _
  rw [onesCol_apply]

end Cert.StagesAt

end
-- ==== Proof.RegionBRR.lean ====
/-
  The three residual stages of the kernel program (regions 2, 5 and 8): each computes, over 20 row blocks of 5000
  nodes, `relu (a + b + res)` of an aggregate [100000, 32], a bias row [1, 32] and a residual [100000, 32]. Each
  block's stored value is a pointwise function of the three loaded blocks (a change of shape to the same shape is
  the identity, the bias row is repeated down the block), the aggregate's and the residual's blocks sit where the
  output's block sits, and the 20 output blocks cover the array; so the output array after the region is ONE
  function of the three input arrays, index by index (`Cert.StagesAt.biasResReluAt`), which is the reference's
  doubled relu `Cert.Stages.biasResRelu` because max (max z 0) 0 = max z 0. The region's input arrays stay a
  parameter `V` throughout.
-/
import proofs.«157759_j39539468927577_1_alg».proof.Proof.Gen.KernelIdeal.Frame
import proofs.«157759_j39539468927577_1_alg».proof.Proof.Gen.ReferenceIdeal
import proofs.«157759_j39539468927577_1_alg».proof.Proof.Stages
import proofs.«157759_j39539468927577_1_alg».proof.Proof.StagesAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)
open Cert.StagesAt (biasResReluAt)

variable (V : (c : Dev nD) → (b : Ref sig .tc) → Buf (Elt Ideal) ((c : Thread nD τ).loc b))

namespace BRR

/-- The body loads and stores whole staging buffers: the offsets of its rectangles are zero. -/
theorem zero_offsets : (![0, 0] : Fin 2 → Nat) = fun _ => 0 := funext fun a => by fin_cases a <;> rfl

end BRR

open BRR (zero_offsets)

/-! ## Region 2: `main_v60 = relu (main_v58 + main_v59 + main_arg0)` -/

namespace BRR

/-- The body's stored value at node `p` of the block and feature `q`. -/
theorem pay2_apply (x0 : Vec Ideal S5000x32 .f32) (x1 : Vec Ideal S1x32 .f32) (x2 : Vec Ideal S5000x32 .f32)
    (p : Fin 5000) (q : Fin 32) :
    k2_pay1 x0 x1 x2 (ix2 p q) = max (x0 (ix2 p q) + x1 (ix2 (0 : Fin 1) q) + x2 (ix2 p q)) 0 := by
  unfold k2_pay1
  simp only [shapeCast_self]
  show max (x0 (ix2 p q) + broadcastTo S5000x32 x1 broadcasts_S1x32_S5000x32 (ix2 p q) + x2 (ix2 p q)) (Ideal.ofBits .f32 0x00000000#32) = _
  rw [broadcastTo_1b_ab_apply, Ideal.ofBits_zero_f32]

/-- The stored value at an index `j` of the block is the whole-array function at the array index `i` where `j` sits,
    once the aggregate's and the residual's blocks are known to sit there too and the bias block to be the whole row. -/
theorem pay2_block (x0 : Vec Ideal S5000x32 .f32) (x1 : Vec Ideal S1x32 .f32) (x2 : Vec Ideal S5000x32 .f32)
    (a : S100000x32.Idx → EReal) (b : S1x32.Idx → EReal) (r : S100000x32.Idx → EReal)
    (j : S5000x32.Idx) (i : S100000x32.Idx) (hi : (i 1).val = (j 1).val)
    (h0 : x0 j = a i) (h1 : ∀ y, x1 y = b y) (h2 : x2 j = r i) :
    k2_pay1 x0 x1 x2 j = biasResReluAt a b r i := by
  obtain ⟨p, q, rfl⟩ : ∃ (p : Fin 5000) (q : Fin 32), j = ix2 p q := ⟨j 0, j 1, eq_ix2 j⟩
  rw [pay2_apply, h0, h1, h2]
  unfold biasResReluAt
  have e : (⟨(i 1).val, idx2_lt1 i⟩ : Fin 32) = q := Fin.ext hi
  rw [e]

/-- The block indices over the 20 grid points: the aggregate's and the residual's blocks move with the output's, which
    is block `t` of the rows at point `t`; the bias row never moves. -/
theorem block_indices2 : ∀ t : Fin cfg2.N, win2_0.index t (0 : Fin 2) = win2_3.index t (0 : Fin 2)
    ∧ win2_0.index t (1 : Fin 2) = win2_3.index t (1 : Fin 2)
    ∧ win2_2.index t (0 : Fin 2) = win2_3.index t (0 : Fin 2)
    ∧ win2_2.index t (1 : Fin 2) = win2_3.index t (1 : Fin 2)
    ∧ win2_1.index t (0 : Fin 2) = 0 ∧ win2_1.index t (1 : Fin 2) = 0
    ∧ win2_3.index t (0 : Fin 2) = t.val ∧ win2_3.index t (1 : Fin 2) = 0 :=
  (by decide +kernel : ∀ t : Fin grid2.N, _)

/-- What point `t` writes back is block `t` of `relu (a + b + res)` of the arrays as the region finds them. -/
theorem flushed2_eq (c : Dev nD) (t : Fin cfg2.N) :
    (dat2 V c).flushed 3 t = ((cfg2.win 3).blk t).view.read (Elt Ideal)
      (biasResReluAt (V c main_v58) (V c main_v59) (V c main_arg0)) := by
  show (cfg2.win 3).cut (grid2.coords t) ((dat2 V c).after 3 t) = _
  rw [after2_3]
  unfold out2_3
  rw [View.canon_unit_zero zero_offsets]
  simp only [View.ld_unit_zero (S := S5000x32) zero_offsets, View.ld_unit_zero (S := S1x32) zero_offsets]
  obtain ⟨e0, e1, e2, e3, e4, e5, e6, e7⟩ := block_indices2 t
  funext j
  show k2_pay1 (iblk2 V c 0 t) (iblk2 V c 1 t) (iblk2 V c 2 t) j
    = biasResReluAt (V c main_v58) (V c main_v59) (V c main_arg0) (((cfg2.win 3).blk t).view.emb j)
  refine pay2_block _ _ _ _ _ _ j _ ?_ ?_ ?_ ?_
  · show win2_3.index t (1 : Fin 2) * 32 + 1 * (j 1).val = (j 1).val
    omega
  · show V c main_v58 (((cfg2.win 0).blk t).view.emb j) = V c main_v58 (((cfg2.win 3).blk t).view.emb j)
    refine congrArg _ (funext fun a => Fin.ext ?_)
    match a with
    | ⟨0, _⟩ => show win2_0.index t (0 : Fin 2) * 5000 + 1 * (j 0).val = win2_3.index t (0 : Fin 2) * 5000 + 1 * (j 0).val; omega
    | ⟨1, _⟩ => show win2_0.index t (1 : Fin 2) * 32 + 1 * (j 1).val = win2_3.index t (1 : Fin 2) * 32 + 1 * (j 1).val; omega
  · intro y
    show V c main_v59 (((cfg2.win 1).blk t).view.emb y) = V c main_v59 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 32 + 1 * (y 1).val = (y 1).val; omega
  · show V c main_arg0 (((cfg2.win 2).blk t).view.emb j) = V c main_arg0 (((cfg2.win 3).blk t).view.emb j)
    refine congrArg _ (funext fun a => Fin.ext ?_)
    match a with
    | ⟨0, _⟩ => show win2_2.index t (0 : Fin 2) * 5000 + 1 * (j 0).val = win2_3.index t (0 : Fin 2) * 5000 + 1 * (j 0).val; omega
    | ⟨1, _⟩ => show win2_2.index t (1 : Fin 2) * 32 + 1 * (j 1).val = win2_3.index t (1 : Fin 2) * 32 + 1 * (j 1).val; omega

/-- An index of the output array is in point `t`'s block iff each coordinate is in the block's range on its axis. -/
theorem mem_block2 (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v60).slice (win2_3.rect t)).set ↔ _
  rw [View.set_slice_whole, Rect.mem_set_unit]
  exact Iff.rfl

/-- Node `r` is written by point `r / 5000`: the 20 blocks of 5000 rows cover the 100000 nodes. -/
theorem cover2 (i : S100000x32.Idx) : ∃ t : Fin cfg2.N, (cfg2.win 3).flush t = true ∧ i ∈ ((cfg2.win 3).blk t).view.set := by
  have hi0 : (i 0).val < 100000 := (i 0).isLt
  have hi1 : (i 1).val < 32 := (i 1).isLt
  have hN : cfg2.N = 20 := N_2
  let t : Fin cfg2.N := ⟨(i 0).val / 5000, by rw [hN]; omega⟩
  obtain ⟨-, -, -, -, -, -, e6, e7⟩ := block_indices2 t
  have ht : t.val = (i 0).val / 5000 := rfl
  refine ⟨t, flush2_3 t, ?_⟩
  rw [mem_block2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 32 ≤ (i 1).val ∧ (i 1).val < win2_3.index t (1 : Fin 2) * 32 + 32; omega

/-- The output array after the region, index by index. -/
theorem region2_at (c : Dev nD) :
    (dat2 (F := Ideal) V c).arrAt 3 cfg2.N = biasResReluAt (V c main_v58) (V c main_v59) (V c main_arg0) :=
  (dat2 V c).arrAt_eq_of_cover 3 _ (fun t _ => flushed2_eq V c t) cover2

end BRR

/-- After region 2 its output array is `relu (relu (a + b + res))` of the aggregate, the bias row and the residual
    as the region finds them. -/
theorem region2 (c : Dev nD) : (dat2 (F := Ideal) V c).arrAt 3 cfg2.N
    = Cert.Stages.biasResRelu (F := Ideal) (V c main_v58) (V c main_v59) (V c main_arg0) :=
  (BRR.region2_at V c).trans (Cert.StagesAt.biasResRelu_eq _ _ _).symm

/-! ## Region 5: `main_v91 = relu (main_v89 + main_v90 + main_v60)` -/

namespace BRR

/-- The body's stored value at node `p` of the block and feature `q` (the residual passes through a change of shape to its own shape first). -/
theorem pay5_apply (x0 : Vec Ideal S5000x32 .f32) (x1 : Vec Ideal S1x32 .f32) (x2 : Vec Ideal S5000x32 .f32)
    (p : Fin 5000) (q : Fin 32) :
    k5_pay1 x0 x1 x2 (ix2 p q) = max (x0 (ix2 p q) + x1 (ix2 (0 : Fin 1) q) + x2 (ix2 p q)) 0 := by
  unfold k5_pay1
  simp only [shapeCast_self]
  show max (x0 (ix2 p q) + broadcastTo S5000x32 x1 broadcasts_S1x32_S5000x32 (ix2 p q) + x2 (ix2 p q)) (Ideal.ofBits .f32 0x00000000#32) = _
  rw [broadcastTo_1b_ab_apply, Ideal.ofBits_zero_f32]

/-- The stored value at an index `j` of the block is the whole-array function at the array index `i` where `j` sits,
    once the aggregate's and the residual's blocks are known to sit there too and the bias block to be the whole row. -/
theorem pay5_block (x0 : Vec Ideal S5000x32 .f32) (x1 : Vec Ideal S1x32 .f32) (x2 : Vec Ideal S5000x32 .f32)
    (a : S100000x32.Idx → EReal) (b : S1x32.Idx → EReal) (r : S100000x32.Idx → EReal)
    (j : S5000x32.Idx) (i : S100000x32.Idx) (hi : (i 1).val = (j 1).val)
    (h0 : x0 j = a i) (h1 : ∀ y, x1 y = b y) (h2 : x2 j = r i) :
    k5_pay1 x0 x1 x2 j = biasResReluAt a b r i := by
  obtain ⟨p, q, rfl⟩ : ∃ (p : Fin 5000) (q : Fin 32), j = ix2 p q := ⟨j 0, j 1, eq_ix2 j⟩
  rw [pay5_apply, h0, h1, h2]
  unfold biasResReluAt
  have e : (⟨(i 1).val, idx2_lt1 i⟩ : Fin 32) = q := Fin.ext hi
  rw [e]

/-- The block indices over the 20 grid points: the aggregate's and the residual's blocks move with the output's, which
    is block `t` of the rows at point `t`; the bias row never moves. -/
theorem block_indices5 : ∀ t : Fin cfg5.N, win5_0.index t (0 : Fin 2) = win5_3.index t (0 : Fin 2)
    ∧ win5_0.index t (1 : Fin 2) = win5_3.index t (1 : Fin 2)
    ∧ win5_2.index t (0 : Fin 2) = win5_3.index t (0 : Fin 2)
    ∧ win5_2.index t (1 : Fin 2) = win5_3.index t (1 : Fin 2)
    ∧ win5_1.index t (0 : Fin 2) = 0 ∧ win5_1.index t (1 : Fin 2) = 0
    ∧ win5_3.index t (0 : Fin 2) = t.val ∧ win5_3.index t (1 : Fin 2) = 0 :=
  (by decide +kernel : ∀ t : Fin grid5.N, _)

/-- What point `t` writes back is block `t` of `relu (a + b + res)` of the arrays as the region finds them. -/
theorem flushed5_eq (c : Dev nD) (t : Fin cfg5.N) :
    (dat5 V c).flushed 3 t = ((cfg5.win 3).blk t).view.read (Elt Ideal)
      (biasResReluAt (V c main_v89) (V c main_v90) (V c main_v60)) := by
  show (cfg5.win 3).cut (grid5.coords t) ((dat5 V c).after 3 t) = _
  rw [after5_3]
  unfold out5_3
  rw [View.canon_unit_zero zero_offsets]
  simp only [View.ld_unit_zero (S := S5000x32) zero_offsets, View.ld_unit_zero (S := S1x32) zero_offsets]
  obtain ⟨e0, e1, e2, e3, e4, e5, e6, e7⟩ := block_indices5 t
  funext j
  show k5_pay1 (iblk5 V c 0 t) (iblk5 V c 1 t) (iblk5 V c 2 t) j
    = biasResReluAt (V c main_v89) (V c main_v90) (V c main_v60) (((cfg5.win 3).blk t).view.emb j)
  refine pay5_block _ _ _ _ _ _ j _ ?_ ?_ ?_ ?_
  · show win5_3.index t (1 : Fin 2) * 32 + 1 * (j 1).val = (j 1).val
    omega
  · show V c main_v89 (((cfg5.win 0).blk t).view.emb j) = V c main_v89 (((cfg5.win 3).blk t).view.emb j)
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 32 + 1 * (j 1).val = win5_3.index t (1 : Fin 2) * 32 + 1 * (j 1).val; omega
  · intro y
    show V c main_v90 (((cfg5.win 1).blk t).view.emb y) = V c main_v90 y
    refine congrArg _ (funext fun a => Fin.ext ?_)
    match a with
    | ⟨0, _⟩ => show win5_1.index t (0 : Fin 2) * 1 + 1 * (y 0).val = (y 0).val; omega
    | ⟨1, _⟩ => show win5_1.index t (1 : Fin 2) * 32 + 1 * (y 1).val = (y 1).val; omega
  · show V c main_v60 (((cfg5.win 2).blk t).view.emb j) = V c main_v60 (((cfg5.win 3).blk t).view.emb j)
    refine congrArg _ (funext fun a => Fin.ext ?_)
    match a with
    | ⟨0, _⟩ => show win5_2.index t (0 : Fin 2) * 5000 + 1 * (j 0).val = win5_3.index t (0 : Fin 2) * 5000 + 1 * (j 0).val; omega
    | ⟨1, _⟩ => show win5_2.index t (1 : Fin 2) * 32 + 1 * (j 1).val = win5_3.index t (1 : Fin 2) * 32 + 1 * (j 1).val; omega

/-- An index of the output array is in point `t`'s block iff each coordinate is in the block's range on its axis. -/
theorem mem_block5 (t : Fin cfg5.N) (i : S100000x32.Idx) :
    i ∈ ((cfg5.win 3).blk t).view.set ↔ ∀ a : Fin 2, win5_3.index t a * S5000x32.size a ≤ (i a).val ∧ (i a).val < win5_3.index t a * S5000x32.size a + S5000x32.size a := by
  show i ∈ ((View.whole main_v91).slice (win5_3.rect t)).set ↔ _
  rw [View.set_slice_whole, Rect.mem_set_unit]
  exact Iff.rfl

/-- Node `r` is written by point `r / 5000`: the 20 blocks of 5000 rows cover the 100000 nodes. -/
theorem cover5 (i : S100000x32.Idx) : ∃ t : Fin cfg5.N, (cfg5.win 3).flush t = true ∧ i ∈ ((cfg5.win 3).blk t).view.set := by
  have hi0 : (i 0).val < 100000 := (i 0).isLt
  have hi1 : (i 1).val < 32 := (i 1).isLt
  have hN : cfg5.N = 20 := N_5
  let t : Fin cfg5.N := ⟨(i 0).val / 5000, by rw [hN]; omega⟩
  obtain ⟨-, -, -, -, -, -, e6, e7⟩ := block_indices5 t
  have ht : t.val = (i 0).val / 5000 := rfl
  refine ⟨t, flush5_3 t, ?_⟩
  rw [mem_block5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 32 ≤ (i 1).val ∧ (i 1).val < win5_3.index t (1 : Fin 2) * 32 + 32; omega

/-- The output array after the region, index by index. -/
theorem region5_at (c : Dev nD) :
    (dat5 (F := Ideal) V c).arrAt 3 cfg5.N = biasResReluAt (V c main_v89) (V c main_v90) (V c main_v60) :=
  (dat5 V c).arrAt_eq_of_cover 3 _ (fun t _ => flushed5_eq V c t) cover5

end BRR

/-- After region 5 its output array is `relu (relu (a + b + res))` of the aggregate, the bias row and the residual
    as the region finds them. -/
theorem region5 (c : Dev nD) : (dat5 (F := Ideal) V c).arrAt 3 cfg5.N
    = Cert.Stages.biasResRelu (F := Ideal) (V c main_v89) (V c main_v90) (V c main_v60) :=
  (BRR.region5_at V c).trans (Cert.StagesAt.biasResRelu_eq _ _ _).symm

/-! ## Region 8: `main_v122 = relu (main_v120 + main_v121 + main_v91)` -/

namespace BRR

/-- The body's stored value at node `p` of the block and feature `q` (the residual passes through a change of shape to its own shape first). -/
theorem pay8_apply (x0 : Vec Ideal S5000x32 .f32) (x1 : Vec Ideal S1x32 .f32) (x2 : Vec Ideal S5000x32 .f32)
    (p : Fin 5000) (q : Fin 32) :
    k8_pay1 x0 x1 x2 (ix2 p q) = max (x0 (ix2 p q) + x1 (ix2 (0 : Fin 1) q) + x2 (ix2 p q)) 0 := by
  unfold k8_pay1
  simp only [shapeCast_self]
  show max (x0 (ix2 p q) + broadcastTo S5000x32 x1 broadcasts_S1x32_S5000x32 (ix2 p q) + x2 (ix2 p q)) (Ideal.ofBits .f32 0x00000000#32) = _
  rw [broadcastTo_1b_ab_apply, Ideal.ofBits_zero_f32]

/-- The stored value at an index `j` of the block is the whole-array function at the array index `i` where `j` sits,
    once the aggregate's and the residual's blocks are known to sit there too and the bias block to be the whole row. -/
theorem pay8_block (x0 : Vec Ideal S5000x32 .f32) (x1 : Vec Ideal S1x32 .f32) (x2 : Vec Ideal S5000x32 .f32)
    (a : S100000x32.Idx → EReal) (b : S1x32.Idx → EReal) (r : S100000x32.Idx → EReal)
    (j : S5000x32.Idx) (i : S100000x32.Idx) (hi : (i 1).val = (j 1).val)
    (h0 : x0 j = a i) (h1 : ∀ y, x1 y = b y) (h2 : x2 j = r i) :
    k8_pay1 x0 x1 x2 j = biasResReluAt a b r i := by
  obtain ⟨p, q, rfl⟩ : ∃ (p : Fin 5000) (q : Fin 32), j = ix2 p q := ⟨j 0, j 1, eq_ix2 j⟩
  rw [pay8_apply, h0, h1, h2]
  unfold biasResReluAt
  have e : (⟨(i 1).val, idx2_lt1 i⟩ : Fin 32) = q := Fin.ext hi
  rw [e]

/-- The block indices over the 20 grid points: the aggregate's and the residual's blocks move with the output's, which
    is block `t` of the rows at point `t`; the bias row never moves. -/
theorem block_indices8 : ∀ t : Fin cfg8.N, win8_0.index t (0 : Fin 2) = win8_3.index t (0 : Fin 2)
    ∧ win8_0.index t (1 : Fin 2) = win8_3.index t (1 : Fin 2)
    ∧ win8_2.index t (0 : Fin 2) = win8_3.index t (0 : Fin 2)
    ∧ win8_2.index t (1 : Fin 2) = win8_3.index t (1 : Fin 2)
    ∧ win8_1.index t (0 : Fin 2) = 0 ∧ win8_1.index t (1 : Fin 2) = 0
    ∧ win8_3.index t (0 : Fin 2) = t.val ∧ win8_3.index t (1 : Fin 2) = 0 :=
  (by decide +kernel : ∀ t : Fin grid8.N, _)

/-- What point `t` writes back is block `t` of `relu (a + b + res)` of the arrays as the region finds them. -/
theorem flushed8_eq (c : Dev nD) (t : Fin cfg8.N) :
    (dat8 V c).flushed 3 t = ((cfg8.win 3).blk t).view.read (Elt Ideal)
      (biasResReluAt (V c main_v120) (V c main_v121) (V c main_v91)) := by
  show (cfg8.win 3).cut (grid8.coords t) ((dat8 V c).after 3 t) = _
  rw [after8_3]
  unfold out8_3
  rw [View.canon_unit_zero zero_offsets]
  simp only [View.ld_unit_zero (S := S5000x32) zero_offsets, View.ld_unit_zero (S := S1x32) zero_offsets]
  obtain ⟨e0, e1, e2, e3, e4, e5, e6, e7⟩ := block_indices8 t
  funext j
  show k8_pay1 (iblk8 V c 0 t) (iblk8 V c 1 t) (iblk8 V c 2 t) j
    = biasResReluAt (V c main_v120) (V c main_v121) (V c main_v91) (((cfg8.win 3).blk t).view.emb j)
  refine pay8_block _ _ _ _ _ _ j _ ?_ ?_ ?_ ?_
  · show win8_3.index t (1 : Fin 2) * 32 + 1 * (j 1).val = (j 1).val
    omega
  · show V c main_v120 (((cfg8.win 0).blk t).view.emb j) = V c main_v120 (((cfg8.win 3).blk t).view.emb j)
    refine congrArg _ (funext fun a => Fin.ext ?_)
    match a with
    | ⟨0, _⟩ => show win8_0.index t (0 : Fin 2) * 5000 + 1 * (j 0).val = win8_3.index t (0 : Fin 2) * 5000 + 1 * (j 0).val; omega
    | ⟨1, _⟩ => show win8_0.index t (1 : Fin 2) * 32 + 1 * (j 1).val = win8_3.index t (1 : Fin 2) * 32 + 1 * (j 1).val; omega
  · intro y
    show V c main_v121 (((cfg8.win 1).blk t).view.emb y) = V c main_v121 y
    refine congrArg _ (funext fun a => Fin.ext ?_)
    match a with
    | ⟨0, _⟩ => show win8_1.index t (0 : Fin 2) * 1 + 1 * (y 0).val = (y 0).val; omega
    | ⟨1, _⟩ => show win8_1.index t (1 : Fin 2) * 32 + 1 * (y 1).val = (y 1).val; omega
  · show V c main_v91 (((cfg8.win 2).blk t).view.emb j) = V c main_v91 (((cfg8.win 3).blk t).view.emb j)
    refine congrArg _ (funext fun a => Fin.ext ?_)
    match a with
    | ⟨0, _⟩ => show win8_2.index t (0 : Fin 2) * 5000 + 1 * (j 0).val = win8_3.index t (0 : Fin 2) * 5000 + 1 * (j 0).val; omega
    | ⟨1, _⟩ => show win8_2.index t (1 : Fin 2) * 32 + 1 * (j 1).val = win8_3.index t (1 : Fin 2) * 32 + 1 * (j 1).val; omega

/-- An index of the output array is in point `t`'s block iff each coordinate is in the block's range on its axis. -/
theorem mem_block8 (t : Fin cfg8.N) (i : S100000x32.Idx) :
    i ∈ ((cfg8.win 3).blk t).view.set ↔ ∀ a : Fin 2, win8_3.index t a * S5000x32.size a ≤ (i a).val ∧ (i a).val < win8_3.index t a * S5000x32.size a + S5000x32.size a := by
  show i ∈ ((View.whole main_v122).slice (win8_3.rect t)).set ↔ _
  rw [View.set_slice_whole, Rect.mem_set_unit]
  exact Iff.rfl

/-- Node `r` is written by point `r / 5000`: the 20 blocks of 5000 rows cover the 100000 nodes. -/
theorem cover8 (i : S100000x32.Idx) : ∃ t : Fin cfg8.N, (cfg8.win 3).flush t = true ∧ i ∈ ((cfg8.win 3).blk t).view.set := by
  have hi0 : (i 0).val < 100000 := (i 0).isLt
  have hi1 : (i 1).val < 32 := (i 1).isLt
  have hN : cfg8.N = 20 := N_8
  let t : Fin cfg8.N := ⟨(i 0).val / 5000, by rw [hN]; omega⟩
  obtain ⟨-, -, -, -, -, -, e6, e7⟩ := block_indices8 t
  have ht : t.val = (i 0).val / 5000 := rfl
  refine ⟨t, flush8_3 t, ?_⟩
  rw [mem_block8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 32 ≤ (i 1).val ∧ (i 1).val < win8_3.index t (1 : Fin 2) * 32 + 32; omega

/-- The output array after the region, index by index. -/
theorem region8_at (c : Dev nD) :
    (dat8 (F := Ideal) V c).arrAt 3 cfg8.N = biasResReluAt (V c main_v120) (V c main_v121) (V c main_v91) :=
  (dat8 V c).arrAt_eq_of_cover 3 _ (fun t _ => flushed8_eq V c t) cover8

end BRR

/-- After region 8 its output array is `relu (relu (a + b + res))` of the aggregate, the bias row and the residual
    as the region finds them. -/
theorem region8 (c : Dev nD) : (dat8 (F := Ideal) V c).arrAt 3 cfg8.N
    = Cert.Stages.biasResRelu (F := Ideal) (V c main_v120) (V c main_v121) (V c main_v91) :=
  (BRR.region8_at V c).trans (Cert.StagesAt.biasResRelu_eq _ _ _).symm

end Cert.KernelIdeal.RegionVal

end
-- ==== Proof.RegionPool.lean ====
/-
  The head of the kernel program (region 9): ONE grid point whose blocks are the whole arrays. Its stored value is,
  at graph `p` and output feature `q`,

      (∑ k < 32, (sums (p, k) / max (cnts (p, 0)) 1) · w (k, q)) + b (0, q):

  the counts column is clamped below by 1 and repeated along the features, the sums are divided by it, the product
  into a zero accumulator is the plain sum over the contracted axis (a change of float format is the identity on
  the extended reals), and the bias row is repeated for every graph. Every window's one block sits at block index
  (0, 0) and is its whole array, and the output's one block covers the output array; so the output array after the
  region is `Cert.StagesAt.poolLinearAt` of the four input arrays, which is the reference's `Cert.Stages.poolLinear`.
  The region's input arrays stay a parameter `V` throughout.
-/
import proofs.«157759_j39539468927577_1_alg».proof.Proof.Gen.KernelIdeal.Frame
import proofs.«157759_j39539468927577_1_alg».proof.Proof.Gen.ReferenceIdeal
import proofs.«157759_j39539468927577_1_alg».proof.Proof.Stages
import proofs.«157759_j39539468927577_1_alg».proof.Proof.StagesAt
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionVal

open Cert.KernelIdeal Cert.KernelIdeal.Gen Idealize.ShloMosaic Idealize.ShloMosaic.TcCoe Idealize.ShloMosaic.ValueIdx
open Idealize.ShloMosaic.Pipeline (Dat)
open Cert.StagesAt (poolLinearAt)

variable (V : (c : Dev nD) → (b : Ref sig .tc) → Buf (Elt Ideal) ((c : Thread nD τ).loc b))

namespace Pool

/-- The body loads and stores whole staging buffers: the offsets of its rectangles are zero. -/
theorem zero_offsets : (![0, 0] : Fin 2 → Nat) = fun _ => 0 := funext fun a => by fin_cases a <;> rfl

/-- A column [a, 1] repeated along the second axis reads, at (p, c), the column at p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! The product's operand indices at output (p, q) and contraction index k are (p, k) and (k, q). -/

theorem lhs_0 (i : S8192x128.Idx) (q : dot_S8192x32_S32x128_S8192x128_1_0_0_1_n_n.contr.Idx) :
    (dot_S8192x32_S32x128_S8192x128_1_0_0_1_n_n.lhsIdx i q 0).val = (i 0).val := by
  unfold DotDims.lhsIdx
  rw [dif_neg (show ¬(0 : Fin S8192x32.rank) ∈ dot_S8192x32_S32x128_S8192x128_1_0_0_1_n_n.lhsBatch by decide), dif_pos (show (0 : Fin S8192x32.rank) ∈ dot_S8192x32_S32x128_S8192x128_1_0_0_1_n_n.lhsNonContracting by decide)]
  rfl
theorem lhs_1 (i : S8192x128.Idx) (q : dot_S8192x32_S32x128_S8192x128_1_0_0_1_n_n.contr.Idx) :
    (dot_S8192x32_S32x128_S8192x128_1_0_0_1_n_n.lhsIdx i q 1).val = (q ⟨0, by decide⟩).val :=
  dot_S8192x32_S32x128_S8192x128_1_0_0_1_n_n.lhsIdx_val_of_single rfl i q
theorem rhs_0 (i : S8192x128.Idx) (q : dot_S8192x32_S32x128_S8192x128_1_0_0_1_n_n.contr.Idx) :
    (dot_S8192x32_S32x128_S8192x128_1_0_0_1_n_n.rhsIdx i q 0).val = (q ⟨0, by decide⟩).val :=
  dot_S8192x32_S32x128_S8192x128_1_0_0_1_n_n.rhsIdx_val_of_single rfl i q
theorem rhs_1 (i : S8192x128.Idx) (q : dot_S8192x32_S32x128_S8192x128_1_0_0_1_n_n.contr.Idx) :
    (dot_S8192x32_S32x128_S8192x128_1_0_0_1_n_n.rhsIdx i q 1).val = (i 1).val := by
  unfold DotDims.rhsIdx
  rw [dif_neg (show ¬(1 : Fin S32x128.rank) ∈ dot_S8192x32_S32x128_S8192x128_1_0_0_1_n_n.rhsBatch by decide), dif_pos (show (1 : Fin S32x128.rank) ∈ dot_S8192x32_S32x128_S8192x128_1_0_0_1_n_n.rhsNonContracting by decide)]
  rfl

/-- The kernel's [8192, 32] x [32, 128] product into a zero accumulator, at (p, q): the sum over the 32 features. -/
theorem matmul_apply (l : FVec Ideal S8192x32 .bf16) (r : FVec Ideal S32x128 .bf16) (p : Fin 8192) (q : Fin 128) :
    matmul dot_S8192x32_S32x128_S8192x128_1_0_0_1_n_n none l r (constant S8192x128 .f32 0x00000000#32) (ix2 p q)
      = ∑ k : Fin 32, l (ix2 p k) * r (ix2 k q) := by
  simp only [matmul]
  rw [Ideal.matmul_constant_zero_apply, ← Equiv.sum_comp (ValueIdx.contrEquiv1 dot_S8192x32_S32x128_S8192x128_1_0_0_1_n_n 32 rfl rfl).symm]
  refine Finset.sum_congr rfl fun k _ => ?_
  have hk := ValueIdx.contrEquiv1_symm_val dot_S8192x32_S32x128_S8192x128_1_0_0_1_n_n 32 rfl rfl k
  have el : dot_S8192x32_S32x128_S8192x128_1_0_0_1_n_n.lhsIdx (ix2 p q) ((ValueIdx.contrEquiv1 dot_S8192x32_S32x128_S8192x128_1_0_0_1_n_n 32 rfl rfl).symm k) = ix2 p k := funext fun a => Fin.ext (by
    match a with
    | ⟨0, _⟩ => exact lhs_0 _ _
    | ⟨1, _⟩ => exact (lhs_1 _ _).trans hk)
  have er : dot_S8192x32_S32x128_S8192x128_1_0_0_1_n_n.rhsIdx (ix2 p q) ((ValueIdx.contrEquiv1 dot_S8192x32_S32x128_S8192x128_1_0_0_1_n_n 32 rfl rfl).symm k) = ix2 k q := funext fun a => Fin.ext (by
    match a with
    | ⟨0, _⟩ => exact (rhs_0 _ _).trans hk
    | ⟨1, _⟩ => exact rhs_1 _ _)
  rw [el, er]

/-- The body's stored value at graph `p` and output feature `q` (the counts column is the payload's FIRST argument). -/
theorem pay_apply (x1 : Vec Ideal S8192x1 .f32) (x0 : Vec Ideal S8192x32 .f32) (x2 : Vec Ideal S32x128 .f32)
    (x3 : Vec Ideal S1x128 .f32) (p : Fin 8192) (q : Fin 128) :
    k9_pay1 x1 x0 x2 x3 (ix2 p q)
      = (∑ k : Fin 32, Ideal.div (x0 (ix2 p k)) (max (x1 (ix2 p (0 : Fin 1))) (Ideal.ofBits .f32 0x3F800000#32)) * x2 (ix2 k q))
        + x3 (ix2 (0 : Fin 1) q) := by
  unfold k9_pay1
  simp only [shapeCast_self]
  show (matmul (F := Ideal) dot_S8192x32_S32x128_S8192x128_1_0_0_1_n_n none
      (truncf (F := Ideal) .bf16 (divf (F := Ideal) x0 (broadcastTo S8192x32 (maximumf (F := Ideal) x1 (broadcast S8192x1 (Scalar.ofBits (F := Ideal) .f32 0x3F800000#32))) broadcasts_S8192x1_S8192x32)) bitsLt_bf16_f32)
      (truncf (F := Ideal) .bf16 x2 bitsLt_bf16_f32) (constant (F := Ideal) S8192x128 .f32 0x00000000#32) (ix2 p q) : EReal)
    + broadcastTo S8192x128 x3 broadcasts_S1x128_S8192x128 (ix2 p q) = _
  rw [broadcastTo_1b_ab_apply, matmul_apply]
  refine congrArg (· + _) (Finset.sum_congr rfl fun k _ => ?_)
  show Ideal.div (x0 (ix2 p k)) (broadcastTo S8192x32 (maximumf (F := Ideal) x1 (broadcast S8192x1 (Scalar.ofBits (F := Ideal) .f32 0x3F800000#32))) broadcasts_S8192x1_S8192x32 (ix2 p k)) * x2 (ix2 k q) = _
  rw [broadcastTo_a1_ab_apply]
  rfl

/-- The stored value at an index `j` of the one block is the whole-array function at the array index `i` where `j`
    sits, once every loaded block is known to be its whole array. -/
theorem pay_block (x1 : Vec Ideal S8192x1 .f32) (x0 : Vec Ideal S8192x32 .f32) (x2 : Vec Ideal S32x128 .f32)
    (x3 : Vec Ideal S1x128 .f32)
    (sums : S8192x32.Idx → EReal) (cnts : S8192x1.Idx → EReal) (w : S32x128.Idx → EReal) (b : S1x128.Idx → EReal)
    (j : S8192x128.Idx) (i : S8192x128.Idx) (hi0 : (i 0).val = (j 0).val) (hi1 : (i 1).val = (j 1).val)
    (h0 : ∀ y, x0 y = sums y) (h1 : ∀ y, x1 y = cnts y) (h2 : ∀ y, x2 y = w y) (h3 : ∀ y, x3 y = b y) :
    k9_pay1 x1 x0 x2 x3 j = poolLinearAt sums cnts w b i := by
  obtain ⟨p, q, rfl⟩ : ∃ (p : Fin 8192) (q : Fin 128), j = ix2 p q := ⟨j 0, j 1, eq_ix2 j⟩
  rw [pay_apply, h1, h3]
  unfold poolLinearAt
  have ep : (⟨(i 0).val, idx2_lt0 i⟩ : Fin 8192) = p := Fin.ext hi0
  have eq : (⟨(i 1).val, idx2_lt1 i⟩ : Fin 128) = q := Fin.ext hi1
  rw [ep, eq]
  refine congrArg (· + _) (Finset.sum_congr rfl fun k _ => ?_)
  rw [h0, h2]

/-- Every window's block index at the one grid point is (0, 0). -/
theorem block_indices : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = 0 ∧ win9_4.index t (1 : Fin 2) = 0 :=
  (by decide +kernel : ∀ t : Fin grid9.N, _)

/-- What the point writes back is the one block of the head's function of the arrays as the region finds them. -/
theorem flushed_eq (c : Dev nD) (t : Fin cfg9.N) :
    (dat9 V c).flushed 4 t = ((cfg9.win 4).blk t).view.read (Elt Ideal)
      (poolLinearAt (V c main_v125) (V c main_v130) (V c main_arg15) (V c main_v131)) := by
  show (cfg9.win 4).cut (grid9.coords t) ((dat9 V c).after 4 t) = _
  rw [after9_4]
  unfold out9_4
  rw [View.canon_unit_zero zero_offsets]
  simp only [View.ld_unit_zero (S := S8192x1) zero_offsets, View.ld_unit_zero (S := S8192x32) zero_offsets,
    View.ld_unit_zero (S := S32x128) zero_offsets, View.ld_unit_zero (S := S1x128) zero_offsets]
  obtain ⟨a0, a1, b0, b1, c0, c1, d0, d1, o0, o1⟩ := block_indices t
  funext j
  show k9_pay1 (iblk9 V c 1 t) (iblk9 V c 0 t) (iblk9 V c 2 t) (iblk9 V c 3 t) j
    = poolLinearAt (V c main_v125) (V c main_v130) (V c main_arg15) (V c main_v131) (((cfg9.win 4).blk t).view.emb j)
  refine pay_block _ _ _ _ _ _ _ _ j _ ?_ ?_ ?_ ?_ ?_ ?_
  · show win9_4.index t (0 : Fin 2) * 8192 + 1 * (j 0).val = (j 0).val
    omega
  · show win9_4.index t (1 : Fin 2) * 128 + 1 * (j 1).val = (j 1).val
    omega
  · intro y
    show V c main_v125 (((cfg9.win 0).blk t).view.emb y) = V c main_v125 y
    refine congrArg _ (funext fun a => Fin.ext ?_)
    match a with
    | ⟨0, _⟩ => show win9_0.index t (0 : Fin 2) * 8192 + 1 * (y 0).val = (y 0).val; omega
    | ⟨1, _⟩ => show win9_0.index t (1 : Fin 2) * 32 + 1 * (y 1).val = (y 1).val; omega
  · intro y
    show V c main_v130 (((cfg9.win 1).blk t).view.emb y) = V c main_v130 y
    refine congrArg _ (funext fun a => Fin.ext ?_)
    match a with
    | ⟨0, _⟩ => show win9_1.index t (0 : Fin 2) * 8192 + 1 * (y 0).val = (y 0).val; omega
    | ⟨1, _⟩ => show win9_1.index t (1 : Fin 2) * 1 + 1 * (y 1).val = (y 1).val; omega
  · intro y
    show V c main_arg15 (((cfg9.win 2).blk t).view.emb y) = V c main_arg15 y
    refine congrArg _ (funext fun a => Fin.ext ?_)
    match a with
    | ⟨0, _⟩ => show win9_2.index t (0 : Fin 2) * 32 + 1 * (y 0).val = (y 0).val; omega
    | ⟨1, _⟩ => show win9_2.index t (1 : Fin 2) * 128 + 1 * (y 1).val = (y 1).val; omega
  · intro y
    show V c main_v131 (((cfg9.win 3).blk t).view.emb y) = V c main_v131 y
    refine congrArg _ (funext fun a => Fin.ext ?_)
    match a with
    | ⟨0, _⟩ => show win9_3.index t (0 : Fin 2) * 1 + 1 * (y 0).val = (y 0).val; omega
    | ⟨1, _⟩ => show win9_3.index t (1 : Fin 2) * 128 + 1 * (y 1).val = (y 1).val; omega

/-- An index of the output array is in the point's block iff each coordinate is in the block's range on its axis. -/
theorem mem_block (t : Fin cfg9.N) (i : S8192x128.Idx) :
    i ∈ ((cfg9.win 4).blk t).view.set ↔ ∀ a : Fin 2, win9_4.index t a * S8192x128.size a ≤ (i a).val ∧ (i a).val < win9_4.index t a * S8192x128.size a + S8192x128.size a := by
  show i ∈ ((View.whole main_v132).slice (win9_4.rect t)).set ↔ _
  rw [View.set_slice_whole, Rect.mem_set_unit]
  exact Iff.rfl

/-- The one block covers the output array. -/
theorem cover (i : S8192x128.Idx) : ∃ t : Fin cfg9.N, (cfg9.win 4).flush t = true ∧ i ∈ ((cfg9.win 4).blk t).view.set := by
  have hi0 : (i 0).val < 8192 := (i 0).isLt
  have hi1 : (i 1).val < 128 := (i 1).isLt
  obtain ⟨-, -, -, -, -, -, -, -, o0, o1⟩ := block_indices t9_0
  refine ⟨t9_0, flush9_4 t9_0, ?_⟩
  rw [mem_block]
  intro a
  match a with
  | ⟨0, _⟩ => show win9_4.index t9_0 (0 : Fin 2) * 8192 ≤ (i 0).val ∧ (i 0).val < win9_4.index t9_0 (0 : Fin 2) * 8192 + 8192; omega
  | ⟨1, _⟩ => show win9_4.index t9_0 (1 : Fin 2) * 128 ≤ (i 1).val ∧ (i 1).val < win9_4.index t9_0 (1 : Fin 2) * 128 + 128; omega

/-- The output array after the region, index by index. -/
theorem region9_at (c : Dev nD) :
    (dat9 (F := Ideal) V c).arrAt 4 cfg9.N = poolLinearAt (V c main_v125) (V c main_v130) (V c main_arg15) (V c main_v131) :=
  (dat9 V c).arrAt_eq_of_cover 4 _ (fun t _ => flushed_eq V c t) cover

end Pool

/-- After region 9 its output array is the head `(sums / max (cnts, 1)) · w + b` of the pooled sums, the counts column,
    the weight matrix and the bias row as the region finds them. -/
theorem region9 (c : Dev nD) : (dat9 (F := Ideal) V c).arrAt 4 cfg9.N
    = Cert.Stages.poolLinear (F := Ideal) (V c main_v125) (V c main_v130) (V c main_arg15) (V c main_v131) :=
  (Pool.region9_at V c).trans (Cert.StagesAt.poolLinear_eq _ _ _ _).symm

end Cert.KernelIdeal.RegionVal

end
-- ==== Proof.KChain.lean ====
/-
  The kernel program's buffers at its segment boundaries, as stage functions of the arguments as launched.
  Walking @main once: before the first region the host operations leave the messages' source and target nodes and
  their normalisation; then, three times, a block of two graph convolutions — a product region, an aggregation
  stretch, a bias-relu-product region, a second aggregation stretch, and the bias-residual-relu region whose result
  is the block's output; last the per-graph sums and counts and the head region. Every region's result array is the
  stage function of the arrays the region found (the region lemmas), every stretch's result the host operations' term
  (the stretch lemmas), and a buffer nothing writes in between is carried along unchanged. The result buffer ends at
  `Stages.net` of the arguments.
-/
import proofs.«157759_j39539468927577_1_alg».proof.Proof.Gen.KernelIdeal.Frame
import proofs.«157759_j39539468927577_1_alg».proof.Proof.Gen.ReferenceIdeal
import proofs.«157759_j39539468927577_1_alg».proof.Proof.Stages
import proofs.«157759_j39539468927577_1_alg».proof.Proof.Layout
import proofs.«157759_j39539468927577_1_alg».proof.Proof.CarryArgsA
import proofs.«157759_j39539468927577_1_alg».proof.Proof.CarryArgsB
import proofs.«157759_j39539468927577_1_alg».proof.Proof.CarryGraph
import proofs.«157759_j39539468927577_1_alg».proof.Proof.HostStages
import proofs.«157759_j39539468927577_1_alg».proof.Proof.RegionMM
import proofs.«157759_j39539468927577_1_alg».proof.Proof.RegionBRM
import proofs.«157759_j39539468927577_1_alg».proof.Proof.RegionBRR
import proofs.«157759_j39539468927577_1_alg».proof.Proof.RegionPool

set_option maxRecDepth 16384

noncomputable section

namespace Cert.KernelIdeal.KChain

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg) (c : Dev nD)

/-! ## The arguments as launched, and the values the walk meets -/

abbrev a0 : (⟨S100000x32, .f32⟩ : BufTy).Contents (Elt Ideal) := m ((c : Thread nD τ).loc main_arg0)
abbrev a1 : (⟨S2x3200000, .i32⟩ : BufTy).Contents (Elt Ideal) := m ((c : Thread nD τ).loc main_arg1)
abbrev a2 : (⟨S100000, .i32⟩ : BufTy).Contents (Elt Ideal) := m ((c : Thread nD τ).loc main_arg2)
abbrev a3 : (⟨S32x32, .f32⟩ : BufTy).Contents (Elt Ideal) := m ((c : Thread nD τ).loc main_arg3)
abbrev a4 : (⟨S32, .f32⟩ : BufTy).Contents (Elt Ideal) := m ((c : Thread nD τ).loc main_arg4)
abbrev a5 : (⟨S32x32, .f32⟩ : BufTy).Contents (Elt Ideal) := m ((c : Thread nD τ).loc main_arg5)
abbrev a6 : (⟨S32, .f32⟩ : BufTy).Contents (Elt Ideal) := m ((c : Thread nD τ).loc main_arg6)
abbrev a7 : (⟨S32x32, .f32⟩ : BufTy).Contents (Elt Ideal) := m ((c : Thread nD τ).loc main_arg7)
abbrev a8 : (⟨S32, .f32⟩ : BufTy).Contents (Elt Ideal) := m ((c : Thread nD τ).loc main_arg8)
abbrev a9 : (⟨S32x32, .f32⟩ : BufTy).Contents (Elt Ideal) := m ((c : Thread nD τ).loc main_arg9)
abbrev a10 : (⟨S32, .f32⟩ : BufTy).Contents (Elt Ideal) := m ((c : Thread nD τ).loc main_arg10)
abbrev a11 : (⟨S32x32, .f32⟩ : BufTy).Contents (Elt Ideal) := m ((c : Thread nD τ).loc main_arg11)
abbrev a12 : (⟨S32, .f32⟩ : BufTy).Contents (Elt Ideal) := m ((c : Thread nD τ).loc main_arg12)
abbrev a13 : (⟨S32x32, .f32⟩ : BufTy).Contents (Elt Ideal) := m ((c : Thread nD τ).loc main_arg13)
abbrev a14 : (⟨S32, .f32⟩ : BufTy).Contents (Elt Ideal) := m ((c : Thread nD τ).loc main_arg14)
abbrev a15 : (⟨S32x128, .f32⟩ : BufTy).Contents (Elt Ideal) := m ((c : Thread nD τ).loc main_arg15)
abbrev a16 : (⟨S128, .f32⟩ : BufTy).Contents (Elt Ideal) := m ((c : Thread nD τ).loc main_arg16)

/-- The messages' source nodes. -/
def S : (⟨S3300000, .i32⟩ : BufTy).Contents (Elt Ideal) := Cert.Stages.src (a1 m c)
/-- The messages' target nodes. -/
def D : (⟨S3300000, .i32⟩ : BufTy).Contents (Elt Ideal) := Cert.Stages.dst (a1 m c)
/-- The messages' normalisation. -/
def N : (⟨S3300000, .f32⟩ : BufTy).Contents (Elt Ideal) := Cert.Stages.nrm (S m c) (D m c)
/-- The first block's output. -/
def H1 : (⟨S100000x32, .f32⟩ : BufTy).Contents (Elt Ideal) :=
  Cert.Stages.block (a0 m c) (S m c) (D m c) (N m c) (a3 m c) (a4 m c) (a5 m c) (a6 m c)
/-- The second block's output. -/
def H2 : (⟨S100000x32, .f32⟩ : BufTy).Contents (Elt Ideal) :=
  Cert.Stages.block (H1 m c) (S m c) (D m c) (N m c) (a7 m c) (a8 m c) (a9 m c) (a10 m c)
/-- The third block's output. -/
def H3 : (⟨S100000x32, .f32⟩ : BufTy).Contents (Elt Ideal) :=
  Cert.Stages.block (H2 m c) (S m c) (D m c) (N m c) (a11 m c) (a12 m c) (a13 m c) (a14 m c)

/-! ## Before the first region -/

theorem src1 : W1 m ρ c (Proc.devRef .tc main_v5) = S m c := HostStages.src_hostOps0 (W0 m ρ c)
theorem dst1 : W1 m ρ c (Proc.devRef .tc main_v6) = D m c := HostStages.dst_hostOps0 (W0 m ρ c)

theorem src3 : W3 m ρ c (Proc.devRef .tc main_v5) = S m c :=
  calc W3 m ρ c (Proc.devRef .tc main_v5)
    _ = W2 m ρ c (Proc.devRef .tc main_v5) := by host_keep hostOps0_2
    _ = W1 m ρ c (Proc.devRef .tc main_v5) := by host_keep hostOps0_1
    _ = S m c := src1 m ρ c

theorem dst3 : W3 m ρ c (Proc.devRef .tc main_v6) = D m c :=
  calc W3 m ρ c (Proc.devRef .tc main_v6)
    _ = W2 m ρ c (Proc.devRef .tc main_v6) := by host_keep hostOps0_2
    _ = W1 m ρ c (Proc.devRef .tc main_v6) := by host_keep hostOps0_1
    _ = D m c := dst1 m ρ c

/-- The inverse square roots of the degrees, after the second stretch. -/
theorem dinv2 : W2 m ρ c (Proc.devRef .tc main_v14) = Cert.Stages.dinv (D m c) := by
  refine (HostStages.dinv_hostOps0_1 (W1 m ρ c)).trans ?_
  have e12 : W1 m ρ c (Proc.devRef .tc main_v12) = _ := HostStages.pos_hostOps0 (W0 m ρ c)
  have e13 : W1 m ρ c (Proc.devRef .tc main_v13) = _ := HostStages.rsqrt_hostOps0 (W0 m ρ c)
  have ec : W1 m ρ c (Proc.devRef .tc main_cst_2) = _ := HostStages.zero_hostOps0 (W0 m ρ c)
  rw [e12, e13, ec]
  rfl

theorem nrm3 : W3 m ρ c (Proc.devRef .tc main_v29) = N m c := by
  refine (HostStages.nrm_hostOps0_2 (W2 m ρ c)).trans ?_
  have e5 : W2 m ρ c (Proc.devRef .tc main_v5) = S m c := (by host_keep hostOps0_1 : W2 m ρ c (Proc.devRef .tc main_v5) = W1 m ρ c (Proc.devRef .tc main_v5)).trans (src1 m ρ c)
  have e6 : W2 m ρ c (Proc.devRef .tc main_v6) = D m c := (by host_keep hostOps0_1 : W2 m ρ c (Proc.devRef .tc main_v6) = W1 m ρ c (Proc.devRef .tc main_v6)).trans (dst1 m ρ c)
  rw [dinv2 m ρ c, e5, e6]
  rfl

/-! ## Block 1 -/

theorem p11 : W4 m ρ c (Proc.devRef .tc main_v30) = (Cert.Stages.mm (a0 m c) (a3 m c)) := by
  refine (W4_arr m ρ c 2).trans ?_
  refine (RegionVal.region0 (V3 m ρ) c).trans ?_
  have e0 : V3 m ρ c main_arg0 = (a0 m c) := Carry.arg0_at3 m ρ c
  have e1 : V3 m ρ c main_arg3 = (a3 m c) := Carry.arg3_at3 m ρ c
  rw [e0, e1]

theorem g11 : W5 m ρ c (Proc.devRef .tc main_v43) = (Cert.Stages.agg (Cert.Stages.mm (a0 m c) (a3 m c)) (S m c) (D m c) (N m c)) := by
  refine (HostStages.agg_hostOps1 (W4 m ρ c)).trans ?_
  rw [p11 m ρ c, Carry.src_at4 m ρ c, Carry.dst_at4 m ρ c, Carry.nrm_at4 m ρ c, src3 m ρ c, dst3 m ρ c, nrm3 m ρ c]

theorem r11 : W5 m ρ c (Proc.devRef .tc main_v44) = (Cert.Stages.bRow (a4 m c)) := by
  refine (HostStages.bias_hostOps1 (W4 m ρ c)).trans ?_
  rw [Carry.arg4_at4 m ρ c]
  exact Cert.Layout.row_cast_eq_bcast _ _ _

theorem q1 : W6 m ρ c (Proc.devRef .tc main_v45) = (Cert.Stages.mm (Cert.Stages.biasRelu (Cert.Stages.agg (Cert.Stages.mm (a0 m c) (a3 m c)) (S m c) (D m c) (N m c)) (Cert.Stages.bRow (a4 m c))) (a5 m c)) := by
  refine (W6_arr m ρ c 3).trans ?_
  refine (RegionVal.region1 (V5 m ρ) c).trans ?_
  have e0 : V5 m ρ c main_v43 = (Cert.Stages.agg (Cert.Stages.mm (a0 m c) (a3 m c)) (S m c) (D m c) (N m c)) := g11 m ρ c
  have e1 : V5 m ρ c main_v44 = (Cert.Stages.bRow (a4 m c)) := r11 m ρ c
  have e2 : V5 m ρ c main_arg5 = (a5 m c) := Carry.arg5_at5 m ρ c
  rw [e0, e1, e2]

theorem g12 : W7 m ρ c (Proc.devRef .tc main_v58) = (Cert.Stages.agg (Cert.Stages.mm (Cert.Stages.biasRelu (Cert.Stages.agg (Cert.Stages.mm (a0 m c) (a3 m c)) (S m c) (D m c) (N m c)) (Cert.Stages.bRow (a4 m c))) (a5 m c)) (S m c) (D m c) (N m c)) := by
  refine (HostStages.agg_hostOps2 (W6 m ρ c)).trans ?_
  rw [q1 m ρ c, Carry.src_at6 m ρ c, Carry.dst_at6 m ρ c, Carry.nrm_at6 m ρ c, src3 m ρ c, dst3 m ρ c, nrm3 m ρ c]

theorem r12 : W7 m ρ c (Proc.devRef .tc main_v59) = (Cert.Stages.bRow (a6 m c)) := by
  refine (HostStages.bias_hostOps2 (W6 m ρ c)).trans ?_
  rw [Carry.arg6_at6 m ρ c]
  exact Cert.Layout.row_cast_eq_bcast _ _ _

/-- Block 1's output. -/
theorem h1 : W8 m ρ c (Proc.devRef .tc main_v60) = H1 m c := by
  refine (W8_arr m ρ c 3).trans ?_
  refine (RegionVal.region2 (V7 m ρ) c).trans ?_
  have e0 : V7 m ρ c main_v58 = (Cert.Stages.agg (Cert.Stages.mm (Cert.Stages.biasRelu (Cert.Stages.agg (Cert.Stages.mm (a0 m c) (a3 m c)) (S m c) (D m c) (N m c)) (Cert.Stages.bRow (a4 m c))) (a5 m c)) (S m c) (D m c) (N m c)) := g12 m ρ c
  have e1 : V7 m ρ c main_v59 = (Cert.Stages.bRow (a6 m c)) := r12 m ρ c
  have e2 : V7 m ρ c main_arg0 = (a0 m c) := Carry.arg0_at7 m ρ c
  rw [e0, e1, e2]
  rfl

/-! ## Block 2 -/

theorem p21 : W9 m ρ c (Proc.devRef .tc main_v61) = (Cert.Stages.mm (H1 m c) (a7 m c)) := by
  refine (W9_arr m ρ c 2).trans ?_
  refine (RegionVal.region3 (V8 m ρ) c).trans ?_
  have e0 : V8 m ρ c main_v60 = (H1 m c) := h1 m ρ c
  have e1 : V8 m ρ c main_arg7 = (a7 m c) := Carry.arg7_at8 m ρ c
  rw [e0, e1]

theorem g21 : W10 m ρ c (Proc.devRef .tc main_v74) = (Cert.Stages.agg (Cert.Stages.mm (H1 m c) (a7 m c)) (S m c) (D m c) (N m c)) := by
  refine (HostStages.agg_hostOps4 (W9 m ρ c)).trans ?_
  rw [p21 m ρ c, Carry.src_at9 m ρ c, Carry.dst_at9 m ρ c, Carry.nrm_at9 m ρ c, src3 m ρ c, dst3 m ρ c, nrm3 m ρ c]

theorem r21 : W10 m ρ c (Proc.devRef .tc main_v75) = (Cert.Stages.bRow (a8 m c)) := by
  refine (HostStages.bias_hostOps4 (W9 m ρ c)).trans ?_
  rw [Carry.arg8_at9 m ρ c]
  exact Cert.Layout.row_cast_eq_bcast _ _ _

theorem q2 : W11 m ρ c (Proc.devRef .tc main_v76) = (Cert.Stages.mm (Cert.Stages.biasRelu (Cert.Stages.agg (Cert.Stages.mm (H1 m c) (a7 m c)) (S m c) (D m c) (N m c)) (Cert.Stages.bRow (a8 m c))) (a9 m c)) := by
  refine (W11_arr m ρ c 3).trans ?_
  refine (RegionVal.region4 (V10 m ρ) c).trans ?_
  have e0 : V10 m ρ c main_v74 = (Cert.Stages.agg (Cert.Stages.mm (H1 m c) (a7 m c)) (S m c) (D m c) (N m c)) := g21 m ρ c
  have e1 : V10 m ρ c main_v75 = (Cert.Stages.bRow (a8 m c)) := r21 m ρ c
  have e2 : V10 m ρ c main_arg9 = (a9 m c) := Carry.arg9_at10 m ρ c
  rw [e0, e1, e2]

theorem g22 : W12 m ρ c (Proc.devRef .tc main_v89) = (Cert.Stages.agg (Cert.Stages.mm (Cert.Stages.biasRelu (Cert.Stages.agg (Cert.Stages.mm (H1 m c) (a7 m c)) (S m c) (D m c) (N m c)) (Cert.Stages.bRow (a8 m c))) (a9 m c)) (S m c) (D m c) (N m c)) := by
  refine (HostStages.agg_hostOps5 (W11 m ρ c)).trans ?_
  rw [q2 m ρ c, Carry.src_at11 m ρ c, Carry.dst_at11 m ρ c, Carry.nrm_at11 m ρ c, src3 m ρ c, dst3 m ρ c, nrm3 m ρ c]

theorem r22 : W12 m ρ c (Proc.devRef .tc main_v90) = (Cert.Stages.bRow (a10 m c)) := by
  refine (HostStages.bias_hostOps5 (W11 m ρ c)).trans ?_
  rw [Carry.arg10_at11 m ρ c]
  exact Cert.Layout.row_cast_eq_bcast _ _ _

/-- Block 2's output. -/
theorem h2 : W13 m ρ c (Proc.devRef .tc main_v91) = H2 m c := by
  refine (W13_arr m ρ c 3).trans ?_
  refine (RegionVal.region5 (V12 m ρ) c).trans ?_
  have e0 : V12 m ρ c main_v89 = (Cert.Stages.agg (Cert.Stages.mm (Cert.Stages.biasRelu (Cert.Stages.agg (Cert.Stages.mm (H1 m c) (a7 m c)) (S m c) (D m c) (N m c)) (Cert.Stages.bRow (a8 m c))) (a9 m c)) (S m c) (D m c) (N m c)) := g22 m ρ c
  have e1 : V12 m ρ c main_v90 = (Cert.Stages.bRow (a10 m c)) := r22 m ρ c
  have e2 : V12 m ρ c main_v60 = (H1 m c) := (Carry.h1_at12 m ρ c).trans (h1 m ρ c)
  rw [e0, e1, e2]
  rfl

/-! ## Block 3 -/

theorem p31 : W14 m ρ c (Proc.devRef .tc main_v92) = (Cert.Stages.mm (H2 m c) (a11 m c)) := by
  refine (W14_arr m ρ c 2).trans ?_
  refine (RegionVal.region6 (V13 m ρ) c).trans ?_
  have e0 : V13 m ρ c main_v91 = (H2 m c) := h2 m ρ c
  have e1 : V13 m ρ c main_arg11 = (a11 m c) := Carry.arg11_at13 m ρ c
  rw [e0, e1]

theorem g31 : W15 m ρ c (Proc.devRef .tc main_v105) = (Cert.Stages.agg (Cert.Stages.mm (H2 m c) (a11 m c)) (S m c) (D m c) (N m c)) := by
  refine (HostStages.agg_hostOps7 (W14 m ρ c)).trans ?_
  rw [p31 m ρ c, Carry.src_at14 m ρ c, Carry.dst_at14 m ρ c, Carry.nrm_at14 m ρ c, src3 m ρ c, dst3 m ρ c, nrm3 m ρ c]

theorem r31 : W15 m ρ c (Proc.devRef .tc main_v106) = (Cert.Stages.bRow (a12 m c)) := by
  refine (HostStages.bias_hostOps7 (W14 m ρ c)).trans ?_
  rw [Carry.arg12_at14 m ρ c]
  exact Cert.Layout.row_cast_eq_bcast _ _ _

theorem q3 : W16 m ρ c (Proc.devRef .tc main_v107) = (Cert.Stages.mm (Cert.Stages.biasRelu (Cert.Stages.agg (Cert.Stages.mm (H2 m c) (a11 m c)) (S m c) (D m c) (N m c)) (Cert.Stages.bRow (a12 m c))) (a13 m c)) := by
  refine (W16_arr m ρ c 3).trans ?_
  refine (RegionVal.region7 (V15 m ρ) c).trans ?_
  have e0 : V15 m ρ c main_v105 = (Cert.Stages.agg (Cert.Stages.mm (H2 m c) (a11 m c)) (S m c) (D m c) (N m c)) := g31 m ρ c
  have e1 : V15 m ρ c main_v106 = (Cert.Stages.bRow (a12 m c)) := r31 m ρ c
  have e2 : V15 m ρ c main_arg13 = (a13 m c) := Carry.arg13_at15 m ρ c
  rw [e0, e1, e2]

theorem g32 : W17 m ρ c (Proc.devRef .tc main_v120) = (Cert.Stages.agg (Cert.Stages.mm (Cert.Stages.biasRelu (Cert.Stages.agg (Cert.Stages.mm (H2 m c) (a11 m c)) (S m c) (D m c) (N m c)) (Cert.Stages.bRow (a12 m c))) (a13 m c)) (S m c) (D m c) (N m c)) := by
  refine (HostStages.agg_hostOps8 (W16 m ρ c)).trans ?_
  rw [q3 m ρ c, Carry.src_at16 m ρ c, Carry.dst_at16 m ρ c, Carry.nrm_at16 m ρ c, src3 m ρ c, dst3 m ρ c, nrm3 m ρ c]

theorem r32 : W17 m ρ c (Proc.devRef .tc main_v121) = (Cert.Stages.bRow (a14 m c)) := by
  refine (HostStages.bias_hostOps8 (W16 m ρ c)).trans ?_
  rw [Carry.arg14_at16 m ρ c]
  exact Cert.Layout.row_cast_eq_bcast _ _ _

/-- Block 3's output. -/
theorem h3 : W18 m ρ c (Proc.devRef .tc main_v122) = H3 m c := by
  refine (W18_arr m ρ c 3).trans ?_
  refine (RegionVal.region8 (V17 m ρ) c).trans ?_
  have e0 : V17 m ρ c main_v120 = (Cert.Stages.agg (Cert.Stages.mm (Cert.Stages.biasRelu (Cert.Stages.agg (Cert.Stages.mm (H2 m c) (a11 m c)) (S m c) (D m c) (N m c)) (Cert.Stages.bRow (a12 m c))) (a13 m c)) (S m c) (D m c) (N m c)) := g32 m ρ c
  have e1 : V17 m ρ c main_v121 = (Cert.Stages.bRow (a14 m c)) := r32 m ρ c
  have e2 : V17 m ρ c main_v91 = (H2 m c) := (Carry.h2_at17 m ρ c).trans (h2 m ρ c)
  rw [e0, e1, e2]
  rfl

/-! ## The head -/

theorem sums19 : W19 m ρ c (Proc.devRef .tc main_v125) = Cert.Stages.sums (H3 m c) (a2 m c) := by
  refine (HostStages.sums_hostOps9 (W18 m ρ c)).trans ?_
  rw [h3 m ρ c, Carry.arg2_at18 m ρ c]

theorem cnts19 : W19 m ρ c (Proc.devRef .tc main_v130) = shapeCast S8192x1 (Cert.Stages.cnts (a2 m c)) shapeCasts_S8192_S8192x1 := by
  refine (HostStages.cnts_hostOps9 (W18 m ρ c)).trans ?_
  rw [Carry.arg2_at18 m ρ c]

theorem bias19 : W19 m ρ c (Proc.devRef .tc main_v131) = shapeCast S1x128 (a16 m c) shapeCasts_S128_S1x128 := by
  refine (HostStages.bias_hostOps9 (W18 m ρ c)).trans ?_
  rw [Carry.arg16_at18 m ρ c]

/-- The result buffer after @main: the network of the arguments as launched, the counts recast as a column and the
    head's bias as a row. -/
theorem result : W20 m ρ c (Proc.devRef .tc main_v132)
    = Cert.Stages.net (a0 m c) (a1 m c) (a2 m c) (a3 m c) (a4 m c) (a5 m c) (a6 m c) (a7 m c) (a8 m c) (a9 m c) (a10 m c) (a11 m c) (a12 m c) (a13 m c) (a14 m c) (a15 m c)
        (shapeCast S8192x1 (Cert.Stages.cnts (a2 m c)) shapeCasts_S8192_S8192x1) (shapeCast S1x128 (a16 m c) shapeCasts_S128_S1x128) := by
  refine (W20_arr m ρ c 4).trans ?_
  refine (RegionVal.region9 (V19 m ρ) c).trans ?_
  have e0 : V19 m ρ c main_v125 = Cert.Stages.sums (H3 m c) (a2 m c) := sums19 m ρ c
  have e1 : V19 m ρ c main_v130 = shapeCast S8192x1 (Cert.Stages.cnts (a2 m c)) shapeCasts_S8192_S8192x1 := cnts19 m ρ c
  have e2 : V19 m ρ c main_arg15 = (a15 m c) := Carry.arg15_at19 m ρ c
  have e3 : V19 m ρ c main_v131 = shapeCast S1x128 (a16 m c) shapeCasts_S128_S1x128 := bias19 m ρ c
  rw [e0, e1, e2, e3]
  rfl

end Cert.KernelIdeal.KChain

end
-- ==== Proof.RefReadEq.lean ====
/-
  The reference run's result term is the last stage of the operation-by-operation reading: the composed term of the
  arguments that the run states for the result buffer, and the stage `val_main_v274` of the same arguments, are one term.
-/
import proofs.«157759_j39539468927577_1_alg».proof.Proof.RefRun
import proofs.«157759_j39539468927577_1_alg».proof.Proof.RefRead

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

/-- The term the Run module names `res_main_v274` is the stage. -/
theorem val_main_v274_eq (m : (ℓ : Loc nD τ sig) → Buf (Elt F) ℓ) (c : Dev nD) :
    Cert.ReferenceIdeal.Value.res_main_v274 m c = val_main_v274 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := by
  unfold Cert.ReferenceIdeal.Value.res_main_v274; rfl

end Cert.ReferenceIdeal.Read

end
-- ==== Proof.RefNet.lean ====
/-
  The reference program, read as the network of the stages.

  The reference is a straight line of host operations. It computes the source and target lists of the graph once, and
  then, before each of its six aggregations, the degrees and the symmetric normalisation again: six copies of the same
  operations on the same lists. Each residual block is  x ↦ relu (relu (agg (relu (agg (x · W₁) + b₁) · W₂) + b₂ + x)),
  and the tail is the per-graph sums and counts, the division by max (counts, 1), the product with the head's weights
  and the head's bias. Operation by operation these ARE the stage functions applied to the reference's operands; the
  two places where the spelling differs are layout: the clamped counts become a column after the clamp in the reference
  and before it in the stage, and the head's bias becomes a row by a broadcast in the reference and by a cast in the
  stage. Both are the same arrays.
-/
import proofs.«157759_j39539468927577_1_alg».proof.Proof.RefRead
import proofs.«157759_j39539468927577_1_alg».proof.Proof.Stages
import proofs.«157759_j39539468927577_1_alg».proof.Proof.Layout

noncomputable section

namespace Cert.ReferenceIdeal.RefNet

open Idealize.ShloMosaic Cert.ReferenceIdeal Cert.ReferenceIdeal.Read Cert.ReferenceIdeal.Facts₀ Cert.ReferenceIdeal.Facts

section Structural

variable {F : FTy → Type} [FloatOps F]
variable (x0 : (⟨S100000x32, .f32⟩ : BufTy).Contents (Elt F))
  (x1 : (⟨S2x3200000, .i32⟩ : BufTy).Contents (Elt F))
  (x2 : (⟨S100000, .i32⟩ : BufTy).Contents (Elt F))
  (x3 : (⟨S32x32, .f32⟩ : BufTy).Contents (Elt F))
  (x4 : (⟨S32, .f32⟩ : BufTy).Contents (Elt F))
  (x5 : (⟨S32x32, .f32⟩ : BufTy).Contents (Elt F))
  (x6 : (⟨S32, .f32⟩ : BufTy).Contents (Elt F))
  (x7 : (⟨S32x32, .f32⟩ : BufTy).Contents (Elt F))
  (x8 : (⟨S32, .f32⟩ : BufTy).Contents (Elt F))
  (x9 : (⟨S32x32, .f32⟩ : BufTy).Contents (Elt F))
  (x10 : (⟨S32, .f32⟩ : BufTy).Contents (Elt F))
  (x11 : (⟨S32x32, .f32⟩ : BufTy).Contents (Elt F))
  (x12 : (⟨S32, .f32⟩ : BufTy).Contents (Elt F))
  (x13 : (⟨S32x32, .f32⟩ : BufTy).Contents (Elt F))
  (x14 : (⟨S32, .f32⟩ : BufTy).Contents (Elt F))
  (x15 : (⟨S32x128, .f32⟩ : BufTy).Contents (Elt F))
  (x16 : (⟨S128, .f32⟩ : BufTy).Contents (Elt F))

/-! ## The graph side -/

/-- The source list: the edge list's row 0 followed by the self loops. -/
theorem src_eq : val_main_v3 (F := F) x1 = Cert.Stages.src x1 := rfl
/-- The target list: the edge list's row 1 followed by the self loops. -/
theorem dst_eq : val_main_v6 (F := F) x1 = Cert.Stages.dst x1 := rfl

/-! The reference computes the degrees and the normalisation once per aggregation, six times in all: every copy is the
    same operations applied to the same source and target lists. -/
theorem nrm_v30 : val_main_v30 (F := F) x1 = Cert.Stages.nrm (val_main_v3 x1) (val_main_v6 x1) := rfl
theorem nrm_v71 : val_main_v71 (F := F) x1 = Cert.Stages.nrm (val_main_v3 x1) (val_main_v6 x1) := rfl
theorem nrm_v114 : val_main_v114 (F := F) x1 = Cert.Stages.nrm (val_main_v3 x1) (val_main_v6 x1) := rfl
theorem nrm_v155 : val_main_v155 (F := F) x1 = Cert.Stages.nrm (val_main_v3 x1) (val_main_v6 x1) := rfl
theorem nrm_v198 : val_main_v198 (F := F) x1 = Cert.Stages.nrm (val_main_v3 x1) (val_main_v6 x1) := rfl
theorem nrm_v239 : val_main_v239 (F := F) x1 = Cert.Stages.nrm (val_main_v3 x1) (val_main_v6 x1) := rfl

/-! ## Residual block 1 -/

theorem mm_v7 : val_main_v7 (F := F) x0 x3 = Cert.Stages.mm x0 x3 := rfl
theorem agg_v43 : val_main_v43 (F := F) x0 x1 x3 = Cert.Stages.agg (val_main_v7 x0 x3) (val_main_v3 x1) (val_main_v6 x1) (val_main_v30 x1) := rfl
theorem relu_v47 : val_main_v47 (F := F) x0 x1 x3 x4 = Cert.Stages.biasRelu (val_main_v43 x0 x1 x3) (Cert.Stages.bRow x4) := rfl
theorem mm_v48 : val_main_v48 (F := F) x0 x1 x3 x4 x5 = Cert.Stages.mm (val_main_v47 x0 x1 x3 x4) x5 := rfl
theorem agg_v84 : val_main_v84 (F := F) x0 x1 x3 x4 x5 = Cert.Stages.agg (val_main_v48 x0 x1 x3 x4 x5) (val_main_v3 x1) (val_main_v6 x1) (val_main_v71 x1) := rfl
theorem res_v90 : val_main_v90 (F := F) x0 x1 x3 x4 x5 x6 = Cert.Stages.biasResRelu (val_main_v84 x0 x1 x3 x4 x5) (Cert.Stages.bRow x6) x0 := rfl

/-- Block 1: two graph convolutions on the shared graph, the block's input added back before the last relu. -/
theorem block1 : val_main_v90 (F := F) x0 x1 x3 x4 x5 x6
    = Cert.Stages.block x0 (Cert.Stages.src x1) (Cert.Stages.dst x1) (Cert.Stages.nrm (Cert.Stages.src x1) (Cert.Stages.dst x1)) x3 x4 x5 x6 := by
  unfold Cert.Stages.block
  rw [res_v90, agg_v84, mm_v48, relu_v47, agg_v43, mm_v7, nrm_v30, nrm_v71, src_eq, dst_eq]

/-! ## Residual block 2 -/

theorem mm_v91 : val_main_v91 (F := F) x0 x1 x3 x4 x5 x6 x7 = Cert.Stages.mm (val_main_v90 x0 x1 x3 x4 x5 x6) x7 := rfl
theorem agg_v127 : val_main_v127 (F := F) x0 x1 x3 x4 x5 x6 x7 = Cert.Stages.agg (val_main_v91 x0 x1 x3 x4 x5 x6 x7) (val_main_v3 x1) (val_main_v6 x1) (val_main_v114 x1) := rfl
theorem relu_v131 : val_main_v131 (F := F) x0 x1 x3 x4 x5 x6 x7 x8 = Cert.Stages.biasRelu (val_main_v127 x0 x1 x3 x4 x5 x6 x7) (Cert.Stages.bRow x8) := rfl
theorem mm_v132 : val_main_v132 (F := F) x0 x1 x3 x4 x5 x6 x7 x8 x9 = Cert.Stages.mm (val_main_v131 x0 x1 x3 x4 x5 x6 x7 x8) x9 := rfl
theorem agg_v168 : val_main_v168 (F := F) x0 x1 x3 x4 x5 x6 x7 x8 x9 = Cert.Stages.agg (val_main_v132 x0 x1 x3 x4 x5 x6 x7 x8 x9) (val_main_v3 x1) (val_main_v6 x1) (val_main_v155 x1) := rfl
theorem res_v174 : val_main_v174 (F := F) x0 x1 x3 x4 x5 x6 x7 x8 x9 x10 = Cert.Stages.biasResRelu (val_main_v168 x0 x1 x3 x4 x5 x6 x7 x8 x9) (Cert.Stages.bRow x10) (val_main_v90 x0 x1 x3 x4 x5 x6) := rfl

/-- Block 2: two graph convolutions on the shared graph, the block's input added back before the last relu. -/
theorem block2 : val_main_v174 (F := F) x0 x1 x3 x4 x5 x6 x7 x8 x9 x10
    = Cert.Stages.block (val_main_v90 x0 x1 x3 x4 x5 x6) (Cert.Stages.src x1) (Cert.Stages.dst x1) (Cert.Stages.nrm (Cert.Stages.src x1) (Cert.Stages.dst x1)) x7 x8 x9 x10 := by
  unfold Cert.Stages.block
  rw [res_v174, agg_v168, mm_v132, relu_v131, agg_v127, mm_v91, nrm_v114, nrm_v155, src_eq, dst_eq]

/-! ## Residual block 3 -/

theorem mm_v175 : val_main_v175 (F := F) x0 x1 x3 x4 x5 x6 x7 x8 x9 x10 x11 = Cert.Stages.mm (val_main_v174 x0 x1 x3 x4 x5 x6 x7 x8 x9 x10) x11 := rfl
theorem agg_v211 : val_main_v211 (F := F) x0 x1 x3 x4 x5 x6 x7 x8 x9 x10 x11 = Cert.Stages.agg (val_main_v175 x0 x1 x3 x4 x5 x6 x7 x8 x9 x10 x11) (val_main_v3 x1) (val_main_v6 x1) (val_main_v198 x1) := rfl
theorem relu_v215 : val_main_v215 (F := F) x0 x1 x3 x4 x5 x6 x7 x8 x9 x10 x11 x12 = Cert.Stages.biasRelu (val_main_v211 x0 x1 x3 x4 x5 x6 x7 x8 x9 x10 x11) (Cert.Stages.bRow x12) := rfl
theorem mm_v216 : val_main_v216 (F := F) x0 x1 x3 x4 x5 x6 x7 x8 x9 x10 x11 x12 x13 = Cert.Stages.mm (val_main_v215 x0 x1 x3 x4 x5 x6 x7 x8 x9 x10 x11 x12) x13 := rfl
theorem agg_v252 : val_main_v252 (F := F) x0 x1 x3 x4 x5 x6 x7 x8 x9 x10 x11 x12 x13 = Cert.Stages.agg (val_main_v216 x0 x1 x3 x4 x5 x6 x7 x8 x9 x10 x11 x12 x13) (val_main_v3 x1) (val_main_v6 x1) (val_main_v239 x1) := rfl
theorem res_v258 : val_main_v258 (F := F) x0 x1 x3 x4 x5 x6 x7 x8 x9 x10 x11 x12 x13 x14 = Cert.Stages.biasResRelu (val_main_v252 x0 x1 x3 x4 x5 x6 x7 x8 x9 x10 x11 x12 x13) (Cert.Stages.bRow x14) (val_main_v174 x0 x1 x3 x4 x5 x6 x7 x8 x9 x10) := rfl

/-- Block 3: two graph convolutions on the shared graph, the block's input added back before the last relu. -/
theorem block3 : val_main_v258 (F := F) x0 x1 x3 x4 x5 x6 x7 x8 x9 x10 x11 x12 x13 x14
    = Cert.Stages.block (val_main_v174 x0 x1 x3 x4 x5 x6 x7 x8 x9 x10) (Cert.Stages.src x1) (Cert.Stages.dst x1) (Cert.Stages.nrm (Cert.Stages.src x1) (Cert.Stages.dst x1)) x11 x12 x13 x14 := by
  unfold Cert.Stages.block
  rw [res_v258, agg_v252, mm_v216, relu_v215, agg_v211, mm_v175, nrm_v198, nrm_v239, src_eq, dst_eq]

/-! ## The pool's two scatter-adds -/

theorem sums_v261 : val_main_v261 (F := F) x0 x1 x2 x3 x4 x5 x6 x7 x8 x9 x10 x11 x12 x13 x14 = Cert.Stages.sums (val_main_v258 x0 x1 x3 x4 x5 x6 x7 x8 x9 x10 x11 x12 x13 x14) x2 := rfl
theorem cnts_v265 : val_main_v265 (F := F) x2 = Cert.Stages.cnts x2 := rfl

/-- The head, with the clamped counts and the bias row as the reference builds them. -/
theorem head_v274 : val_main_v274 (F := F) x0 x1 x2 x3 x4 x5 x6 x7 x8 x9 x10 x11 x12 x13 x14 x15 x16
    = addf (Host.dotGeneral dot_S8192x32_S32x128_S8192x128_1_0_0_1_n_n none
        (Host.divf (val_main_v261 x0 x1 x2 x3 x4 x5 x6 x7 x8 x9 x10 x11 x12 x13 x14) (broadcastInDim S8192x32 ![0, 1] bcast_S8192x1_S8192x32_0_1 (val_main_v268 x2))) x15)
      (broadcastInDim S8192x128 ![0, 1] bcast_S1x128_S8192x128_0_1 (val_main_v272 x16)) := rfl

end Structural

section AtIdeal

variable (x0 : (⟨S100000x32, .f32⟩ : BufTy).Contents (Elt Ideal))
  (x1 : (⟨S2x3200000, .i32⟩ : BufTy).Contents (Elt Ideal))
  (x2 : (⟨S100000, .i32⟩ : BufTy).Contents (Elt Ideal))
  (x3 : (⟨S32x32, .f32⟩ : BufTy).Contents (Elt Ideal))
  (x4 : (⟨S32, .f32⟩ : BufTy).Contents (Elt Ideal))
  (x5 : (⟨S32x32, .f32⟩ : BufTy).Contents (Elt Ideal))
  (x6 : (⟨S32, .f32⟩ : BufTy).Contents (Elt Ideal))
  (x7 : (⟨S32x32, .f32⟩ : BufTy).Contents (Elt Ideal))
  (x8 : (⟨S32, .f32⟩ : BufTy).Contents (Elt Ideal))
  (x9 : (⟨S32x32, .f32⟩ : BufTy).Contents (Elt Ideal))
  (x10 : (⟨S32, .f32⟩ : BufTy).Contents (Elt Ideal))
  (x11 : (⟨S32x32, .f32⟩ : BufTy).Contents (Elt Ideal))
  (x12 : (⟨S32, .f32⟩ : BufTy).Contents (Elt Ideal))
  (x13 : (⟨S32x32, .f32⟩ : BufTy).Contents (Elt Ideal))
  (x14 : (⟨S32, .f32⟩ : BufTy).Contents (Elt Ideal))
  (x15 : (⟨S32x128, .f32⟩ : BufTy).Contents (Elt Ideal))
  (x16 : (⟨S128, .f32⟩ : BufTy).Contents (Elt Ideal))

/-! ## The two layout facts, at the exact extended reals -/

/-- The clamped counts as a column: the reference clamps the vector and then makes it a column, the stage makes the
    counts a column and clamps against the column of ones. -/
theorem col_v268 (hcol : S8192.ShapeCasts S8192x1) :
    val_main_v268 (F := Ideal) x2 = maximumf (F := Ideal) (s := S8192x1) (φ := .f32) (shapeCast S8192x1 (Cert.Stages.cnts (F := Ideal) x2) hcol) (Cert.Stages.onesCol (F := Ideal)) :=
  Cert.Layout.col_max (val_main_v265 (F := Ideal) x2) (val_main_v266 (F := Ideal)) hcol bcast_S8192_S8192x1_0

/-- The head's bias as a row: the broadcast along a new leading unit axis is the cast to [1, 128]. -/
theorem row_v272 (hrow : S128.ShapeCasts S1x128) :
    val_main_v272 (F := Ideal) x16 = shapeCast S1x128 x16 hrow :=
  (Cert.Layout.row_cast_eq_bcast x16 hrow bcast_S128_S1x128_1).symm

/-! ## The whole reference -/

/-- The reference's result is the network of the stages: three residual blocks on the shared graph, the per-graph
    mean, the linear head. -/
theorem ref_net (hcol : S8192.ShapeCasts S8192x1) (hrow : S128.ShapeCasts S1x128) :
    val_main_v274 (F := Ideal) x0 x1 x2 x3 x4 x5 x6 x7 x8 x9 x10 x11 x12 x13 x14 x15 x16
      = Cert.Stages.net (F := Ideal) x0 x1 x2 x3 x4 x5 x6 x7 x8 x9 x10 x11 x12 x13 x14 x15
          (shapeCast S8192x1 (Cert.Stages.cnts x2) hcol) (shapeCast S1x128 x16 hrow) := by
  unfold Cert.Stages.net Cert.Stages.poolLinear
  rw [head_v274, col_v268 x2 hcol, row_v272 x16 hrow, sums_v261, block3, block2, block1]

end AtIdeal

end Cert.ReferenceIdeal.RefNet

end
-- ==== Proof.lean ====
/-
  The certificate of a three-block graph network: the kernel program (ten tiled regions among host operations)
  against its whole-array reference.

  The claim's five parts. The two kernel frames are the generated frame certificates. The reference has no kernel:
  its frame is its run with the result dropped. `preserves` is trivial: the idealised kernel is the kernel's own text
  read over the extended reals. `algebraic`: both programs end with the same result array. For the kernel program
  this array is read off its run segment by segment (KRun, KChain): each region's output is one whole-array stage —
  a product with a weight matrix, relu of a biased aggregate times a matrix, relu of a biased aggregate plus the
  block's input, and the mean-pool head — of the arrays it found, each host stretch the host operations' term, so the
  result is the network function `Stages.net` of the arguments. For the reference the same function is read off its
  run operation by operation (RefNet). The two programs differ only in how the per-node stages are evaluated (row
  blocks of 5000 nodes against whole arrays; the degree normalisation computed once against six times; one relu
  against the reference's idempotent two), never in the order of a sum: no law that needs finite inputs is used.
-/
import proofs.«157759_j39539468927577_1_alg».proof.Defs
import proofs.«157759_j39539468927577_1_alg».proof.Proof.Gen.Kernel
import proofs.«157759_j39539468927577_1_alg».proof.Proof.Gen.Kernel.Frame
import proofs.«157759_j39539468927577_1_alg».proof.Proof.Gen.KernelIdeal
import proofs.«157759_j39539468927577_1_alg».proof.Proof.Gen.KernelIdeal.Frame
import proofs.«157759_j39539468927577_1_alg».proof.Proof.Gen.ReferenceIdeal
import proofs.«157759_j39539468927577_1_alg».proof.Proof.Gen.Pre_finite_inputs
import proofs.«157759_j39539468927577_1_alg».proof.Proof.KRun
import proofs.«157759_j39539468927577_1_alg».proof.Proof.KChain
import proofs.«157759_j39539468927577_1_alg».proof.Proof.RefRun
import proofs.«157759_j39539468927577_1_alg».proof.Proof.RefRead
import proofs.«157759_j39539468927577_1_alg».proof.Proof.RefReadEq
import proofs.«157759_j39539468927577_1_alg».proof.Proof.RefNet
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the statement about the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs, from memories that agree on the arguments, end with the network function of the arguments in
    their result buffers. -/
theorem algebraic : Cert.algebraic_KernelIdeal_ReferenceIdeal := by
  intro m ρ m' ρ' _ hagree
  refine ⟨fun c => Cert.KernelIdeal.Gen.W20 m ρ c (Proc.devRef .tc Cert.KernelIdeal.main_v132),
    Cert.KernelIdeal.KRun.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16⟩ := hagree c
  rw [Cert.ReferenceIdeal.Read.val_main_v274_eq,
    Cert.ReferenceIdeal.RefNet.ref_net _ _ _ _ _ _ _ _ _ _ _ _ _ _ _ _ _
      Cert.KernelIdeal.Gen.shapeCasts_S8192_S8192x1 Cert.KernelIdeal.Gen.shapeCasts_S128_S1x128,
    h0, h1, h2, h3, h4, h5, h6, h7, h8, h9, h10, h11, h12, h13, h14, h15, h16]
  exact (Cert.KernelIdeal.KChain.result m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
